-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x6 : Shape := ⟨2, ![1600000, 6]⟩
abbrev S1600000x3 : Shape := ⟨2, ![1600000, 3]⟩
abbrev S1600000 : Shape := ⟨1, ![1600000]⟩
abbrev S6x128 : Shape := ⟨2, ![6, 128]⟩
abbrev S128 : Shape := ⟨1, ![128]⟩
abbrev S3x128 : Shape := ⟨2, ![3, 128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x6 : S_.BroadcastsInDim S1600000x6 (![] : Fin 0 → Fin S1600000x6.rank)
  reducesTo_S1600000x6_S_d0_1 : S1600000x6.ReducesTo [0, 1] S_
  bcast_S_S1600000x3 : S_.BroadcastsInDim S1600000x3 (![] : Fin 0 → Fin S1600000x3.rank)
  reducesTo_S1600000x3_S_d0_1 : S1600000x3.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128x256 .f32) (main_arg10 : FVec F S256 .f32) (main_arg11 : FVec F S256x128 .f32) (main_arg12 : FVec F S128 .f32) (main_arg13 : FVec F S128 .f32) (main_arg14 : FVec F S128 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S3x128 .f32) (main_arg8 : FVec F S128 .f32) (main_arg9 : FVec F S128x256 .f32) (main_arg10 : FVec F S256 .f32) (main_arg11 : FVec F S256x128 .f32) (main_arg12 : FVec F S128 .f32) (main_arg13 : FVec F S128 .f32) (main_arg14 : FVec F S128 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : FVec F S1600000x6 .f32) (main_arg2 : FVec F S1600000x3 .f32) (main_arg3 : IVec S1600000 32) (main_arg4 : IVec S1600000 32) (main_arg5 : FVec F S6x128 .f32) (main_arg6 : FVec F S128 .f32) (main_arg7 : FVec F S3x128 .f32) (main_arg8 : FVec F S128 .f32) (main_arg9 : FVec F S128x256 .f32) (main_arg10 : FVec F S256 .f32) (main_arg11 : FVec F S256x128 .f32) (main_arg12 : FVec F S128 .f32) (main_arg13 : FVec F S128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x6 .f32 := Host.absf main_arg1
  let main_cst_0 : FVec F S_ .f32 := constant S_ .f32 0x7F800000#32
  let main_v5 : FVec F S1600000x6 .f32 := broadcastInDim S1600000x6 ![] bcast_S_S1600000x6 main_cst_0
  let main_v6 : IVec S1600000x6 1 := cmpf .olt main_v4 main_v5
  let main_c_1 : IVec S_ 1 := constantI S_ 1 1#1
  let main_v7 : IVec S_ 1 := (fun x v => Host.reduce IntOp.andi x v reducesTo_S1600000x6_S_d0_1 h_S_) main_v6 main_c_1
  let main_v8 : IVec S_ 1 := andi main_v3 main_v7
  let main_v9 : FVec F S1600000x3 .f32 := Host.absf main_arg2
  let main_cst_2 : FVec F S_ .f32 := constant S_ .f32 0x7F800000#32
  let main_v10 : FVec F S1600000x3 .f32 := broadcastInDim S1600000x3 ![] bcast_S_S1600000x3 main_cst_2
  let main_v11 : IVec S1600000x3 1 := cmpf .olt main_v9 main_v10
  let main_c_3 : IVec S_ 1 := constantI S_ 1 1#1
  let main_v12 : IVec S_ 1 := (fun x v => Host.reduce IntOp.andi x v reducesTo_S1600000x3_S_d0_1 h_S_) main_v11 main_c_3
  let main_v13 : IVec S_ 1 := andi main_v8 main_v12
  let main_v14 : FVec F S6x128 .f32 := Host.absf main_arg5
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S1600000x6 : Shape := ⟨2, ![1600000, 6]⟩
abbrev S1600000x3 : Shape := ⟨2, ![1600000, 3]⟩
abbrev S1600000 : Shape := ⟨1, ![1600000]⟩
abbrev S6x128 : Shape := ⟨2, ![6, 128]⟩
abbrev S128 : Shape := ⟨1, ![128]⟩
abbrev S3x128 : Shape := ⟨2, ![3, 128]⟩
abbrev S128x256 : Shape := ⟨2, ![128, 256]⟩
abbrev S256 : Shape := ⟨1, ![256]⟩
abbrev S256x128 : Shape := ⟨2, ![256, 128]⟩
abbrev S_ : Shape := ⟨0, ![]⟩
abbrev S1600000x1 : Shape := ⟨2, ![1600000, 1]⟩
abbrev S1600000x10 : Shape := ⟨2, ![1600000, 10]⟩
abbrev S100000x10 : Shape := ⟨2, ![100000, 10]⟩
abbrev S1x128 : Shape := ⟨2, ![1, 128]⟩
abbrev S10x128 : Shape := ⟨2, ![10, 128]⟩
abbrev S1600000x128 : Shape := ⟨2, ![1600000, 128]⟩
abbrev S1x256 : Shape := ⟨2, ![1, 256]⟩
abbrev S20x1x128 : Shape := ⟨3, ![20, 1, 128]⟩
abbrev S5000x128 : Shape := ⟨2, ![5000, 128]⟩
abbrev S5000x10 : Shape := ⟨2, ![5000, 10]⟩
abbrev S1x1x128 : Shape := ⟨3, ![1, 1, 128]⟩
abbrev S5000x256 : Shape := ⟨2, ![5000, 256]⟩

abbrev nBuf : Space → Nat
  | .hbm => 60
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1600000x6, .f32⟩
  | .hbm, ⟨2, _⟩ => ⟨S1600000x3, .f32⟩
  | .hbm, ⟨3, _⟩ => ⟨S1600000, .i32⟩
  | .hbm, ⟨4, _⟩ => ⟨S1600000, .i32⟩
  | .hbm, ⟨5, _⟩ => ⟨S6x128, .f32⟩
  | .hbm, ⟨6, _⟩ => ⟨S128, .f32⟩
  | .hbm, ⟨7, _⟩ => ⟨S3x128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S1600000x1, .f32⟩
  | .hbm, ⟨17, _⟩ => ⟨S1600000x10, .f32⟩
  | .hbm, ⟨18, _⟩ => ⟨S_, .f32⟩
  | .hbm, ⟨19, _⟩ => ⟨S100000x10, .f32⟩
  | .hbm, ⟨20, _⟩ => ⟨S1600000x1, .i32⟩
  | .hbm, ⟨21, _⟩ => ⟨S100000x10, .f32⟩
  | .hbm, ⟨22, _⟩ => ⟨S128, .f32⟩
  | .hbm, ⟨23, _⟩ => ⟨S1x128, .f32⟩
  | .hbm, ⟨24, _⟩ => ⟨S10x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x256, .f32⟩
  | .hbm, ⟨39, _⟩ => ⟨S1x128, .f32⟩
  | .hbm, ⟨40, _⟩ => ⟨S100000x128, .f32⟩
  | .hbm, ⟨41, _⟩ => ⟨S20x1x128, .f32⟩
  | .hbm, ⟨42, _⟩ => ⟨S_, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S20x1x128, .f32⟩
  | .hbm, ⟨48, _⟩ => ⟨S_, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x10, .f32⟩
  | .local _ .vmem, ⟨3, _⟩ => ⟨S5000x10, .f32⟩
  | .local _ .vmem, ⟨4, _⟩ => ⟨S10x128, .f32⟩
  | .local _ .vmem, ⟨5, _⟩ => ⟨S128x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x1x128, .f32⟩
  | .local _ .vmem, ⟨12, _⟩ => ⟨S1x1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x1x128, .f32⟩
  | .local _ .vmem, ⟨17, _⟩ => ⟨S1x1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_cst_3 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000x1 : S_.BroadcastsInDim S1600000x1 (![] : Fin 0 → Fin S1600000x1.rank)
  concatenates_S1600000x6_S1600000x3_S1600000x1_S1600000x10_d1 : Shape.Concatenates [S1600000x6, S1600000x3, S1600000x1] S1600000x10 1
  bcast_S_S100000x10 : S_.BroadcastsInDim S100000x10 (![] : Fin 0 → Fin S100000x10.rank)
  bcast_S1600000_S1600000x1_0 : S1600000.BroadcastsInDim S1600000x1 (![0] : Fin 1 → Fin S1600000x1.rank)
  shapeCasts_S128_S1x128 : S128.ShapeCasts S1x128
  concatenates_S6x128_S3x128_S1x128_S10x128_d0 : Shape.Concatenates [S6x128, S3x128, S1x128] S10x128 0
  bcast_S_S1600000 : S_.BroadcastsInDim S1600000 (![] : Fin 0 → Fin S1600000.rank)
  bcast_S_S100000x128 : S_.BroadcastsInDim S100000x128 (![] : Fin 0 → Fin S100000x128.rank)
  shapeCasts_S256_S1x256 : S256.ShapeCasts S1x256
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  bitsLt_bf16_f32 : FTy.bits .bf16 < FTy.bits .f32
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S20x1x128_S1x128_d0 : S20x1x128.ReducesTo [0] S1x128
  h_S_ : 0 < S_.numel
  bcast_S_S1x128 : S_.BroadcastsInDim S1x128 (![] : Fin 0 → Fin S1x128.rank)
  scatter_S100000x10_S1600000x1_S1600000x10_1_0_0_1_wf : ScatterDims.WF S100000x10 S1600000x1 S1600000x10 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x10_S10x128_S5000x128_1_0_0_1_n_n_wf : DotDims.WF S5000x10 S10x128 S5000x128 [1] [0] [0] [1] [] []
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x10.size a ≤ S100000x10.size a
  hwx0_1 : ∀ i : grid0.Coords, EltTy.bits .f32 = 32 ∨ (Rect.block (s := S100000x10) S5000x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x128.size a ≤ S10x128.size a
  hwx0_2 : ∀ i : grid0.Coords, EltTy.bits .f32 = 32 ∨ (Rect.block (s := S10x128) S10x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S20x1x128.size a
  hwx0_8 : ∀ i : grid0.Coords, EltTy.bits .f32 = 32 ∨ (Rect.block (s := S20x1x128) S1x1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S20x1x128.size a
  hwx1_2 : ∀ i : grid1.Coords, EltTy.bits .f32 = 32 ∨ (Rect.block (s := S20x1x128) S1x1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x10_S10x128_S5000x128_1_0_0_1_n_n : DotDims S5000x10 S10x128 S5000x128 where
  lhsContracting := [1]
  rhsContracting := [0]
  lhsNonContracting := [0]
  rhsNonContracting := [1]
  lhsBatch := []
  rhsBatch := []
  wf := dot_S5000x10_S10x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20_1) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000x6 : Shape := ⟨2, ![1600000, 6]⟩
abbrev S1600000x3 : Shape := ⟨2, ![1600000, 3]⟩
abbrev S1600000 : Shape := ⟨1, ![1600000]⟩
abbrev S6x128 : Shape := ⟨2, ![6, 128]⟩
abbrev S128 : Shape := ⟨1, ![128]⟩
abbrev S3x128 : Shape := ⟨2, ![3, 128]⟩
abbrev S128x256 : Shape := ⟨2, ![128, 256]⟩
abbrev S256 : Shape := ⟨1, ![256]⟩
abbrev S256x128 : Shape := ⟨2, ![256, 128]⟩
abbrev S1600000x128 : Shape := ⟨2, ![1600000, 128]⟩
abbrev S1x128 : Shape := ⟨2, ![1, 128]⟩
abbrev S_ : Shape := ⟨0, ![]⟩
abbrev S1600000x1 : Shape := ⟨2, ![1600000, 1]⟩
abbrev S100000x256 : Shape := ⟨2, ![100000, 256]⟩
abbrev S1x256 : Shape := ⟨2, ![1, 256]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x6, .f32⟩
  | .hbm, ⟨2, _⟩ => ⟨S1600000x3, .f32⟩
  | .hbm, ⟨3, _⟩ => ⟨S1600000, .i32⟩
  | .hbm, ⟨4, _⟩ => ⟨S1600000, .i32⟩
  | .hbm, ⟨5, _⟩ => ⟨S6x128, .f32⟩
  | .hbm, ⟨6, _⟩ => ⟨S128, .f32⟩
  | .hbm, ⟨7, _⟩ => ⟨S3x128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1600000x128, .f32⟩
  | .hbm, ⟨16, _⟩ => ⟨S1x128, .f32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S1x128, .f32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x256, .f32⟩
  | .hbm, ⟨39, _⟩ => ⟨S1x256, .f32⟩
  | .hbm, ⟨40, _⟩ => ⟨S100000x256, .f32⟩
  | .hbm, ⟨41, _⟩ => ⟨S100000x256, .f32⟩
  | .hbm, ⟨42, _⟩ => ⟨S_, .f32⟩
  | .hbm, ⟨43, _⟩ => ⟨S100000x256, .f32⟩
  | .hbm, ⟨44, _⟩ => ⟨S100000x256, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S_, .i32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S_, .f32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_cst : Ref sig .tc := ⟨.hbm, 42, rfl⟩
abbrev main_call0_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_1 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_c_3 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_cst_3 : Ref sig .tc := ⟨.hbm, 71, rfl⟩
abbrev main_call1_v12 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_4 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S1600000x6_S6x128_S1600000x128_1_0_0_1_n_n_wf : DotDims.WF S1600000x6 S6x128 S1600000x128 [1] [0] [0] [1] [] []
  dot_S1600000x3_S3x128_S1600000x128_1_0_0_1_n_n_wf : DotDims.WF S1600000x3 S3x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def dot_S1600000x6_S6x128_S1600000x128_1_0_0_1_n_n : DotDims S1600000x6 S6x128 S1600000x128 where
  lhsContracting := [1]
  rhsContracting := [0]
  lhsNonContracting := [0]
  rhsNonContracting := [1]
  lhsBatch := []
  rhsBatch := []
  wf := dot_S1600000x6_S6x128_S1600000x128_1_0_0_1_n_n_wf
def dot_S1600000x3_S3x128_S1600000x128_1_0_0_1_n_n : DotDims S1600000x3 S3x128 S1600000x128 where
  lhsContracting := [1]
  rhsContracting := [0]
  lhsNonContracting := [0]
  rhsNonContracting := [1]
  lhsBatch := []
  rhsBatch := []
  wf := dot_S1600000x3_S3x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KDefs.lean ====
/-
  The three kernel regions of @main, each described at a parameter `V` (what the TensorCore's buffers hold when the
  region is entered): the block every window shows the body at a grid point, what the body leaves in each output
  window's buffer as a function of the input blocks, and the per-core proof data built from these. Then the contents of
  every unscoped buffer at the seven boundaries of @main's six segments (host stretch, region, host stretch, region,
  host stretch, region), as a fold from the launch memory: a host stretch acts by `StableHlo.after`, a region replaces
  its windows' arrays by what its write-backs leave and keeps every other buffer.
  Definitions and their projection lemmas only; the separation-logic half is in the frame module.
-/
import proofs.«142321_j69939247448309_2_alg».proof.Proof.Gen.KernelIdeal.Launch
import proofs.«142321_j69939247448309_2_alg».proof.Proof.Gen.KernelIdeal.Skeleton
import proofs.«142321_j69939247448309_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

variable (V : (c : Dev nD) → (b : Ref sig .tc) → Buf (Elt F) ((c : Thread nD τ).loc b))

/-! # Region 0 (`cc0__mlp_reduce_kernel`) at the entry contents `V` -/

/-- The block of window `w` at grid point `t`: the rectangle of the window's array its index map selects there, read
    off `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The body reads and writes every staging buffer whole: one rectangle per window, the full extent from the origin. -/
abbrev r0_0 : Rect S5000x128 := Rect.unit (s := S5000x128) ![0, 0] S5000x128.size inb_S5000x128_S5000x128_0_0
abbrev r0_1 : Rect S5000x10 := Rect.unit (s := S5000x10) ![0, 0] S5000x10.size inb_S5000x10_S5000x10_0_0
abbrev r0_2 : Rect S10x128 := Rect.unit (s := S10x128) ![0, 0] S10x128.size inb_S10x128_S10x128_0_0
abbrev r0_3 : Rect S128x256 := Rect.unit (s := S128x256) ![0, 0] S128x256.size inb_S128x256_S128x256_0_0
abbrev r0_4 : Rect S1x256 := Rect.unit (s := S1x256) ![0, 0] S1x256.size inb_S1x256_S1x256_0_0
abbrev r0_5 : Rect S256x128 := Rect.unit (s := S256x128) ![0, 0] S256x128.size inb_S256x128_S256x128_0_0
abbrev r0_6 : Rect S1x128 := Rect.unit (s := S1x128) ![0, 0] S1x128.size inb_S1x128_S1x128_0_0
abbrev r0_7 : Rect S5000x128 := Rect.unit (s := S5000x128) ![0, 0] S5000x128.size inb_S5000x128_S5000x128_0_0
abbrev r0_8 : Rect S1x1x128 := Rect.unit (s := S1x1x128) ![0, 0, 0] S1x1x128.size inb_S1x1x128_S1x1x128_0_0_0

/-- What the body leaves in window 7's staging buffer when the input windows' buffers hold `x0 …`: the buffer is
    overwritten whole by its single store, whose value is `k0_pay1` of the loaded inputs (the payload's arguments
    are in the order the body loads them, which is not the windows' order). -/
def out0_7 (x0 : Vec F S5000x128 .f32) (x1 : Vec F S5000x10 .f32) (x2 : Vec F S10x128 .f32) (x3 : Vec F S128x256 .f32) (x4 : Vec F S1x256 .f32) (x5 : Vec F S256x128 .f32) (x6 : Vec F S1x128 .f32) : Vec F S5000x128 .f32 :=
  View.canon [⟨r0_7, k0_pay1 (View.ld x1 r0_1) (View.ld x2 r0_2) (View.ld x0 r0_0) (View.ld x3 r0_3) (View.ld x4 r0_4) (View.ld x5 r0_5) (View.ld x6 r0_6)⟩]

/-- What the body leaves in window 8's staging buffer when the input windows' buffers hold `x0 …`: the buffer is
    overwritten whole by its single store, whose value is `k0_pay2` of the loaded inputs (the payload's arguments
    are in the order the body loads them, which is not the windows' order). -/
def out0_8 (x0 : Vec F S5000x128 .f32) (x1 : Vec F S5000x10 .f32) (x2 : Vec F S10x128 .f32) (x3 : Vec F S128x256 .f32) (x4 : Vec F S1x256 .f32) (x5 : Vec F S256x128 .f32) (x6 : Vec F S1x128 .f32) : Vec F S1x1x128 .f32 :=
  View.canon [⟨r0_8, k0_pay2 (View.ld x1 r0_1) (View.ld x2 r0_2) (View.ld x0 r0_0) (View.ld x3 r0_3) (View.ld x4 r0_4) (View.ld x5 r0_5) (View.ld x6 r0_6)⟩]

/-- The proof data of region 0 on core `c`: the windows' arrays are `V`'s; after the body at point `t` an input
    window's buffer still holds its block and an output window's holds `out0_W` of the input blocks; the invariant
    is the class-A one (the scoped rest and the generator register, untouched); full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-! # Region 1 (`cc1__bn_stats_kernel`) at the entry contents `V` -/

/-- The block of window `w` at grid point `t`: the rectangle of the window's array its index map selects there, read
    off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! The body reads and writes every staging buffer whole: one rectangle per window, the full extent from the origin. -/
abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S1x1x128 := Rect.unit (s := S1x1x128) ![0, 0, 0] S1x1x128.size inb_S1x1x128_S1x1x128_0_0_0

/-- What the body leaves in window 2's staging buffer when the input windows' buffers hold `x0 …`: the buffer is
    overwritten whole by its single store, whose value is `k1_pay1` of the loaded inputs (the payload's arguments
    are in the order the body loads them, which is not the windows' order). -/
def out1_2 (x0 : Vec F S5000x128 .f32) (x1 : Vec F S1x128 .f32) : Vec F S1x1x128 .f32 :=
  View.canon [⟨r1_2, k1_pay1 (View.ld x0 r1_0) (View.ld x1 r1_1)⟩]

/-- The proof data of region 1 on core `c`: the windows' arrays are `V`'s; after the body at point `t` an input
    window's buffer still holds its block and an output window's holds `out1_W` of the input blocks; the invariant
    is the class-A one (the scoped rest and the generator register, untouched); full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! # Region 2 (`cc2__bn_apply_kernel`) at the entry contents `V` -/

/-- The block of window `w` at grid point `t`: the rectangle of the window's array its index map selects there, read
    off `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! The body reads and writes every staging buffer whole: one rectangle per window, the full extent from the origin. -/
abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S1x128 := Rect.unit (s := S1x128) ![0, 0] S1x128.size inb_S1x128_S1x128_0_0
abbrev r2_3 : Rect S1x128 := Rect.unit (s := S1x128) ![0, 0] S1x128.size inb_S1x128_S1x128_0_0
abbrev r2_4 : Rect S1x128 := Rect.unit (s := S1x128) ![0, 0] S1x128.size inb_S1x128_S1x128_0_0
abbrev r2_5 : Rect S5000x128 := Rect.unit (s := S5000x128) ![0, 0] S5000x128.size inb_S5000x128_S5000x128_0_0

/-- What the body leaves in window 5's staging buffer when the input windows' buffers hold `x0 …`: the buffer is
    overwritten whole by its single store, whose value is `k2_pay1` of the loaded inputs (the payload's arguments
    are in the order the body loads them, which is not the windows' order). -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_5, k2_pay1 (View.ld x0 r2_0) (View.ld x1 r2_1) (View.ld x2 r2_2) (View.ld x3 r2_3) (View.ld x4 r2_4)⟩]

/-- The proof data of region 2 on core `c`: the windows' arrays are `V`'s; after the body at point `t` an input
    window's buffer still holds its block and an output window's holds `out2_W` of the input blocks; the invariant
    is the class-A one (the scoped rest and the generator register, untouched); full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

end Regions

/-! # The buffer contents at the segment boundaries -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`: region 0's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: each of its windows' arrays at what the pipeline leaves there (an input as entered, an output
    with every write-back folded in: `Dat.arrAt … N`), every other buffer as at entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At region 0's exit every window's array holds what the pipeline leaves, -/
theorem hF0 (c : Dev nD) (w : Fin cfg0.W) : (dat0 (V1 m ρ) c).arrAt w cfg0.N = V2 m ρ c (Pipeline.arrRef spec0 w) :=
  (W2_arr m ρ c w).symm
/-- and every buffer that is no window's array holds what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1`: region 1's entry. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit: each of its windows' arrays at what the pipeline leaves there (an input as entered, an output
    with every write-back folded in: `Dat.arrAt … N`), every other buffer as at entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At region 1's exit every window's array holds what the pipeline leaves, -/
theorem hF1 (c : Dev nD) (w : Fin cfg1.W) : (dat1 (V3 m ρ) c).arrAt w cfg1.N = V4 m ρ c (Pipeline.arrRef spec1 w) :=
  (W4_arr m ρ c w).symm
/-- and every buffer that is no window's array holds what it held at entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After `hostOps2`: region 2's entry. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- At region 2's exit: each of its windows' arrays at what the pipeline leaves there (an input as entered, an output
    with every write-back folded in: `Dat.arrAt … N`), every other buffer as at entry. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- At region 2's exit every window's array holds what the pipeline leaves, -/
theorem hF2 (c : Dev nD) (w : Fin cfg2.W) : (dat2 (V5 m ρ) c).arrAt w cfg2.N = V6 m ρ c (Pipeline.arrRef spec2 w) :=
  (W6_arr m ρ c w).symm
/-- and every buffer that is no window's array holds what it held at entry. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

end Cert.KernelIdeal.Hand

end
-- ==== Proof.KBody0.lean ====
/-
  Region 0 (`cc0__mlp_reduce_kernel`): the body obligation of its pipeline at the proof data `dat0 V`. At every grid point the
  input windows' staging buffers hold their blocks (whether the pipeline fetched them at that point or not), the body
  run on whole staging buffers leaves the inputs as they were and each output buffer overwritten by its single store,
  and that is what `dat0` records as `after`.
-/
import proofs.«142321_j69939247448309_2_alg».proof.Proof.KDefs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

/-- Input window 0's current staging buffer holds its block at every point: where the pipeline fetched it, by the
    fetch; where it did not, the window's block index has not moved since the last fetch and the body leaves the buffer
    as it found it. For any proof data with `V`'s array and a body keeping the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point: where the pipeline fetched it, by the
    fetch; where it did not, the window's block index has not moved since the last fetch and the body leaves the buffer
    as it found it. For any proof data with `V`'s array and a body keeping the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point: where the pipeline fetched it, by the
    fetch; where it did not, the window's block index has not moved since the last fetch and the body leaves the buffer
    as it found it. For any proof data with `V`'s array and a body keeping the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point: where the pipeline fetched it, by the
    fetch; where it did not, the window's block index has not moved since the last fetch and the body leaves the buffer
    as it found it. For any proof data with `V`'s array and a body keeping the block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point: where the pipeline fetched it, by the
    fetch; where it did not, the window's block index has not moved since the last fetch and the body leaves the buffer
    as it found it. For any proof data with `V`'s array and a body keeping the block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

/-- Input window 5's current staging buffer holds its block at every point: where the pipeline fetched it, by the
    fetch; where it did not, the window's block index has not moved since the last fetch and the body leaves the buffer
    as it found it. For any proof data with `V`'s array and a body keeping the block. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

/-- Input window 6's current staging buffer holds its block at every point: where the pipeline fetched it, by the
    fetch; where it did not, the window's block index has not moved since the last fetch and the body leaves the buffer
    as it found it. For any proof data with `V`'s array and a body keeping the block. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_6 (c : Dev nD) (t : Fin cfg0.N) (d) : (dat0 V c).before 6 t d = iblk0 V c 6 t :=
  before0_6_of V (dat0 V c) (A_eq0 V c 6) (after0_6 V c) t d

/-! ## The body on whole staging buffers -/

/-- The single store to window 7's buffer is of the whole buffer, so it covers it. -/
theorem cover0_7 (p0 : Vec F S5000x128 .f32) (y : S5000x128.Idx) :
    ∃ pc ∈ ([⟨r0_7, p0⟩] : List (View.Piece (Elt F) S5000x128 .f32)), y ∈ pc.1.set :=
  View.cover_of_wholeMem _ (View.Piece.wholeMem_here (by rfl)) y

/-- The single store to window 8's buffer is of the whole buffer, so it covers it. -/
theorem cover0_8 (p0 : Vec F S1x1x128 .f32) (y : S1x1x128.Idx) :
    ∃ pc ∈ ([⟨r0_8, p0⟩] : List (View.Piece (Elt F) S1x1x128 .f32)), y ∈ pc.1.set :=
  View.cover_of_wholeMem _ (View.Piece.wholeMem_here (by rfl)) y

set_option maxHeartbeats 1000000 in
/-- The body on whole staging buffers, the inputs' holding `x0 …` and the outputs' anything, runs to a state where the
    inputs' hold what they held and each output's holds `out0_W` of the inputs: the body only loads (its load of an
    output buffer is of a value it never uses) and stores each output once, whole. -/
theorem sound_kernel0 (c : Dev nD) (E : Set ℕ) (i : grid0.Coords) (arg0 : Memref sig .tc .vmem S5000x128 .f32) (harg0 : arg0.IsWhole) (arg1 : Memref sig .tc .vmem S5000x10 .f32) (harg1 : arg1.IsWhole) (arg2 : Memref sig .tc .vmem S10x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x1x128 .f32) (harg8 : arg8.IsWhole)
    (x0 : Vec F S5000x128 .f32) (x1 : Vec F S5000x10 .f32) (x2 : Vec F S10x128 .f32) (x3 : Vec F S128x256 .f32) (x4 : Vec F S1x256 .f32) (x5 : Vec F S256x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6) ∗ owns (c : Thread nD τ) arg8 fullShare (out0_8 x0 x1 x2 x3 x4 x5 x6)) -∗ K ⟨⟩))
      ⊢ wp frame (wpE (defs₀ (F := F)) Variants.none c none) E (cc0__mlp_reduce_kernel i arg0 harg0 arg1 harg1 arg2 harg2 arg3 harg3 arg4 harg4 arg5 harg5 arg6 harg6 arg7 harg7 arg8 harg8) K := by
  simp only [cc0__mlp_reduce_kernel_eq_skeleton]; unfold cc0__mlp_reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The body obligation -/

/-- What the pipeline hands the body at point `t`: the invariant, the core's dues, every window's current staging
    buffer at what `dat0` says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What the body hands back: the same with every buffer at `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KBody1.lean ====
/-
  Region 1 (`cc1__bn_stats_kernel`): the body obligation of its pipeline at the proof data `dat1 V`. At every grid point the
  input windows' staging buffers hold their blocks (whether the pipeline fetched them at that point or not), the body
  run on whole staging buffers leaves the inputs as they were and each output buffer overwritten by its single store,
  and that is what `dat1` records as `after`.
-/
import proofs.«142321_j69939247448309_2_alg».proof.Proof.KDefs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

/-- Input window 0's current staging buffer holds its block at every point: where the pipeline fetched it, by the
    fetch; where it did not, the window's block index has not moved since the last fetch and the body leaves the buffer
    as it found it. For any proof data with `V`'s array and a body keeping the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point: where the pipeline fetched it, by the
    fetch; where it did not, the window's block index has not moved since the last fetch and the body leaves the buffer
    as it found it. For any proof data with `V`'s array and a body keeping the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-! ## The body on whole staging buffers -/

/-- The single store to window 2's buffer is of the whole buffer, so it covers it. -/
theorem cover1_2 (p0 : Vec F S1x1x128 .f32) (y : S1x1x128.Idx) :
    ∃ pc ∈ ([⟨r1_2, p0⟩] : List (View.Piece (Elt F) S1x1x128 .f32)), y ∈ pc.1.set :=
  View.cover_of_wholeMem _ (View.Piece.wholeMem_here (by rfl)) y

set_option maxHeartbeats 1000000 in
/-- The body on whole staging buffers, the inputs' holding `x0 …` and the outputs' anything, runs to a state where the
    inputs' hold what they held and each output's holds `out1_W` of the inputs: the body only loads (its load of an
    output buffer is of a value it never uses) and stores each output once, whole. -/
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x1x128 .f32) (harg2 : arg2.IsWhole)
    (x0 : Vec F S5000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__bn_stats_kernel i arg0 harg0 arg1 harg1 arg2 harg2) K := by
  simp only [cc1__bn_stats_kernel_eq_skeleton]; unfold cc1__bn_stats_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation -/

/-- What the pipeline hands the body at point `t`: the invariant, the core's dues, every window's current staging
    buffer at what `dat1` says it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the same with every buffer at `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KBody2.lean ====
/-
  Region 2 (`cc2__bn_apply_kernel`): the body obligation of its pipeline at the proof data `dat2 V`. At every grid point the
  input windows' staging buffers hold their blocks (whether the pipeline fetched them at that point or not), the body
  run on whole staging buffers leaves the inputs as they were and each output buffer overwritten by its single store,
  and that is what `dat2` records as `after`.
-/
import proofs.«142321_j69939247448309_2_alg».proof.Proof.KDefs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

/-- Input window 0's current staging buffer holds its block at every point: where the pipeline fetched it, by the
    fetch; where it did not, the window's block index has not moved since the last fetch and the body leaves the buffer
    as it found it. For any proof data with `V`'s array and a body keeping the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

/-- Input window 1's current staging buffer holds its block at every point: where the pipeline fetched it, by the
    fetch; where it did not, the window's block index has not moved since the last fetch and the body leaves the buffer
    as it found it. For any proof data with `V`'s array and a body keeping the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

/-- Input window 2's current staging buffer holds its block at every point: where the pipeline fetched it, by the
    fetch; where it did not, the window's block index has not moved since the last fetch and the body leaves the buffer
    as it found it. For any proof data with `V`'s array and a body keeping the block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

/-- Input window 3's current staging buffer holds its block at every point: where the pipeline fetched it, by the
    fetch; where it did not, the window's block index has not moved since the last fetch and the body leaves the buffer
    as it found it. For any proof data with `V`'s array and a body keeping the block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d

/-- Input window 4's current staging buffer holds its block at every point: where the pipeline fetched it, by the
    fetch; where it did not, the window's block index has not moved since the last fetch and the body leaves the buffer
    as it found it. For any proof data with `V`'s array and a body keeping the block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d

/-! ## The body on whole staging buffers -/

/-- The single store to window 5's buffer is of the whole buffer, so it covers it. -/
theorem cover2_5 (p0 : Vec F S5000x128 .f32) (y : S5000x128.Idx) :
    ∃ pc ∈ ([⟨r2_5, p0⟩] : List (View.Piece (Elt F) S5000x128 .f32)), y ∈ pc.1.set :=
  View.cover_of_wholeMem _ (View.Piece.wholeMem_here (by rfl)) y

set_option maxHeartbeats 1000000 in
/-- The body on whole staging buffers, the inputs' holding `x0 …` and the outputs' anything, runs to a state where the
    inputs' hold what they held and each output's holds `out2_W` of the inputs: the body only loads (its load of an
    output buffer is of a value it never uses) and stores each output once, whole. -/
theorem sound_kernel2 (c : Dev nD) (E : Set ℕ) (i : grid2.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__bn_apply_kernel i arg0 harg0 arg1 harg1 arg2 harg2 arg3 harg3 arg4 harg4 arg5 harg5) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation -/

/-- What the pipeline hands the body at point `t`: the invariant, the core's dues, every window's current staging
    buffer at what `dat2` says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body hands back: the same with every buffer at `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KFrame.lean ====
/-
  The run of @main as six segments — host stretch, region 0, host stretch, region 1, host stretch, region 2 — over the
  thread state "every unscoped buffer whole at the boundary's contents `WJ`, the generator register at some state,
  nothing owed". A host stretch takes `WJ` to `StableHlo.after` of it; a region splits its windows' arrays out of the
  unscoped buffers, runs its pipeline on the body obligation, and puts the arrays back at what the write-backs leave.
  Conclusion: every weakly fair execution terminates without fault and ends with EVERY unscoped buffer at `W6`
  (`run_all`); the argument arrays, which no segment writes, are then read back to their launch contents (`frame`).
-/
import proofs.«142321_j69939247448309_2_alg».proof.Proof.KDefs
import proofs.«142321_j69939247448309_2_alg».proof.Proof.KBody0
import proofs.«142321_j69939247448309_2_alg».proof.Proof.KBody1
import proofs.«142321_j69939247448309_2_alg».proof.Proof.KBody2
import proofs.«142321_j69939247448309_2_alg».proof.Proof.Gen.KernelIdeal.Regions

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays at the end

No host operation writes an argument and no region has one as an output window's array (regions read `main_arg9` and
`main_arg11` through input windows, which the pipeline leaves as entered), so `W6` at an argument walks back through the
six boundaries to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := (W2_arr m ρ c 3).trans (((dat0 (V1 m ρ) c).arrAt_in 3 rfl _).trans (A_eq0 (V1 m ρ) c 3))
    _ = W0 m ρ c (Proc.devRef .tc main_arg9) := StableHlo.after_of_writes_sub hostOps0 _ hostOps0_writes (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := (W2_arr m ρ c 5).trans (((dat0 (V1 m ρ) c).arrAt_in 5 rfl _).trans (A_eq0 (V1 m ρ) c 5))
    _ = W0 m ρ c (Proc.devRef .tc main_arg11) := StableHlo.after_of_writes_sub hostOps0 _ hostOps0_writes (by decide)
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

/-! ## The proof data family and the thread state -/

/-- No pipeline has a prefetched table. -/
abbrev adm : (p : Fin 3) → (pcfgs (F := F) p).Adm := fun p => (cfgs p).toPCfg_adm
/-- Every pipeline's proof data at its region's entry contents; a literal match so that the pinned configuration at a
    numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its windows' arrays
    are split out of the unscoped buffers at entry and joined back at the exit contents; the generator register goes
    into the class-A invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows' arrays
    are split out of the unscoped buffers at entry and joined back at the exit contents; the generator register goes
    into the class-A invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its windows' arrays
    are split out of the unscoped buffers at entry and joined back at the exit contents; the generator register goes
    into the class-A invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and every final state has every unscoped buffer of every core at `W6`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame claim at any `F`: @main runs (terminates, no fault) and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c)⟩)
    (run_all m ρ)

/-- The same run read at the result array and the arguments: the result `main_v33` ends at `W6`'s contents, every
    argument as launched. -/
theorem run_value : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨h c _ (mem_uc main_v33 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c)⟩)
    (run_all m ρ)

end Cert.KernelIdeal.Hand

end
-- ==== Proof.KBDefs.lean ====
/-
  The three kernel regions of @main, each described at a parameter `V` (what the TensorCore's buffers hold when the
  region is entered): the block every window shows the body at a grid point, what the body leaves in each output
  window's buffer as a function of the input blocks, and the per-core proof data built from these. Then the contents of
  every unscoped buffer at the seven boundaries of @main's six segments (host stretch, region, host stretch, region,
  host stretch, region), as a fold from the launch memory: a host stretch acts by `StableHlo.after`, a region replaces
  its windows' arrays by what its write-backs leave and keeps every other buffer.
  Definitions and their projection lemmas only; the separation-logic half is in the frame module.
-/
import proofs.«142321_j69939247448309_2_alg».proof.Proof.Gen.Kernel.Launch
import proofs.«142321_j69939247448309_2_alg».proof.Proof.Gen.Kernel.Skeleton
import proofs.«142321_j69939247448309_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

variable (V : (c : Dev nD) → (b : Ref sig .tc) → Buf (Elt F) ((c : Thread nD τ).loc b))

/-! # Region 0 (`cc0__mlp_reduce_kernel`) at the entry contents `V` -/

/-- The block of window `w` at grid point `t`: the rectangle of the window's array its index map selects there, read
    off `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The body reads and writes every staging buffer whole: one rectangle per window, the full extent from the origin. -/
abbrev r0_0 : Rect S5000x128 := Rect.unit (s := S5000x128) ![0, 0] S5000x128.size inb_S5000x128_S5000x128_0_0
abbrev r0_1 : Rect S5000x10 := Rect.unit (s := S5000x10) ![0, 0] S5000x10.size inb_S5000x10_S5000x10_0_0
abbrev r0_2 : Rect S10x128 := Rect.unit (s := S10x128) ![0, 0] S10x128.size inb_S10x128_S10x128_0_0
abbrev r0_3 : Rect S128x256 := Rect.unit (s := S128x256) ![0, 0] S128x256.size inb_S128x256_S128x256_0_0
abbrev r0_4 : Rect S1x256 := Rect.unit (s := S1x256) ![0, 0] S1x256.size inb_S1x256_S1x256_0_0
abbrev r0_5 : Rect S256x128 := Rect.unit (s := S256x128) ![0, 0] S256x128.size inb_S256x128_S256x128_0_0
abbrev r0_6 : Rect S1x128 := Rect.unit (s := S1x128) ![0, 0] S1x128.size inb_S1x128_S1x128_0_0
abbrev r0_7 : Rect S5000x128 := Rect.unit (s := S5000x128) ![0, 0] S5000x128.size inb_S5000x128_S5000x128_0_0
abbrev r0_8 : Rect S1x1x128 := Rect.unit (s := S1x1x128) ![0, 0, 0] S1x1x128.size inb_S1x1x128_S1x1x128_0_0_0

/-- What the body leaves in window 7's staging buffer when the input windows' buffers hold `x0 …`: the buffer is
    overwritten whole by its single store, whose value is `k0_pay1` of the loaded inputs (the payload's arguments
    are in the order the body loads them, which is not the windows' order). -/
def out0_7 (x0 : Vec F S5000x128 .f32) (x1 : Vec F S5000x10 .f32) (x2 : Vec F S10x128 .f32) (x3 : Vec F S128x256 .f32) (x4 : Vec F S1x256 .f32) (x5 : Vec F S256x128 .f32) (x6 : Vec F S1x128 .f32) : Vec F S5000x128 .f32 :=
  View.canon [⟨r0_7, k0_pay1 (View.ld x1 r0_1) (View.ld x2 r0_2) (View.ld x0 r0_0) (View.ld x3 r0_3) (View.ld x4 r0_4) (View.ld x5 r0_5) (View.ld x6 r0_6)⟩]

/-- What the body leaves in window 8's staging buffer when the input windows' buffers hold `x0 …`: the buffer is
    overwritten whole by its single store, whose value is `k0_pay2` of the loaded inputs (the payload's arguments
    are in the order the body loads them, which is not the windows' order). -/
def out0_8 (x0 : Vec F S5000x128 .f32) (x1 : Vec F S5000x10 .f32) (x2 : Vec F S10x128 .f32) (x3 : Vec F S128x256 .f32) (x4 : Vec F S1x256 .f32) (x5 : Vec F S256x128 .f32) (x6 : Vec F S1x128 .f32) : Vec F S1x1x128 .f32 :=
  View.canon [⟨r0_8, k0_pay2 (View.ld x1 r0_1) (View.ld x2 r0_2) (View.ld x0 r0_0) (View.ld x3 r0_3) (View.ld x4 r0_4) (View.ld x5 r0_5) (View.ld x6 r0_6)⟩]

/-- The proof data of region 0 on core `c`: the windows' arrays are `V`'s; after the body at point `t` an input
    window's buffer still holds its block and an output window's holds `out0_W` of the input blocks; the invariant
    is the class-A one (the scoped rest and the generator register, untouched); full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-! # Region 1 (`cc1__bn_stats_kernel`) at the entry contents `V` -/

/-- The block of window `w` at grid point `t`: the rectangle of the window's array its index map selects there, read
    off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! The body reads and writes every staging buffer whole: one rectangle per window, the full extent from the origin. -/
abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S1x1x128 := Rect.unit (s := S1x1x128) ![0, 0, 0] S1x1x128.size inb_S1x1x128_S1x1x128_0_0_0

/-- What the body leaves in window 2's staging buffer when the input windows' buffers hold `x0 …`: the buffer is
    overwritten whole by its single store, whose value is `k1_pay1` of the loaded inputs (the payload's arguments
    are in the order the body loads them, which is not the windows' order). -/
def out1_2 (x0 : Vec F S5000x128 .f32) (x1 : Vec F S1x128 .f32) : Vec F S1x1x128 .f32 :=
  View.canon [⟨r1_2, k1_pay1 (View.ld x0 r1_0) (View.ld x1 r1_1)⟩]

/-- The proof data of region 1 on core `c`: the windows' arrays are `V`'s; after the body at point `t` an input
    window's buffer still holds its block and an output window's holds `out1_W` of the input blocks; the invariant
    is the class-A one (the scoped rest and the generator register, untouched); full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! # Region 2 (`cc2__bn_apply_kernel`) at the entry contents `V` -/

/-- The block of window `w` at grid point `t`: the rectangle of the window's array its index map selects there, read
    off `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! The body reads and writes every staging buffer whole: one rectangle per window, the full extent from the origin. -/
abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S1x128 := Rect.unit (s := S1x128) ![0, 0] S1x128.size inb_S1x128_S1x128_0_0
abbrev r2_3 : Rect S1x128 := Rect.unit (s := S1x128) ![0, 0] S1x128.size inb_S1x128_S1x128_0_0
abbrev r2_4 : Rect S1x128 := Rect.unit (s := S1x128) ![0, 0] S1x128.size inb_S1x128_S1x128_0_0
abbrev r2_5 : Rect S5000x128 := Rect.unit (s := S5000x128) ![0, 0] S5000x128.size inb_S5000x128_S5000x128_0_0

/-- What the body leaves in window 5's staging buffer when the input windows' buffers hold `x0 …`: the buffer is
    overwritten whole by its single store, whose value is `k2_pay1` of the loaded inputs (the payload's arguments
    are in the order the body loads them, which is not the windows' order). -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_5, k2_pay1 (View.ld x0 r2_0) (View.ld x1 r2_1) (View.ld x2 r2_2) (View.ld x3 r2_3) (View.ld x4 r2_4)⟩]

/-- The proof data of region 2 on core `c`: the windows' arrays are `V`'s; after the body at point `t` an input
    window's buffer still holds its block and an output window's holds `out2_W` of the input blocks; the invariant
    is the class-A one (the scoped rest and the generator register, untouched); full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

end Regions

/-! # The buffer contents at the segment boundaries -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`: region 0's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: each of its windows' arrays at what the pipeline leaves there (an input as entered, an output
    with every write-back folded in: `Dat.arrAt … N`), every other buffer as at entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At region 0's exit every window's array holds what the pipeline leaves, -/
theorem hF0 (c : Dev nD) (w : Fin cfg0.W) : (dat0 (V1 m ρ) c).arrAt w cfg0.N = V2 m ρ c (Pipeline.arrRef spec0 w) :=
  (W2_arr m ρ c w).symm
/-- and every buffer that is no window's array holds what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1`: region 1's entry. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit: each of its windows' arrays at what the pipeline leaves there (an input as entered, an output
    with every write-back folded in: `Dat.arrAt … N`), every other buffer as at entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At region 1's exit every window's array holds what the pipeline leaves, -/
theorem hF1 (c : Dev nD) (w : Fin cfg1.W) : (dat1 (V3 m ρ) c).arrAt w cfg1.N = V4 m ρ c (Pipeline.arrRef spec1 w) :=
  (W4_arr m ρ c w).symm
/-- and every buffer that is no window's array holds what it held at entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After `hostOps2`: region 2's entry. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- At region 2's exit: each of its windows' arrays at what the pipeline leaves there (an input as entered, an output
    with every write-back folded in: `Dat.arrAt … N`), every other buffer as at entry. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- At region 2's exit every window's array holds what the pipeline leaves, -/
theorem hF2 (c : Dev nD) (w : Fin cfg2.W) : (dat2 (V5 m ρ) c).arrAt w cfg2.N = V6 m ρ c (Pipeline.arrRef spec2 w) :=
  (W6_arr m ρ c w).symm
/-- and every buffer that is no window's array holds what it held at entry. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

end Cert.Kernel.Hand

end
-- ==== Proof.KBBody0.lean ====
/-
  Region 0 (`cc0__mlp_reduce_kernel`): the body obligation of its pipeline at the proof data `dat0 V`. At every grid point the
  input windows' staging buffers hold their blocks (whether the pipeline fetched them at that point or not), the body
  run on whole staging buffers leaves the inputs as they were and each output buffer overwritten by its single store,
  and that is what `dat0` records as `after`.
-/
import proofs.«142321_j69939247448309_2_alg».proof.Proof.KBDefs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

/-- Input window 0's current staging buffer holds its block at every point: where the pipeline fetched it, by the
    fetch; where it did not, the window's block index has not moved since the last fetch and the body leaves the buffer
    as it found it. For any proof data with `V`'s array and a body keeping the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point: where the pipeline fetched it, by the
    fetch; where it did not, the window's block index has not moved since the last fetch and the body leaves the buffer
    as it found it. For any proof data with `V`'s array and a body keeping the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point: where the pipeline fetched it, by the
    fetch; where it did not, the window's block index has not moved since the last fetch and the body leaves the buffer
    as it found it. For any proof data with `V`'s array and a body keeping the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point: where the pipeline fetched it, by the
    fetch; where it did not, the window's block index has not moved since the last fetch and the body leaves the buffer
    as it found it. For any proof data with `V`'s array and a body keeping the block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point: where the pipeline fetched it, by the
    fetch; where it did not, the window's block index has not moved since the last fetch and the body leaves the buffer
    as it found it. For any proof data with `V`'s array and a body keeping the block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

/-- Input window 5's current staging buffer holds its block at every point: where the pipeline fetched it, by the
    fetch; where it did not, the window's block index has not moved since the last fetch and the body leaves the buffer
    as it found it. For any proof data with `V`'s array and a body keeping the block. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

/-- Input window 6's current staging buffer holds its block at every point: where the pipeline fetched it, by the
    fetch; where it did not, the window's block index has not moved since the last fetch and the body leaves the buffer
    as it found it. For any proof data with `V`'s array and a body keeping the block. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_6 (c : Dev nD) (t : Fin cfg0.N) (d) : (dat0 V c).before 6 t d = iblk0 V c 6 t :=
  before0_6_of V (dat0 V c) (A_eq0 V c 6) (after0_6 V c) t d

/-! ## The body on whole staging buffers -/

/-- The single store to window 7's buffer is of the whole buffer, so it covers it. -/
theorem cover0_7 (p0 : Vec F S5000x128 .f32) (y : S5000x128.Idx) :
    ∃ pc ∈ ([⟨r0_7, p0⟩] : List (View.Piece (Elt F) S5000x128 .f32)), y ∈ pc.1.set :=
  View.cover_of_wholeMem _ (View.Piece.wholeMem_here (by rfl)) y

/-- The single store to window 8's buffer is of the whole buffer, so it covers it. -/
theorem cover0_8 (p0 : Vec F S1x1x128 .f32) (y : S1x1x128.Idx) :
    ∃ pc ∈ ([⟨r0_8, p0⟩] : List (View.Piece (Elt F) S1x1x128 .f32)), y ∈ pc.1.set :=
  View.cover_of_wholeMem _ (View.Piece.wholeMem_here (by rfl)) y

set_option maxHeartbeats 1000000 in
/-- The body on whole staging buffers, the inputs' holding `x0 …` and the outputs' anything, runs to a state where the
    inputs' hold what they held and each output's holds `out0_W` of the inputs: the body only loads (its load of an
    output buffer is of a value it never uses) and stores each output once, whole. -/
theorem sound_kernel0 (c : Dev nD) (E : Set ℕ) (i : grid0.Coords) (arg0 : Memref sig .tc .vmem S5000x128 .f32) (harg0 : arg0.IsWhole) (arg1 : Memref sig .tc .vmem S5000x10 .f32) (harg1 : arg1.IsWhole) (arg2 : Memref sig .tc .vmem S10x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x1x128 .f32) (harg8 : arg8.IsWhole)
    (x0 : Vec F S5000x128 .f32) (x1 : Vec F S5000x10 .f32) (x2 : Vec F S10x128 .f32) (x3 : Vec F S128x256 .f32) (x4 : Vec F S1x256 .f32) (x5 : Vec F S256x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6) ∗ owns (c : Thread nD τ) arg8 fullShare (out0_8 x0 x1 x2 x3 x4 x5 x6)) -∗ K ⟨⟩))
      ⊢ wp frame (wpE (defs₀ (F := F)) Variants.none c none) E (cc0__mlp_reduce_kernel i arg0 harg0 arg1 harg1 arg2 harg2 arg3 harg3 arg4 harg4 arg5 harg5 arg6 harg6 arg7 harg7 arg8 harg8) K := by
  simp only [cc0__mlp_reduce_kernel_eq_skeleton]; unfold cc0__mlp_reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The body obligation -/

/-- What the pipeline hands the body at point `t`: the invariant, the core's dues, every window's current staging
    buffer at what `dat0` says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What the body hands back: the same with every buffer at `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBBody1.lean ====
/-
  Region 1 (`cc1__bn_stats_kernel`): the body obligation of its pipeline at the proof data `dat1 V`. At every grid point the
  input windows' staging buffers hold their blocks (whether the pipeline fetched them at that point or not), the body
  run on whole staging buffers leaves the inputs as they were and each output buffer overwritten by its single store,
  and that is what `dat1` records as `after`.
-/
import proofs.«142321_j69939247448309_2_alg».proof.Proof.KBDefs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

/-- Input window 0's current staging buffer holds its block at every point: where the pipeline fetched it, by the
    fetch; where it did not, the window's block index has not moved since the last fetch and the body leaves the buffer
    as it found it. For any proof data with `V`'s array and a body keeping the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point: where the pipeline fetched it, by the
    fetch; where it did not, the window's block index has not moved since the last fetch and the body leaves the buffer
    as it found it. For any proof data with `V`'s array and a body keeping the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-! ## The body on whole staging buffers -/

/-- The single store to window 2's buffer is of the whole buffer, so it covers it. -/
theorem cover1_2 (p0 : Vec F S1x1x128 .f32) (y : S1x1x128.Idx) :
    ∃ pc ∈ ([⟨r1_2, p0⟩] : List (View.Piece (Elt F) S1x1x128 .f32)), y ∈ pc.1.set :=
  View.cover_of_wholeMem _ (View.Piece.wholeMem_here (by rfl)) y

set_option maxHeartbeats 1000000 in
/-- The body on whole staging buffers, the inputs' holding `x0 …` and the outputs' anything, runs to a state where the
    inputs' hold what they held and each output's holds `out1_W` of the inputs: the body only loads (its load of an
    output buffer is of a value it never uses) and stores each output once, whole. -/
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x1x128 .f32) (harg2 : arg2.IsWhole)
    (x0 : Vec F S5000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__bn_stats_kernel i arg0 harg0 arg1 harg1 arg2 harg2) K := by
  simp only [cc1__bn_stats_kernel_eq_skeleton]; unfold cc1__bn_stats_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation -/

/-- What the pipeline hands the body at point `t`: the invariant, the core's dues, every window's current staging
    buffer at what `dat1` says it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the same with every buffer at `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBBody2.lean ====
/-
  Region 2 (`cc2__bn_apply_kernel`): the body obligation of its pipeline at the proof data `dat2 V`. At every grid point the
  input windows' staging buffers hold their blocks (whether the pipeline fetched them at that point or not), the body
  run on whole staging buffers leaves the inputs as they were and each output buffer overwritten by its single store,
  and that is what `dat2` records as `after`.
-/
import proofs.«142321_j69939247448309_2_alg».proof.Proof.KBDefs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

/-- Input window 0's current staging buffer holds its block at every point: where the pipeline fetched it, by the
    fetch; where it did not, the window's block index has not moved since the last fetch and the body leaves the buffer
    as it found it. For any proof data with `V`'s array and a body keeping the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

/-- Input window 1's current staging buffer holds its block at every point: where the pipeline fetched it, by the
    fetch; where it did not, the window's block index has not moved since the last fetch and the body leaves the buffer
    as it found it. For any proof data with `V`'s array and a body keeping the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

/-- Input window 2's current staging buffer holds its block at every point: where the pipeline fetched it, by the
    fetch; where it did not, the window's block index has not moved since the last fetch and the body leaves the buffer
    as it found it. For any proof data with `V`'s array and a body keeping the block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

/-- Input window 3's current staging buffer holds its block at every point: where the pipeline fetched it, by the
    fetch; where it did not, the window's block index has not moved since the last fetch and the body leaves the buffer
    as it found it. For any proof data with `V`'s array and a body keeping the block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d

/-- Input window 4's current staging buffer holds its block at every point: where the pipeline fetched it, by the
    fetch; where it did not, the window's block index has not moved since the last fetch and the body leaves the buffer
    as it found it. For any proof data with `V`'s array and a body keeping the block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d

/-! ## The body on whole staging buffers -/

/-- The single store to window 5's buffer is of the whole buffer, so it covers it. -/
theorem cover2_5 (p0 : Vec F S5000x128 .f32) (y : S5000x128.Idx) :
    ∃ pc ∈ ([⟨r2_5, p0⟩] : List (View.Piece (Elt F) S5000x128 .f32)), y ∈ pc.1.set :=
  View.cover_of_wholeMem _ (View.Piece.wholeMem_here (by rfl)) y

set_option maxHeartbeats 1000000 in
/-- The body on whole staging buffers, the inputs' holding `x0 …` and the outputs' anything, runs to a state where the
    inputs' hold what they held and each output's holds `out2_W` of the inputs: the body only loads (its load of an
    output buffer is of a value it never uses) and stores each output once, whole. -/
theorem sound_kernel2 (c : Dev nD) (E : Set ℕ) (i : grid2.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__bn_apply_kernel i arg0 harg0 arg1 harg1 arg2 harg2 arg3 harg3 arg4 harg4 arg5 harg5) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation -/

/-- What the pipeline hands the body at point `t`: the invariant, the core's dues, every window's current staging
    buffer at what `dat2` says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body hands back: the same with every buffer at `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBFrame.lean ====
/-
  The run of @main as six segments — host stretch, region 0, host stretch, region 1, host stretch, region 2 — over the
  thread state "every unscoped buffer whole at the boundary's contents `WJ`, the generator register at some state,
  nothing owed". A host stretch takes `WJ` to `StableHlo.after` of it; a region splits its windows' arrays out of the
  unscoped buffers, runs its pipeline on the body obligation, and puts the arrays back at what the write-backs leave.
  Conclusion: every weakly fair execution terminates without fault and ends with EVERY unscoped buffer at `W6`
  (`run_all`); the argument arrays, which no segment writes, are then read back to their launch contents (`frame`).
-/
import proofs.«142321_j69939247448309_2_alg».proof.Proof.KBDefs
import proofs.«142321_j69939247448309_2_alg».proof.Proof.KBBody0
import proofs.«142321_j69939247448309_2_alg».proof.Proof.KBBody1
import proofs.«142321_j69939247448309_2_alg».proof.Proof.KBBody2
import proofs.«142321_j69939247448309_2_alg».proof.Proof.Gen.Kernel.Regions

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays at the end

No host operation writes an argument and no region has one as an output window's array (regions read `main_arg9` and
`main_arg11` through input windows, which the pipeline leaves as entered), so `W6` at an argument walks back through the
six boundaries to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := (W2_arr m ρ c 3).trans (((dat0 (V1 m ρ) c).arrAt_in 3 rfl _).trans (A_eq0 (V1 m ρ) c 3))
    _ = W0 m ρ c (Proc.devRef .tc main_arg9) := StableHlo.after_of_writes_sub hostOps0 _ hostOps0_writes (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := (W2_arr m ρ c 5).trans (((dat0 (V1 m ρ) c).arrAt_in 5 rfl _).trans (A_eq0 (V1 m ρ) c 5))
    _ = W0 m ρ c (Proc.devRef .tc main_arg11) := StableHlo.after_of_writes_sub hostOps0 _ hostOps0_writes (by decide)
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

/-! ## The proof data family and the thread state -/

/-- No pipeline has a prefetched table. -/
abbrev adm : (p : Fin 3) → (pcfgs (F := F) p).Adm := fun p => (cfgs p).toPCfg_adm
/-- Every pipeline's proof data at its region's entry contents; a literal match so that the pinned configuration at a
    numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its windows' arrays
    are split out of the unscoped buffers at entry and joined back at the exit contents; the generator register goes
    into the class-A invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows' arrays
    are split out of the unscoped buffers at entry and joined back at the exit contents; the generator register goes
    into the class-A invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its windows' arrays
    are split out of the unscoped buffers at entry and joined back at the exit contents; the generator register goes
    into the class-A invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and every final state has every unscoped buffer of every core at `W6`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame claim at any `F`: @main runs (terminates, no fault) and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c)⟩)
    (run_all m ρ)

end Cert.Kernel.Hand

end
-- ==== Proof.RefOps.lean ====
/-
  The reference program as one straight line of host operations.

  Its entry function calls three module-local functions (the rectifier, the variance, and inside the variance a
  select); executing a call is executing the callee's body on the call's buffers, so the whole program is the list
  of its 78 operations in program order, each callee's operations standing at the place of its call.  This module
  states that list, proves the entry function equal to it, and records which buffer each operation writes: every
  buffer is written by exactly one operation, and no operation reads a buffer that is written at or after it.
-/
import proofs.«142321_j69939247448309_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The program's 78 operations, in order: the entry function's fifty-three, the rectifier's three after the
    second layer's pre-activation, the variance's nineteen and its select's three after the mean. -/
abbrev ops : List (HloOp τ sig (Elt F)) :=
  [
    StableHlo.binary main_arg1 main_arg5 main_v0 ((fun l r => Host.dotGeneral dot_S1600000x6_S6x128_S1600000x128_1_0_0_1_n_n none l r) : (⟨S1600000x6, .f32⟩ : BufTy).Contents (Elt F) → (⟨S6x128, .f32⟩ : BufTy).Contents (Elt F) → (⟨S1600000x128, .f32⟩ : BufTy).Contents (Elt F)),
    StableHlo.unary main_arg6 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S1600000x128 ![0, 1] bcast_S1x128_S1600000x128_0_1 : (⟨S1x128, .f32⟩ : BufTy).Contents (Elt F) → (⟨S1600000x128, .f32⟩ : BufTy).Contents (Elt F)),
    StableHlo.binary main_v0 main_v2 main_v3 (addf : (⟨S1600000x128, .f32⟩ : BufTy).Contents (Elt F) → (⟨S1600000x128, .f32⟩ : BufTy).Contents (Elt F) → (⟨S1600000x128, .f32⟩ : BufTy).Contents (Elt F)),
    StableHlo.binary main_arg2 main_arg7 main_v4 ((fun l r => Host.dotGeneral dot_S1600000x3_S3x128_S1600000x128_1_0_0_1_n_n none l r) : (⟨S1600000x3, .f32⟩ : BufTy).Contents (Elt F) → (⟨S3x128, .f32⟩ : BufTy).Contents (Elt F) → (⟨S1600000x128, .f32⟩ : BufTy).Contents (Elt F)),
    StableHlo.unary main_arg8 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S1600000x128 ![0, 1] bcast_S1x128_S1600000x128_0_1 : (⟨S1x128, .f32⟩ : BufTy).Contents (Elt F) → (⟨S1600000x128, .f32⟩ : BufTy).Contents (Elt F)),
    StableHlo.binary main_v4 main_v6 main_v7 (addf : (⟨S1600000x128, .f32⟩ : BufTy).Contents (Elt F) → (⟨S1600000x128, .f32⟩ : BufTy).Contents (Elt F) → (⟨S1600000x128, .f32⟩ : BufTy).Contents (Elt F)),
    StableHlo.binary main_v3 main_v7 main_v8 (addf : (⟨S1600000x128, .f32⟩ : BufTy).Contents (Elt F) → (⟨S1600000x128, .f32⟩ : BufTy).Contents (Elt F) → (⟨S1600000x128, .f32⟩ : BufTy).Contents (Elt F)),
    StableHlo.nullary main_c (constantI S_ 32 0#32),
    StableHlo.unary main_c main_v9 (broadcastInDim S1600000 ![] bcast_S_S1600000 : (⟨S_, .i32⟩ : BufTy).Contents (Elt F) → (⟨S1600000, .i32⟩ : BufTy).Contents (Elt F)),
    StableHlo.binary main_arg3 main_v9 main_v10 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v11 (broadcastInDim S1600000 ![] bcast_S_S1600000 : (⟨S_, .i32⟩ : BufTy).Contents (Elt F) → (⟨S1600000, .i32⟩ : BufTy).Contents (Elt F)),
    StableHlo.binary main_arg3 main_v11 main_v12 (addi : (⟨S1600000, .i32⟩ : BufTy).Contents (Elt F) → (⟨S1600000, .i32⟩ : BufTy).Contents (Elt F) → (⟨S1600000, .i32⟩ : BufTy).Contents (Elt F)),
    StableHlo.ternary main_v10 main_v12 main_arg3 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v13 main_v14 (broadcastInDim S1600000x1 ![0] bcast_S1600000_S1600000x1_0 : (⟨S1600000, .i32⟩ : BufTy).Contents (Elt F) → (⟨S1600000x1, .i32⟩ : BufTy).Contents (Elt F)),
    StableHlo.binary main_arg0 main_v14 main_v15 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.binary main_v15 main_v8 main_v16 (addf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v17 (broadcastInDim S100000x128 ![] bcast_S_S100000x128 : (⟨S_, .f32⟩ : BufTy).Contents (Elt F) → (⟨S100000x128, .f32⟩ : BufTy).Contents (Elt F)),
    StableHlo.unary main_arg4 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v19 main_arg9 main_v20 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg10 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S100000x256 ![0, 1] bcast_S1x256_S100000x256_0_1 : (⟨S1x256, .f32⟩ : BufTy).Contents (Elt F) → (⟨S100000x256, .f32⟩ : BufTy).Contents (Elt F)),
    StableHlo.binary main_v20 main_v22 main_v23 (addf : (⟨S100000x256, .f32⟩ : BufTy).Contents (Elt F) → (⟨S100000x256, .f32⟩ : BufTy).Contents (Elt F) → (⟨S100000x256, .f32⟩ : BufTy).Contents (Elt F)),
    StableHlo.TRef.nullary main_call0.cst (constant S_ .f32 0x00000000#32),
    StableHlo.TRef.unary main_call0.cst main_call0.v0 (broadcastInDim S100000x256 ![] bcast_S_S100000x256),
    StableHlo.TRef.binary (.of main_v23) main_call0.v0 main_call0.v1 maximumf,
    StableHlo.binary main_v24 main_arg11 main_v25 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg12 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v27 main_v28 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v28 main_cst_1 main_v29 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v30 (broadcastInDim S128 ![] bcast_S_S128 : (⟨S_, .f32⟩ : BufTy).Contents (Elt F) → (⟨S128, .f32⟩ : BufTy).Contents (Elt F)),
    StableHlo.binary main_v29 main_v30 main_v31 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (.of main_v28) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v28) main_call1.v4 main_call1.v5 subf,
    StableHlo.TRef.binary main_call1.v5 main_call1.v5 main_call1.v6 mulf,
    StableHlo.TRef.unary (.of main_c_3) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v31 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v34 main_v35 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v36 (broadcastInDim S128 ![] bcast_S_S128 : (⟨S_, .f32⟩ : BufTy).Contents (Elt F) → (⟨S128, .f32⟩ : BufTy).Contents (Elt F)),
    StableHlo.binary main_v32 main_v36 main_v37 (addf : (⟨S128, .f32⟩ : BufTy).Contents (Elt F) → (⟨S128, .f32⟩ : BufTy).Contents (Elt F) → (⟨S128, .f32⟩ : BufTy).Contents (Elt F)),
    StableHlo.unary main_v37 main_v38 (Host.rsqrt : (⟨S128, .f32⟩ : BufTy).Contents (Elt F) → (⟨S128, .f32⟩ : BufTy).Contents (Elt F)),
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v40 main_v41 (mulf : (⟨S100000x128, .f32⟩ : BufTy).Contents (Elt F) → (⟨S100000x128, .f32⟩ : BufTy).Contents (Elt F) → (⟨S100000x128, .f32⟩ : BufTy).Contents (Elt F)),
    StableHlo.unary main_arg13 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v43 main_v44 (mulf : (⟨S100000x128, .f32⟩ : BufTy).Contents (Elt F) → (⟨S100000x128, .f32⟩ : BufTy).Contents (Elt F) → (⟨S100000x128, .f32⟩ : BufTy).Contents (Elt F)),
    StableHlo.unary main_arg14 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)) ]

/-- The buffer each operation writes, in the same order. -/
abbrev outs : List (Ref sig .tc) :=
  [ main_v0, main_v1, main_v2, main_v3, main_v4, main_v5, main_v6, main_v7, main_v8, main_c, main_v9, main_v10, main_c_0, main_v11, main_v12, main_v13, main_v14, main_v15, main_v16, main_cst, main_v17, main_v18, main_v19, main_v20, main_v21, main_v22, main_v23, main_call0_cst, main_call0_v0, main_v24, main_v25, main_v26, main_v27, main_v28, main_cst_1, main_v29, main_cst_2, main_v30, main_v31, main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v32, main_v33, main_v34, main_v35, main_cst_4, main_v36, main_v37, main_v38, main_v39, main_v40, main_v41, main_v42, main_v43, main_v44, main_v45, main_v46, main_v47 ]

/-- The entry function is that straight line: executing a call is executing the callee's body, and sequencing
    a body's steps before the rest of the caller computes to the one chain of steps, so the two programs are the same
    term. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

end Cert.ReferenceIdeal.RefRun

end
-- ==== Proof.LibLine.lean ====
/- A straight line of host operations in single-assignment form: every operation writes one buffer, and a
   buffer read by an operation is never written at or after it. Then the contents a buffer holds after the whole
   line are what its own operation computes from the contents its operands hold after the whole line. -/
import Idealize.ShloMosaic.Lib.StableHlo.Run
import Idealize.ShloMosaic.Lib.Pipeline.Frame

namespace Cert.LibLine

open Idealize.ShloMosaic Idealize.ShloMosaic.TcCoe Idealize.ShloMosaic.StableHlo

variable {τ : Topo} {sig : RefSig} {Val : EltTy → Type}

/-- Operation by operation, the line `ops` writes exactly the references `outs`. -/
abbrev WritesAre (ops : List (HloOp τ sig Val)) (outs : List (Ref sig .tc)) : Prop :=
  List.Forall₂ (fun op y => op.writes = {Proc.devRef (τ := τ) .tc y}) ops outs

/-- A reference that is not among the written ones keeps its contents. -/
theorem after_of_writesAre {ops : List (HloOp τ sig Val)} {outs : List (Ref sig .tc)} (h : WritesAre ops outs)
    (V : Valuation τ sig Val) {r : Ref sig .tc} (hr : r ∉ outs) :
    after ops V (Proc.devRef .tc r) = V (Proc.devRef .tc r) := by
  induction h generalizing V with
  | nil => rfl
  | @cons op y ops' outs' hw _ ih =>
    rw [after_cons, ih _ (fun hm => hr (List.mem_cons_of_mem _ hm)), HloOp.result_of_not_mem]
    rw [hw, Finset.mem_singleton]
    exact devRef_ne_of_ne (fun e => hr (e ▸ List.mem_cons_self))

/-- A reference written by none of the operations from position `k` on holds, after the whole line, what it
    holds after the first `k` operations. -/
theorem after_eq_take {ops : List (HloOp τ sig Val)} {outs : List (Ref sig .tc)} (h : WritesAre ops outs) (k : Nat)
    (V : Valuation τ sig Val) {r : Ref sig .tc} (hr : r ∉ outs.drop k) :
    after ops V (Proc.devRef .tc r) = after (ops.take k) V (Proc.devRef .tc r) := by
  conv_lhs => rw [← List.take_append_drop k ops]
  rw [StableHlo.after_append]
  exact after_of_writesAre (List.forall₂_drop k h) _ hr

/-- The contents after the first `k + 1` operations, at the `k`-th operation. -/
theorem after_take_succ {ops : List (HloOp τ sig Val)} {k : Nat} {op : HloOp τ sig Val} (hk : ops[k]? = some op)
    (V : Valuation τ sig Val) : after (ops.take (k + 1)) V = op.result (after (ops.take k) V) := by
  rw [List.take_succ, hk, StableHlo.after_append]; rfl

section Stages

variable {ops : List (HloOp τ sig Val)} {outs : List (Ref sig .tc)} (h : WritesAre ops outs) (k : Nat)
include h

/-- The stage of a constant. -/
theorem stage_nullary (y : Ref sig .tc) (v : y.ty.Contents Val) {hy}
    (hk : ops[k]? = some (nullary y v hy)) (hy' : y ∉ outs.drop (k + 1)) (V : Valuation τ sig Val) :
    after ops V (Proc.devRef .tc y) = v := by
  rw [after_eq_take h (k + 1) V hy', after_take_succ hk]; exact nullary_result ..

/-- The stage of a one-operand operation. -/
theorem stage_unary (x y : Ref sig .tc) (f : x.ty.Contents Val → y.ty.Contents Val) {hx hy}
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [after_eq_take h (k + 1) V hy', after_eq_take h k V hx', after_take_succ hk]; exact unary_result ..

/-- The stage of a two-operand operation. -/
theorem stage_binary (a b y : Ref sig .tc) (f : a.ty.Contents Val → b.ty.Contents Val → y.ty.Contents Val) {ha hb hy}
    (hk : ops[k]? = some (binary a b y f ha hb hy)) (hy' : y ∉ outs.drop (k + 1)) (ha' : a ∉ outs.drop k)
    (hb' : b ∉ outs.drop k) (V : Valuation τ sig Val) :
    after ops V (Proc.devRef .tc y) = f (after ops V (Proc.devRef .tc a)) (after ops V (Proc.devRef .tc b)) := by
  rw [after_eq_take h (k + 1) V hy', after_eq_take h k V ha', after_eq_take h k V hb', after_take_succ hk]
  exact binary_result ..

/-- The stage of a reshape. -/
theorem stage_reshape (x y : Ref sig .tc) (he : x.ty.elt = y.ty.elt) (hn : x.ty.shape.ShapeCasts y.ty.shape) {hx hy}
    (hk : ops[k]? = some (reshape x y he hn hx hy)) (hy' : y ∉ outs.drop (k + 1)) (hx' : x ∉ outs.drop k)
    (V : Valuation τ sig Val) :
    after ops V (Proc.devRef .tc y) = fun i => he ▸ shapeCast y.ty.shape (after ops V (Proc.devRef .tc x)) hn i := by
  rw [after_eq_take h (k + 1) V hy', after_eq_take h k V hx', after_take_succ hk]; exact reshape_result ..

/-- The stage of an operation over a family of operands. -/
theorem stage_nary {n : Nat} (xs : Fin n → Ref sig .tc) (y : Ref sig .tc)
    (f : ((j : Fin n) → (xs j).ty.Contents Val) → y.ty.Contents Val) {hxs hy}
    (hk : ops[k]? = some (nary xs y f hxs hy)) (hy' : y ∉ outs.drop (k + 1)) (hxs' : ∀ j, xs j ∉ outs.drop k)
    (V : Valuation τ sig Val) :
    after ops V (Proc.devRef .tc y) = f (fun j => after ops V (Proc.devRef .tc (xs j))) := by
  rw [after_eq_take h (k + 1) V hy', after_take_succ hk, nary_result]
  exact congrArg f (funext fun j => (after_eq_take h k V (hxs' j)).symm)

end Stages

end Cert.LibLine
-- ==== Proof.RefStages.lean ====
/-
  The reference program's value, stage by stage, and its run.

  The 78 operations compute, from the fifteen argument arrays: the sum of the two affine edge embeddings; the
  wrapped source index column; the message (gathered source rows plus embeddings); the aggregate (the messages
  scattered and added onto a zero array by destination); the hidden layer (rectified affine image of the aggregate);
  the second affine layer; its mean and variance over the node axis; the normalised, scaled and shifted output.
  Each stage is named as a function of the arrays it reads.  Because every buffer is written once and never read
  before it is written, the contents a buffer holds after the whole line are its own operation applied to the contents
  its operands hold after the whole line; chaining these equations gives the result buffer as the composition of the
  stages, and the argument buffers, which no operation writes, unchanged.
-/
import proofs.«142321_j69939247448309_2_alg».proof.Proof.RefOps
import proofs.«142321_j69939247448309_2_alg».proof.Proof.LibLine
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem
  Idealize.ShloMosaic.StableHlo Cert.LibLine

variable {F : FTy → Type} [FloatOps F]

/-- The contents of an array of shape `s` and element type `e`. -/
abbrev Cn (F : FTy → Type) (s : Shape) (e : EltTy) : Type := (⟨s, e⟩ : BufTy).Contents (Elt F)

/-! ## The stages -/

/-- The sum of the two affine edge embeddings: `(ef0 · We0 + be0) + (ef1 · We1 + be1)`, one row per edge. -/
def embV (a1 : Cn F S1600000x6 .f32) (a2 : Cn F S1600000x3 .f32) (a5 : Cn F S6x128 .f32) (a6 : Cn F S128 .f32) (a7 : Cn F S3x128 .f32) (a8 : Cn F S128 .f32) :
    Cn F S1600000x128 .f32 :=
  addf
    (addf (Host.dotGeneral dot_S1600000x6_S6x128_S1600000x128_1_0_0_1_n_n none a1 a5)
      (broadcastInDim S1600000x128 ![0, 1] bcast_S1x128_S1600000x128_0_1 (broadcastInDim S1x128 ![1] bcast_S128_S1x128_1 a6)))
    (addf (Host.dotGeneral dot_S1600000x3_S3x128_S1600000x128_1_0_0_1_n_n none a2 a7)
      (broadcastInDim S1600000x128 ![0, 1] bcast_S1x128_S1600000x128_0_1 (broadcastInDim S1x128 ![1] bcast_S128_S1x128_1 a8)))

/-- The source index column: each word replaced by itself plus 100000 when it is negative, laid out as a column. -/
def srcIdxV (a3 : Cn F S1600000 .i32) : Cn F S1600000x1 .i32 :=
  broadcastInDim S1600000x1 ![0] bcast_S1600000_S1600000x1_0
    (select (cmpi .slt a3 (broadcastInDim S1600000 ![] bcast_S_S1600000 (constantI S_ 32 0#32)))
      (addi a3 (broadcastInDim S1600000 ![] bcast_S_S1600000 (constantI S_ 32 100000#32))) a3)

/-- The message of each edge: its source node's row plus its embedding. -/
def msgV (a0 : Cn F S100000x128 .f32) (idx : Cn F S1600000x1 .i32) (emb : Cn F S1600000x128 .f32) : Cn F S1600000x128 .f32 :=
  addf (Host.gather gather_S100000x128_S1600000x1_S1600000x128_1_0_n_n_0_1_1128 a0 idx) emb

/-- The aggregate: the messages added onto a zero array at their destination rows. -/
def aggV (a4 : Cn F S1600000 .i32) (msg : Cn F S1600000x128 .f32) : Cn F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 a4) msg

/-- The hidden layer: `max (agg · W1 + b1) 0`. -/
def hidV (agg : Cn F S100000x128 .f32) (a9 : Cn F S128x256 .f32) (a10 : Cn F S256 .f32) : Cn F S100000x256 .f32 :=
  maximumf
    (addf (Host.dotGeneral dot_S100000x128_S128x256_S100000x256_1_0_0_1_n_n none agg a9)
      (broadcastInDim S100000x256 ![0, 1] bcast_S1x256_S100000x256_0_1 (broadcastInDim S1x256 ![1] bcast_S256_S1x256_1 a10)))
    (broadcastInDim S100000x256 ![] bcast_S_S100000x256 (constant S_ .f32 0x00000000#32))

/-- The second layer: `hid · W2 + b2`. -/
def hpreV (hid : Cn F S100000x256 .f32) (a11 : Cn F S256x128 .f32) (a12 : Cn F S128 .f32) : Cn F S100000x128 .f32 :=
  addf (Host.dotGeneral dot_S100000x256_S256x128_S100000x128_1_0_0_1_n_n none hid a11)
    (broadcastInDim S100000x128 ![0, 1] bcast_S1x128_S100000x128_0_1 (broadcastInDim S1x128 ![1] bcast_S128_S1x128_1 a12))

/-- The sum over the node axis, from the initial value zero. -/
def sumV (x : Cn F S100000x128 .f32) : Cn F S128 .f32 :=
  Host.reduceAdd x (constant S_ .f32 0x00000000#32 : Cn F S_ .f32) reducesTo_S100000x128_S128_d0 h_S_

/-- The mean over the node axis: the sum divided by the node count. -/
def meanV (h : Cn F S100000x128 .f32) : Cn F S128 .f32 :=
  Host.divf (sumV h) (broadcastInDim S128 ![] bcast_S_S128 (constant S_ .f32 0x47C35000#32 : Cn F S_ .f32))

/-- The mean again, as the variance computes it: divided as a single row, then copied down the rows. -/
def meanRowsV (h : Cn F S100000x128 .f32) : Cn F S100000x128 .f32 :=
  broadcastInDim S100000x128 ![0, 1] bcast_S1x128_S100000x128_0_1
    (Host.divf (broadcastInDim S1x128 ![1] bcast_S128_S1x128_1 (sumV h))
      (broadcastInDim S1x128 ![] bcast_S_S1x128 (constant S_ .f32 0x47C35000#32 : Cn F S_ .f32)))

/-- The deviation from the mean. -/
def devV (h : Cn F S100000x128 .f32) : Cn F S100000x128 .f32 := subf h (meanRowsV h)

/-- The variance's divisor: the node count minus the correction `0` converted to a float. -/
def countV : Cn F S_ .f32 :=
  subf (constant S_ .f32 0x47C35000#32) (sitofp .f32 (constantI S_ 32 0#32 : Cn F S_ .i32))

/-- The variance over the node axis: the summed squared deviations over the divisor where the divisor is positive,
    the not-a-number word elsewhere. -/
def varV (h : Cn F S100000x128 .f32) : Cn F S128 .f32 :=
  select (broadcastInDim S128 ![] bcast_S_S128 (cmpf .ogt (countV (F := F)) (constant S_ .f32 0x00000000#32)))
    (Host.divf (sumV (mulf (devV h) (devV h))) (broadcastInDim S128 ![] bcast_S_S128 (countV (F := F))))
    (broadcastInDim S128 ![] bcast_S_S128 (id (constant S_ .f32 0x7FC00000#32 : Cn F S_ .f32)))

/-- The output: `(h - mean) * rsqrt (var + eps) * gamma + beta`, given the mean and the variance. -/
def normV (h : Cn F S100000x128 .f32) (mu vr : Cn F S128 .f32) (a13 a14 : Cn F S128 .f32) : Cn F S100000x128 .f32 :=
  addf
    (mulf
      (mulf (subf h (broadcastInDim S100000x128 ![0, 1] bcast_S1x128_S100000x128_0_1 (broadcastInDim S1x128 ![1] bcast_S128_S1x128_1 mu)))
        (broadcastInDim S100000x128 ![0, 1] bcast_S1x128_S100000x128_0_1 (broadcastInDim S1x128 ![1] bcast_S128_S1x128_1 (Host.rsqrt (addf vr (broadcastInDim S128 ![] bcast_S_S128 (constant S_ .f32 0x3727C5AC#32 : Cn F S_ .f32)))))))
      (broadcastInDim S100000x128 ![0, 1] bcast_S1x128_S100000x128_0_1 (broadcastInDim S1x128 ![1] bcast_S128_S1x128_1 a13)))
    (broadcastInDim S100000x128 ![0, 1] bcast_S1x128_S100000x128_0_1 (broadcastInDim S1x128 ![1] bcast_S128_S1x128_1 a14))

/-- The normalised output of the second layer. -/
def outV (h : Cn F S100000x128 .f32) (a13 a14 : Cn F S128 .f32) : Cn F S100000x128 .f32 :=
  normV h (meanV h) (varV h) a13 a14

/-- The reference's result at the ideal values, from the contents of its fifteen arguments. -/
def refResult (a0 : Cn Ideal S100000x128 .f32) (a1 : Cn Ideal S1600000x6 .f32) (a2 : Cn Ideal S1600000x3 .f32)
    (a3 a4 : Cn Ideal S1600000 .i32) (a5 : Cn Ideal S6x128 .f32) (a6 : Cn Ideal S128 .f32) (a7 : Cn Ideal S3x128 .f32)
    (a8 : Cn Ideal S128 .f32) (a9 : Cn Ideal S128x256 .f32) (a10 : Cn Ideal S256 .f32) (a11 : Cn Ideal S256x128 .f32)
    (a12 a13 a14 : Cn Ideal S128 .f32) : Cn Ideal S100000x128 .f32 :=
  outV (F := Ideal) (hpreV (hidV (aggV a4 (msgV a0 (srcIdxV a3) (embV a1 a2 a5 a6 a7 a8))) a9 a10) a11 a12) a13 a14

/-! ## One operation at a time -/

/-- Operation by operation, the line writes the listed buffers. -/
theorem writesAre : WritesAre (ops (F := F)) outs := by
  repeat' (first | exact List.Forall₂.nil | refine List.Forall₂.cons rfl ?_)

/-- What buffer `r` holds after the whole line, from contents `V`. -/
abbrev A (V : Valuation τ sig (Elt F)) (r : Ref sig .tc) : r.ty.Contents (Elt F) :=
  after (ops (F := F)) V (Proc.devRef .tc r)

/-- The contents after a three-operand operation. -/
theorem stage_ternary {ops : List (HloOp τ sig (Elt F))} {outs : List (Ref sig .tc)} (h : WritesAre ops outs) (k : Nat)
    (c a b y : Ref sig .tc) (f : c.ty.Contents (Elt F) → a.ty.Contents (Elt F) → b.ty.Contents (Elt F) → y.ty.Contents (Elt F))
    {hc ha hb hy} (hk : ops[k]? = some (ternary c a b y f hc ha hb hy)) (hy' : y ∉ outs.drop (k + 1))
    (hc' : c ∉ outs.drop k) (ha' : a ∉ outs.drop k) (hb' : b ∉ outs.drop k) (V : Valuation τ sig (Elt F)) :
    after ops V (Proc.devRef .tc y)
      = f (after ops V (Proc.devRef .tc c)) (after ops V (Proc.devRef .tc a)) (after ops V (Proc.devRef .tc b)) := by
  rw [after_eq_take h (k + 1) V hy', after_eq_take h k V hc', after_eq_take h k V ha', after_eq_take h k V hb',
    after_take_succ hk]
  exact ternary_result ..

theorem st0 (k : Nat) (y : Ref sig .tc) (v : y.ty.Contents (Elt F)) {hy}
    (hk : (ops (F := F))[k]? = some (nullary y v hy)) (hy' : y ∉ outs.drop (k + 1)) (V : Valuation τ sig (Elt F)) :
    A V y = v := stage_nullary writesAre k y v hk hy' V
theorem st1 (k : Nat) (x y : Ref sig .tc) (f : x.ty.Contents (Elt F) → y.ty.Contents (Elt F)) {hx hy}
    (hk : (ops (F := F))[k]? = some (unary x y f hx hy)) (hy' : y ∉ outs.drop (k + 1)) (hx' : x ∉ outs.drop k)
    (V : Valuation τ sig (Elt F)) : A V y = f (A V x) := stage_unary writesAre k x y f hk hy' hx' V
theorem st2 (k : Nat) (a b y : Ref sig .tc) (f : a.ty.Contents (Elt F) → b.ty.Contents (Elt F) → y.ty.Contents (Elt F))
    {ha hb hy} (hk : (ops (F := F))[k]? = some (binary a b y f ha hb hy)) (hy' : y ∉ outs.drop (k + 1))
    (ha' : a ∉ outs.drop k) (hb' : b ∉ outs.drop k) (V : Valuation τ sig (Elt F)) :
    A V y = f (A V a) (A V b) := stage_binary writesAre k a b y f hk hy' ha' hb' V
theorem st3 (k : Nat) (c a b y : Ref sig .tc)
    (f : c.ty.Contents (Elt F) → a.ty.Contents (Elt F) → b.ty.Contents (Elt F) → y.ty.Contents (Elt F)) {hc ha hb hy}
    (hk : (ops (F := F))[k]? = some (ternary c a b y f hc ha hb hy)) (hy' : y ∉ outs.drop (k + 1))
    (hc' : c ∉ outs.drop k) (ha' : a ∉ outs.drop k) (hb' : b ∉ outs.drop k) (V : Valuation τ sig (Elt F)) :
    A V y = f (A V c) (A V a) (A V b) := stage_ternary writesAre k c a b y f hk hy' hc' ha' hb' V

/-! ## The argument buffers are never written -/

theorem arg0_eq (V : Valuation τ sig (Elt F)) : A V main_arg0 = V (Proc.devRef .tc main_arg0) :=
  after_of_writesAre writesAre V (by decide)
theorem arg1_eq (V : Valuation τ sig (Elt F)) : A V main_arg1 = V (Proc.devRef .tc main_arg1) :=
  after_of_writesAre writesAre V (by decide)
theorem arg2_eq (V : Valuation τ sig (Elt F)) : A V main_arg2 = V (Proc.devRef .tc main_arg2) :=
  after_of_writesAre writesAre V (by decide)
theorem arg3_eq (V : Valuation τ sig (Elt F)) : A V main_arg3 = V (Proc.devRef .tc main_arg3) :=
  after_of_writesAre writesAre V (by decide)
theorem arg4_eq (V : Valuation τ sig (Elt F)) : A V main_arg4 = V (Proc.devRef .tc main_arg4) :=
  after_of_writesAre writesAre V (by decide)
theorem arg5_eq (V : Valuation τ sig (Elt F)) : A V main_arg5 = V (Proc.devRef .tc main_arg5) :=
  after_of_writesAre writesAre V (by decide)
theorem arg6_eq (V : Valuation τ sig (Elt F)) : A V main_arg6 = V (Proc.devRef .tc main_arg6) :=
  after_of_writesAre writesAre V (by decide)
theorem arg7_eq (V : Valuation τ sig (Elt F)) : A V main_arg7 = V (Proc.devRef .tc main_arg7) :=
  after_of_writesAre writesAre V (by decide)
theorem arg8_eq (V : Valuation τ sig (Elt F)) : A V main_arg8 = V (Proc.devRef .tc main_arg8) :=
  after_of_writesAre writesAre V (by decide)
theorem arg9_eq (V : Valuation τ sig (Elt F)) : A V main_arg9 = V (Proc.devRef .tc main_arg9) :=
  after_of_writesAre writesAre V (by decide)
theorem arg10_eq (V : Valuation τ sig (Elt F)) : A V main_arg10 = V (Proc.devRef .tc main_arg10) :=
  after_of_writesAre writesAre V (by decide)
theorem arg11_eq (V : Valuation τ sig (Elt F)) : A V main_arg11 = V (Proc.devRef .tc main_arg11) :=
  after_of_writesAre writesAre V (by decide)
theorem arg12_eq (V : Valuation τ sig (Elt F)) : A V main_arg12 = V (Proc.devRef .tc main_arg12) :=
  after_of_writesAre writesAre V (by decide)
theorem arg13_eq (V : Valuation τ sig (Elt F)) : A V main_arg13 = V (Proc.devRef .tc main_arg13) :=
  after_of_writesAre writesAre V (by decide)
theorem arg14_eq (V : Valuation τ sig (Elt F)) : A V main_arg14 = V (Proc.devRef .tc main_arg14) :=
  after_of_writesAre writesAre V (by decide)

/-! ## The stages, read off the line -/

theorem A_emb (V : Valuation τ sig (Elt F)) :
    A V main_v8 = embV (A V main_arg1) (A V main_arg2) (A V main_arg5) (A V main_arg6) (A V main_arg7) (A V main_arg8) := by
  rw [st2 8 main_v3 main_v7 main_v8 _ rfl (by decide) (by decide) (by decide) V,
    st2 3 main_v0 main_v2 main_v3 _ rfl (by decide) (by decide) (by decide) V,
    st2 7 main_v4 main_v6 main_v7 _ rfl (by decide) (by decide) (by decide) V,
    st2 0 main_arg1 main_arg5 main_v0 _ rfl (by decide) (by decide) (by decide) V,
    st1 2 main_v1 main_v2 _ rfl (by decide) (by decide) V,
    st1 1 main_arg6 main_v1 _ rfl (by decide) (by decide) V,
    st2 4 main_arg2 main_arg7 main_v4 _ rfl (by decide) (by decide) (by decide) V,
    st1 6 main_v5 main_v6 _ rfl (by decide) (by decide) V,
    st1 5 main_arg8 main_v5 _ rfl (by decide) (by decide) V]
  rfl

theorem A_idx (V : Valuation τ sig (Elt F)) :
    A V main_v14 = srcIdxV (A V main_arg3) := by
  rw [st1 16 main_v13 main_v14 _ rfl (by decide) (by decide) V,
    st3 15 main_v10 main_v12 main_arg3 main_v13 _ rfl (by decide) (by decide) (by decide) (by decide) V,
    st2 11 main_arg3 main_v9 main_v10 _ rfl (by decide) (by decide) (by decide) V,
    st2 14 main_arg3 main_v11 main_v12 _ rfl (by decide) (by decide) (by decide) V,
    st1 10 main_c main_v9 _ rfl (by decide) (by decide) V,
    st0 9 main_c _ rfl (by decide) V,
    st1 13 main_c_0 main_v11 _ rfl (by decide) (by decide) V,
    st0 12 main_c_0 _ rfl (by decide) V]
  rfl

theorem A_msg (V : Valuation τ sig (Elt F)) :
    A V main_v16 = msgV (A V main_arg0) (A V main_v14) (A V main_v8) := by
  rw [st2 18 main_v15 main_v8 main_v16 _ rfl (by decide) (by decide) (by decide) V,
    st2 17 main_arg0 main_v14 main_v15 _ rfl (by decide) (by decide) (by decide) V]
  rfl

theorem A_agg (V : Valuation τ sig (Elt F)) :
    A V main_v19 = aggV (A V main_arg4) (A V main_v16) := by
  rw [st3 22 main_v17 main_v18 main_v16 main_v19 _ rfl (by decide) (by decide) (by decide) (by decide) V,
    st1 20 main_cst main_v17 _ rfl (by decide) (by decide) V,
    st0 19 main_cst _ rfl (by decide) V,
    st1 21 main_arg4 main_v18 _ rfl (by decide) (by decide) V]
  rfl

theorem A_hid (V : Valuation τ sig (Elt F)) :
    A V main_v24 = hidV (A V main_v19) (A V main_arg9) (A V main_arg10) := by
  rw [st2 29 main_v23 main_call0_v0 main_v24 _ rfl (by decide) (by decide) (by decide) V,
    st2 26 main_v20 main_v22 main_v23 _ rfl (by decide) (by decide) (by decide) V,
    st2 23 main_v19 main_arg9 main_v20 _ rfl (by decide) (by decide) (by decide) V,
    st1 25 main_v21 main_v22 _ rfl (by decide) (by decide) V,
    st1 24 main_arg10 main_v21 _ rfl (by decide) (by decide) V,
    st1 28 main_call0_cst main_call0_v0 _ rfl (by decide) (by decide) V,
    st0 27 main_call0_cst _ rfl (by decide) V]
  rfl

theorem A_hpre (V : Valuation τ sig (Elt F)) :
    A V main_v28 = hpreV (A V main_v24) (A V main_arg11) (A V main_arg12) := by
  rw [st2 33 main_v25 main_v27 main_v28 _ rfl (by decide) (by decide) (by decide) V,
    st2 30 main_v24 main_arg11 main_v25 _ rfl (by decide) (by decide) (by decide) V,
    st1 32 main_v26 main_v27 _ rfl (by decide) (by decide) V,
    st1 31 main_arg12 main_v26 _ rfl (by decide) (by decide) V]
  rfl

theorem A_mean (V : Valuation τ sig (Elt F)) :
    A V main_v31 = meanV (A V main_v28) := by
  rw [st2 38 main_v29 main_v30 main_v31 _ rfl (by decide) (by decide) (by decide) V,
    st2 35 main_v28 main_cst_1 main_v29 _ rfl (by decide) (by decide) (by decide) V,
    st0 34 main_cst_1 _ rfl (by decide) V,
    st1 37 main_cst_2 main_v30 _ rfl (by decide) (by decide) V,
    st0 36 main_cst_2 _ rfl (by decide) V]
  rfl

theorem A_var (V : Valuation τ sig (Elt F)) :
    A V main_v32 = varV (A V main_v28) := by
  rw [st3 61 main_call1_v12 main_call1_v11 main_call1_call0_v1 main_v32 _ rfl (by decide) (by decide) (by decide) (by decide) V,
    st2 57 main_call1_v8 main_call1_cst_3 main_call1_v12 _ rfl (by decide) (by decide) (by decide) V,
    st0 56 main_call1_cst_3 _ rfl (by decide) V,
    st2 55 main_call1_v9 main_call1_v10 main_call1_v11 _ rfl (by decide) (by decide) (by decide) V,
    st2 53 main_call1_v6 main_call1_cst_2 main_call1_v9 _ rfl (by decide) (by decide) (by decide) V,
    st0 52 main_call1_cst_2 _ rfl (by decide) V,
    st2 48 main_call1_v5 main_call1_v5 main_call1_v6 _ rfl (by decide) (by decide) (by decide) V,
    st2 47 main_v28 main_call1_v4 main_call1_v5 _ rfl (by decide) (by decide) (by decide) V,
    st1 46 main_call1_v3 main_call1_v4 _ rfl (by decide) (by decide) V,
    st2 45 main_call1_v1 main_call1_v2 main_call1_v3 _ rfl (by decide) (by decide) (by decide) V,
    st1 42 main_call1_v0 main_call1_v1 _ rfl (by decide) (by decide) V,
    st2 41 main_v28 main_call1_cst main_call1_v0 _ rfl (by decide) (by decide) (by decide) V,
    st0 40 main_call1_cst _ rfl (by decide) V,
    st1 44 main_call1_cst_0 main_call1_v2 _ rfl (by decide) (by decide) V,
    st0 43 main_call1_cst_0 _ rfl (by decide) V,
    st1 54 main_call1_v8 main_call1_v10 _ rfl (by decide) (by decide) V,
    st2 51 main_call1_cst_1 main_call1_v7 main_call1_v8 _ rfl (by decide) (by decide) (by decide) V,
    st0 50 main_call1_cst_1 _ rfl (by decide) V,
    st1 49 main_c_3 main_call1_v7 _ rfl (by decide) (by decide) V,
    st0 39 main_c_3 _ rfl (by decide) V,
    st1 60 main_call1_call0_v0 main_call1_call0_v1 _ rfl (by decide) (by decide) V,
    st1 59 main_call1_cst_4 main_call1_call0_v0 _ rfl (by decide) (by decide) V,
    st0 58 main_call1_cst_4 _ rfl (by decide) V]
  rfl

theorem A_norm (V : Valuation τ sig (Elt F)) :
    A V main_v47 = normV (A V main_v28) (A V main_v31) (A V main_v32) (A V main_arg13) (A V main_arg14) := by
  rw [st2 77 main_v44 main_v46 main_v47 _ rfl (by decide) (by decide) (by decide) V,
    st2 74 main_v41 main_v43 main_v44 _ rfl (by decide) (by decide) (by decide) V,
    st2 71 main_v35 main_v40 main_v41 _ rfl (by decide) (by decide) (by decide) V,
    st2 64 main_v28 main_v34 main_v35 _ rfl (by decide) (by decide) (by decide) V,
    st1 63 main_v33 main_v34 _ rfl (by decide) (by decide) V,
    st1 62 main_v31 main_v33 _ rfl (by decide) (by decide) V,
    st1 70 main_v39 main_v40 _ rfl (by decide) (by decide) V,
    st1 69 main_v38 main_v39 _ rfl (by decide) (by decide) V,
    st1 68 main_v37 main_v38 _ rfl (by decide) (by decide) V,
    st2 67 main_v32 main_v36 main_v37 _ rfl (by decide) (by decide) (by decide) V,
    st1 66 main_cst_4 main_v36 _ rfl (by decide) (by decide) V,
    st0 65 main_cst_4 _ rfl (by decide) V,
    st1 73 main_v42 main_v43 _ rfl (by decide) (by decide) V,
    st1 72 main_arg13 main_v42 _ rfl (by decide) (by decide) V,
    st1 76 main_v45 main_v46 _ rfl (by decide) (by decide) V,
    st1 75 main_arg14 main_v45 _ rfl (by decide) (by decide) V]
  rfl

/-! ## The result buffer and the run -/

/-- The result buffer after the whole line: the composition of the stages over the argument contents. -/
theorem result_eq (V : Valuation τ sig (Elt F)) :
    A V main_v47
      = outV (hpreV (hidV (aggV (V (Proc.devRef .tc main_arg4)) (msgV (V (Proc.devRef .tc main_arg0)) (srcIdxV (V (Proc.devRef .tc main_arg3)))
          (embV (V (Proc.devRef .tc main_arg1)) (V (Proc.devRef .tc main_arg2)) (V (Proc.devRef .tc main_arg5)) (V (Proc.devRef .tc main_arg6)) (V (Proc.devRef .tc main_arg7)) (V (Proc.devRef .tc main_arg8)))))
          (V (Proc.devRef .tc main_arg9)) (V (Proc.devRef .tc main_arg10))) (V (Proc.devRef .tc main_arg11)) (V (Proc.devRef .tc main_arg12))) (V (Proc.devRef .tc main_arg13)) (V (Proc.devRef .tc main_arg14)) := by
  rw [A_norm, A_mean, A_var, A_hpre, A_hid, A_agg, A_msg, A_idx, A_emb, arg0_eq, arg1_eq, arg2_eq, arg3_eq, arg4_eq, arg5_eq, arg6_eq, arg7_eq, arg8_eq, arg9_eq, arg10_eq, arg11_eq, arg12_eq, arg13_eq, arg14_eq]
  rfl

end Cert.ReferenceIdeal.RefRun

end
-- ==== Proof.RefRun.lean ====
/-
  The reference program's run: it terminates, its result buffer holds the composition of the stages applied to the
  arguments' launch contents, and its arguments are unchanged.
-/
import proofs.«142321_j69939247448309_2_alg».proof.Proof.RefStages

noncomputable section

namespace Cert.ReferenceIdeal.RefRun

open Cert.ReferenceIdeal Cert.ReferenceIdeal.Gen Idealize.ShloMosaic Idealize.ShloMosaic.TcCoe Idealize.SL.Sem
  Idealize.ShloMosaic.StableHlo

/-- On every device, from any memory with zero counters: every weakly fair execution of the reference terminates
    with the result buffer at `refResult` of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47)
          = refResult (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v47).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_seq scopedRefs_eq scopedSems_eq defs main (fun _ => ops) main_eq (fun _ => ops_sub) m ρ)

end Cert.ReferenceIdeal.RefRun

end
-- ==== Proof.Spec.lean ====
/-
  The mathematics both programs compute, as functions of the argument arrays read by coordinates, on the
  extended reals.

  Every node `n` collects the edges `e` whose destination word, read signed, is `n` (`hits`).  The reference sums,
  over those edges, the source node's feature row plus the two affine edge embeddings (`refAgg`).  The kernel sums
  the source rows alone and adds the product of the collected ten-column edge block (six and three feature columns
  and a column of ones) with the ten stacked weight rows (the two weight matrices and the sum of the two biases)
  (`kerAgg`).  Downstream both apply the same two-layer perceptron (`hpre`) and the same batch normalisation over
  the node axis (`mean`, `var`, `out`).  The two float words `100000.0` and `1e-5` are kept as the words the
  programs write.
-/
import Idealize.ShloMosaic.PureOps.Ideal

noncomputable section

open scoped BigOperators
open Idealize.ShloMosaic

namespace Cert.Spec

/-- A matrix of extended reals read by coordinates. -/
abbrev Mat (a b : Nat) : Type := Fin a → Fin b → EReal

/-- The word `100000.0` (the node count as a float). -/
def cN : EReal := Ideal.ofBits .f32 0x47C35000#32
/-- The word the programs add to the variance. -/
def eps : EReal := Ideal.ofBits .f32 0x3727C5AC#32

/-- An extended real that is a real number. -/
def IsReal (x : EReal) : Prop := ∃ r : ℝ, x = (r : EReal)

/-- The edges whose destination word, read signed, is the node `n`. -/
def hits (dst : Fin 1600000 → BitVec 32) (n : Fin 100000) : Finset (Fin 1600000) :=
  Finset.univ.filter fun e => (dst e).toInt = (n.val : Int)

/-- A negative index word counts from the end: `v + 100000` when `v < 0`, else `v`. -/
def wrap (v : BitVec 32) : BitVec 32 := Scalar.select (IntOp.cmpi .slt v 0#32) (IntOp.addi v 100000#32) v

/-- The node row an edge reads: its wrapped source word, read signed and clamped into `[0, 99999]`. -/
def srcRow (src : Fin 1600000 → BitVec 32) (e : Fin 1600000) : Fin 100000 :=
  ⟨min (wrap (src e)).toInt.toNat (100000 - 1), by omega⟩

/-- The sum of the two affine edge embeddings of edge `e` at feature `d`. -/
def edgeEmb (ef0 : Mat 1600000 6) (ef1 : Mat 1600000 3) (We0 : Mat 6 128) (be0 : Fin 128 → EReal)
    (We1 : Mat 3 128) (be1 : Fin 128 → EReal) (e : Fin 1600000) (d : Fin 128) : EReal :=
  ((∑ k : Fin 6, ef0 e k * We0 k d) + be0 d) + ((∑ k : Fin 3, ef1 e k * We1 k d) + be1 d)

/-- The reference's aggregate: per node, the sum over its edges of source row plus edge embedding. -/
def refAgg (nf : Mat 100000 128) (ef0 : Mat 1600000 6) (ef1 : Mat 1600000 3)
    (src dst : Fin 1600000 → BitVec 32) (We0 : Mat 6 128) (be0 : Fin 128 → EReal)
    (We1 : Mat 3 128) (be1 : Fin 128 → EReal) : Mat 100000 128 := fun n d =>
  ∑ e ∈ hits dst n, (nf (srcRow src e) d + edgeEmb ef0 ef1 We0 be0 We1 be1 e d)

/-- The ten-column edge block: six columns of the first feature family, three of the second, a column of ones. -/
def efAug (ef0 : Mat 1600000 6) (ef1 : Mat 1600000 3) : Mat 1600000 10 := fun e k =>
  if h : k.val < 6 then ef0 e ⟨k.val, h⟩
  else if h' : k.val < 9 then ef1 e ⟨k.val - 6, by omega⟩ else 1

/-- The ten stacked weight rows: the two weight matrices, then the sum of the two biases. -/
def wAug (We0 : Mat 6 128) (be0 : Fin 128 → EReal) (We1 : Mat 3 128) (be1 : Fin 128 → EReal) : Mat 10 128 :=
  fun k d =>
    if h : k.val < 6 then We0 ⟨k.val, h⟩ d
    else if h' : k.val < 9 then We1 ⟨k.val - 6, by omega⟩ d else be0 d + be1 d

/-- The kernel's aggregate: the collected source rows plus the collected edge block times the stacked weights. -/
def kerAgg (nf : Mat 100000 128) (ef0 : Mat 1600000 6) (ef1 : Mat 1600000 3)
    (src dst : Fin 1600000 → BitVec 32) (We0 : Mat 6 128) (be0 : Fin 128 → EReal)
    (We1 : Mat 3 128) (be1 : Fin 128 → EReal) : Mat 100000 128 := fun n d =>
  (∑ e ∈ hits dst n, nf (srcRow src e) d)
    + ∑ k : Fin 10, (∑ e ∈ hits dst n, efAug ef0 ef1 e k) * wAug We0 be0 We1 be1 k d

/-- The hidden layer: `max (agg · W1 + b1) 0`. -/
def hid (agg : Mat 100000 128) (W1 : Mat 128 256) (b1 : Fin 256 → EReal) : Mat 100000 256 := fun n j =>
  max ((∑ k : Fin 128, agg n k * W1 k j) + b1 j) 0

/-- The perceptron's output before normalisation: `hid · W2 + b2`. -/
def hpre (agg : Mat 100000 128) (W1 : Mat 128 256) (b1 : Fin 256 → EReal) (W2 : Mat 256 128)
    (b2 : Fin 128 → EReal) : Mat 100000 128 := fun n d =>
  (∑ j : Fin 256, hid agg W1 b1 n j * W2 j d) + b2 d

/-- The mean over the node axis. -/
def mean (h : Mat 100000 128) (d : Fin 128) : EReal := Ideal.div (∑ n : Fin 100000, h n d) cN

/-- The (biased) variance over the node axis. -/
def var (h : Mat 100000 128) (d : Fin 128) : EReal :=
  Ideal.div (∑ n : Fin 100000, (h n d - mean h d) * (h n d - mean h d)) cN

/-- The normalised output. -/
def out (h : Mat 100000 128) (gamma beta : Fin 128 → EReal) : Mat 100000 128 := fun n d =>
  (h n d - mean h d) * Ideal.rsqrt (var h d + eps) * gamma d + beta d

end Cert.Spec

end
-- ==== Proof.Finite.lean ====
/-
  From the precondition to real entries.

  The precondition is a conjunction of thirteen tests, one per float argument array, each of which says that
  every entry x of the array satisfies |x| < +inf, where |x| = max x (-x) on the extended reals and +inf is what
  the word 0x7F800000 denotes.  An extended real is bottom, top or a real number: |bottom| = |top| = top is not
  below top, so an entry that passes the test is a real number.  A conjunction of one-bit words that is 1 has
  every conjunct 1, and an "and"-reduction over all axes that is 1 had a 1 at every index; so from the
  precondition every entry of each tested array is a real number.  The six arrays the aggregate law needs
  (the two edge-feature arrays, the two edge weight matrices and the two edge biases) are read off here.
-/
import proofs.«142321_j69939247448309_2_alg».proof.Proof.Spec
import proofs.«142321_j69939247448309_2_alg».proof.Pre_finite_inputs
import Idealize.ShloMosaic.Lib.ReduceAll
import Idealize.ShloMosaic.Lib.ValueIdx

noncomputable section

open Idealize.ShloMosaic
open Cert.Pre_finite_inputs

namespace Cert.Finite

/-- The scalar shape has one index. -/
instance : Subsingleton S_.Idx := ⟨fun a b => funext fun d => d.elim0⟩

/-- The word 0x7F800000 denotes +inf. -/
theorem inf_word : Ideal.ofBits .f32 0x7F800000#32 = (⊤ : EReal) := by
  simp [Ideal.ofBits, Ideal.ieee]

/-- An extended real whose absolute value is below +inf is a real number. -/
theorem isReal_of_abs_lt (x : EReal)
    (h : Ideal.cmp .olt (max x (-x)) (Ideal.ofBits .f32 0x7F800000#32) = 1#1) : Spec.IsReal x := by
  rw [inf_word] at h
  unfold Ideal.cmp at h
  induction x using EReal.rec with
  | bot => simp at h
  | coe r => exact ⟨r, rfl⟩
  | top => simp at h

/-- An elementwise "and" at an index. -/
theorem andi_at {s : Shape} {w : Nat} (x y : IVec s w) (i : s.Idx) : andi x y i = IntOp.andi (x i) (y i) := rfl

/-- One test of the precondition: if the "and" over all entries of |a| < +inf is 1, every entry of a is real. -/
theorem all_real {s : Shape} {axes : List (Fin s.rank)} (a : FVec Ideal s .f32)
    (bc : S_.BroadcastsInDim s (![] : Fin 0 → Fin s.rank)) (hr : s.ReducesTo axes S_) (hu : 0 < S_.numel)
    (e : Host.reduce IntOp.andi
          (cmpf .olt (Host.absf a) (broadcastInDim s ![] bc (constant (F := Ideal) S_ .f32 0x7F800000#32)))
          (constantI S_ 1 1#1) hr hu ValueIdx.ix0 = 1#1) (i : s.Idx) : Spec.IsReal (a i) :=
  isReal_of_abs_lt (a i) (Host.reduce_andi_all _ _ hr hu ValueIdx.ix0 e i)

/-- The precondition gives real entries of the two edge-feature arrays, the two edge weight matrices and the
    two edge biases. -/
theorem of_pre [Facts] (a0 : FVec Ideal S100000x128 .f32) (a1 : FVec Ideal S1600000x6 .f32)
    (a2 : FVec Ideal S1600000x3 .f32) (a3 : IVec S1600000 32) (a4 : IVec S1600000 32)
    (a5 : FVec Ideal S6x128 .f32) (a6 : FVec Ideal S128 .f32) (a7 : FVec Ideal S3x128 .f32)
    (a8 : FVec Ideal S128 .f32) (a9 : FVec Ideal S128x256 .f32) (a10 : FVec Ideal S256 .f32)
    (a11 : FVec Ideal S256x128 .f32) (a12 : FVec Ideal S128 .f32) (a13 : FVec Ideal S128 .f32)
    (a14 : FVec Ideal S128 .f32)
    (h : fn (F := Ideal) a0 a1 a2 a3 a4 a5 a6 a7 a8 a9 a10 a11 a12 a13 a14 = fun _ => 1#1) :
    (∀ i, Spec.IsReal (a1 i)) ∧ (∀ i, Spec.IsReal (a2 i)) ∧ (∀ i, Spec.IsReal (a5 i))
      ∧ (∀ i, Spec.IsReal (a6 i)) ∧ (∀ i, Spec.IsReal (a7 i)) ∧ (∀ i, Spec.IsReal (a8 i)) := by
  have e := congrFun h ValueIdx.ix0
  dsimp only [fn, fn_part1, fn_part2, fn_part3] at e
  simp only [andi_at, IntOp.andi_eq_one] at e
  obtain ⟨⟨⟨⟨⟨⟨⟨⟨⟨⟨⟨⟨_, e1⟩, e2⟩, e5⟩, e6⟩, e7⟩, e8⟩, _⟩, _⟩, _⟩, _⟩, _⟩, _⟩ := e
  exact ⟨all_real a1 _ _ _ e1, all_real a2 _ _ _ e2, all_real a5 _ _ _ e5, all_real a6 _ _ _ e6,
    all_real a7 _ _ _ e7, all_real a8 _ _ _ e8⟩

end Cert.Finite

end
-- ==== Proof.SpecAlg.lean ====
/-
  The two aggregates of the specification agree when the edge features, the edge weights and the edge
  biases are real numbers.

  For a node, write S for the set of its edges.  The reference adds, over S, the source row plus the edge
  embedding; a finite sum of x_e + y_e is the sum of the x_e plus the sum of the y_e in every additive
  commutative monoid, so the source rows (which may be any extended reals) split off on both sides.  What is
  left is an identity between real numbers,

      sum_k (sum_e A e k) * W k  =  sum_e ((sum_k f0 e k * w0 k + c0) + (sum_k f1 e k * w1 k + c1)),

  where A is the ten-column block (f0 | f1 | 1) and W the ten stacked rows (w0 ; w1 ; c0 + c1): the sum over
  the ten columns is cut into its first six, next three and last column, every product (sum_e a_e) * w is
  sum_e a_e * w, the two finite sums are exchanged, and the column of ones contributes
  (sum_e 1) * (c0 + c1) = sum_e c0 + sum_e c1.  On the extended reals multiplication does not distribute over
  addition in general, which is why the identity is carried out on the real witnesses and transported along
  the coercion, which commutes with finite sums and with products.
-/
import proofs.«142321_j69939247448309_2_alg».proof.Proof.Spec

noncomputable section

open scoped BigOperators
open Idealize.ShloMosaic

namespace Cert.Spec

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over ten indices, cut into its first six, its next three and its last index. -/
theorem sum_fin10 {M : Type*} [AddCommMonoid M] (F : Fin 10 → M) :
    ∑ k, F k = (∑ k : Fin 6, F ⟨k.val, by omega⟩) + (∑ k : Fin 3, F ⟨k.val + 6, by omega⟩)
      + F ⟨9, by omega⟩ := by
  rw [Fin.sum_univ_castSucc]
  rw [show (∑ i : Fin 9, F (Fin.castSucc i)) = ∑ i : Fin (6 + 3), F (Fin.castSucc i) from rfl,
    Fin.sum_univ_add]
  refine congrArg₂ (· + ·) (congrArg₂ (· + ·) rfl ?_) rfl
  exact Finset.sum_congr rfl fun i _ => congrArg F (Fin.ext (by simp; omega))

section Columns

variable (ef0 : Mat 1600000 6) (ef1 : Mat 1600000 3) (We0 : Mat 6 128) (be0 : Fin 128 → EReal)
  (We1 : Mat 3 128) (be1 : Fin 128 → EReal)

theorem efAug_lo (e : Fin 1600000) (k : Fin 6) : efAug ef0 ef1 e ⟨k.val, by omega⟩ = ef0 e k := by
  unfold efAug
  rw [dif_pos (show (⟨k.val, by omega⟩ : Fin 10).val < 6 from k.isLt)]

theorem efAug_mid (e : Fin 1600000) (k : Fin 3) : efAug ef0 ef1 e ⟨k.val + 6, by omega⟩ = ef1 e k := by
  unfold efAug
  rw [dif_neg (show ¬ (⟨k.val + 6, by omega⟩ : Fin 10).val < 6 by simp),
    dif_pos (show (⟨k.val + 6, by omega⟩ : Fin 10).val < 9 by simp; omega)]
  exact congrArg (ef1 e) (Fin.ext (by simp))

theorem efAug_hi (e : Fin 1600000) : efAug ef0 ef1 e ⟨9, by omega⟩ = 1 := by
  unfold efAug
  rw [dif_neg (show ¬ (⟨9, by omega⟩ : Fin 10).val < 6 by simp),
    dif_neg (show ¬ (⟨9, by omega⟩ : Fin 10).val < 9 by simp)]

theorem wAug_lo (k : Fin 6) (d : Fin 128) : wAug We0 be0 We1 be1 ⟨k.val, by omega⟩ d = We0 k d := by
  unfold wAug
  rw [dif_pos (show (⟨k.val, by omega⟩ : Fin 10).val < 6 from k.isLt)]

theorem wAug_mid (k : Fin 3) (d : Fin 128) : wAug We0 be0 We1 be1 ⟨k.val + 6, by omega⟩ d = We1 k d := by
  unfold wAug
  rw [dif_neg (show ¬ (⟨k.val + 6, by omega⟩ : Fin 10).val < 6 by simp),
    dif_pos (show (⟨k.val + 6, by omega⟩ : Fin 10).val < 9 by simp; omega)]
  exact congrFun (congrArg We1 (Fin.ext (by simp))) d

theorem wAug_hi (d : Fin 128) : wAug We0 be0 We1 be1 ⟨9, by omega⟩ d = be0 d + be1 d := by
  unfold wAug
  rw [dif_neg (show ¬ (⟨9, by omega⟩ : Fin 10).val < 6 by simp),
    dif_neg (show ¬ (⟨9, by omega⟩ : Fin 10).val < 9 by simp)]

end Columns

/-- The identity on the real witnesses: block times stacked rows equals the sum of the edge embeddings. -/
theorem real_law {ι : Type*} (S : Finset ι) (f0 : ι → Fin 6 → ℝ) (f1 : ι → Fin 3 → ℝ)
    (w0 : Fin 6 → ℝ) (w1 : Fin 3 → ℝ) (c0 c1 : ℝ) :
    (∑ k : Fin 6, (∑ e ∈ S, f0 e k) * w0 k) + (∑ k : Fin 3, (∑ e ∈ S, f1 e k) * w1 k)
        + (∑ _e ∈ S, (1 : ℝ)) * (c0 + c1)
      = ∑ e ∈ S, (((∑ k : Fin 6, f0 e k * w0 k) + c0) + ((∑ k : Fin 3, f1 e k * w1 k) + c1)) := by
  simp only [Finset.sum_mul, Finset.sum_add_distrib, one_mul]
  rw [Finset.sum_comm (s := (Finset.univ : Finset (Fin 6))) (t := S),
    Finset.sum_comm (s := (Finset.univ : Finset (Fin 3))) (t := S)]
  ring

theorem kerAgg_eq_refAgg (nf : Mat 100000 128) (ef0 : Mat 1600000 6) (ef1 : Mat 1600000 3)
    (src dst : Fin 1600000 → BitVec 32) (We0 : Mat 6 128) (be0 : Fin 128 → EReal)
    (We1 : Mat 3 128) (be1 : Fin 128 → EReal)
    (h0 : ∀ e k, IsReal (ef0 e k)) (h1 : ∀ e k, IsReal (ef1 e k))
    (hW0 : ∀ k d, IsReal (We0 k d)) (hb0 : ∀ d, IsReal (be0 d))
    (hW1 : ∀ k d, IsReal (We1 k d)) (hb1 : ∀ d, IsReal (be1 d)) :
    kerAgg nf ef0 ef1 src dst We0 be0 We1 be1 = refAgg nf ef0 ef1 src dst We0 be0 We1 be1 := by
  choose f0 hf0 using h0
  choose f1 hf1 using h1
  choose w0 hw0 using hW0
  choose c0 hc0 using hb0
  choose w1 hw1 using hW1
  choose c1 hc1 using hb1
  funext n d
  unfold kerAgg refAgg
  rw [Finset.sum_add_distrib]
  refine congrArg (fun t => (∑ e ∈ hits dst n, nf (srcRow src e) d) + t) ?_
  rw [sum_fin10]
  simp only [efAug_lo, efAug_mid, efAug_hi, wAug_lo, wAug_mid, wAug_hi]
  -- the three groups of columns, and the edge embeddings, as coercions of real numbers
  have e0 : ∑ k : Fin 6, (∑ e ∈ hits dst n, ef0 e k) * We0 k d
      = ((∑ k : Fin 6, (∑ e ∈ hits dst n, f0 e k) * w0 k d : ℝ) : EReal) := by
    rw [coe_sum]
    refine Finset.sum_congr rfl fun k _ => ?_
    rw [EReal.coe_mul, coe_sum, hw0]
    exact congrArg (· * (w0 k d : EReal)) (Finset.sum_congr rfl fun e _ => hf0 e k)
  have e1 : ∑ k : Fin 3, (∑ e ∈ hits dst n, ef1 e k) * We1 k d
      = ((∑ k : Fin 3, (∑ e ∈ hits dst n, f1 e k) * w1 k d : ℝ) : EReal) := by
    rw [coe_sum]
    refine Finset.sum_congr rfl fun k _ => ?_
    rw [EReal.coe_mul, coe_sum, hw1]
    exact congrArg (· * (w1 k d : EReal)) (Finset.sum_congr rfl fun e _ => hf1 e k)
  have e2 : (∑ _e ∈ hits dst n, (1 : EReal)) * (be0 d + be1 d)
      = (((∑ _e ∈ hits dst n, (1 : ℝ)) * (c0 d + c1 d) : ℝ) : EReal) := by
    rw [EReal.coe_mul, coe_sum, EReal.coe_add, hc0, hc1, EReal.coe_one]
  have e3 : ∑ e ∈ hits dst n, edgeEmb ef0 ef1 We0 be0 We1 be1 e d
      = ((∑ e ∈ hits dst n, (((∑ k : Fin 6, f0 e k * w0 k d) + c0 d)
          + ((∑ k : Fin 3, f1 e k * w1 k d) + c1 d)) : ℝ) : EReal) := by
    rw [coe_sum]
    refine Finset.sum_congr rfl fun e _ => ?_
    have s0 : ∑ k : Fin 6, ef0 e k * We0 k d = ∑ k : Fin 6, ((f0 e k * w0 k d : ℝ) : EReal) :=
      Finset.sum_congr rfl fun k _ => by rw [EReal.coe_mul, hf0, hw0]
    have s1 : ∑ k : Fin 3, ef1 e k * We1 k d = ∑ k : Fin 3, ((f1 e k * w1 k d : ℝ) : EReal) :=
      Finset.sum_congr rfl fun k _ => by rw [EReal.coe_mul, hf1, hw1]
    unfold edgeEmb
    rw [EReal.coe_add, EReal.coe_add, EReal.coe_add, coe_sum, coe_sum, hc0, hc1, s0, s1]
  have hr := real_law (hits dst n) f0 f1 (fun k => w0 k d) (fun k => w1 k d) (c0 d) (c1 d)
  beta_reduce at hr
  rw [e0, e1, e2, e3, ← EReal.coe_add, ← EReal.coe_add, hr]

/-- The normalised outputs computed from the two aggregates agree. -/
theorem out_ker_eq_ref (nf : Mat 100000 128) (ef0 : Mat 1600000 6) (ef1 : Mat 1600000 3)
    (src dst : Fin 1600000 → BitVec 32) (We0 : Mat 6 128) (be0 : Fin 128 → EReal)
    (We1 : Mat 3 128) (be1 : Fin 128 → EReal)
    (W1 : Mat 128 256) (b1 : Fin 256 → EReal) (W2 : Mat 256 128) (b2 : Fin 128 → EReal)
    (gamma beta : Fin 128 → EReal)
    (h0 : ∀ e k, IsReal (ef0 e k)) (h1 : ∀ e k, IsReal (ef1 e k))
    (hW0 : ∀ k d, IsReal (We0 k d)) (hb0 : ∀ d, IsReal (be0 d))
    (hW1 : ∀ k d, IsReal (We1 k d)) (hb1 : ∀ d, IsReal (be1 d)) :
    out (hpre (kerAgg nf ef0 ef1 src dst We0 be0 We1 be1) W1 b1 W2 b2) gamma beta
      = out (hpre (refAgg nf ef0 ef1 src dst We0 be0 We1 be1) W1 b1 W2 b2) gamma beta := by
  rw [kerAgg_eq_refAgg nf ef0 ef1 src dst We0 be0 We1 be1 h0 h1 hW0 hb0 hW1 hb1]

end Cert.Spec

end
-- ==== Proof.ArgsAt.lean ====
/-
  The argument arrays read by coordinates: a rank-2 array as a matrix `(i, j) ↦ x (i, j)`, a rank-1 array as a
  vector, a rank-1 array of index words as a sequence of words.  Both programs' values are stated over these
  readings of the fifteen argument arrays.
-/
import Idealize.ShloMosaic.Lib.ValueIdx
import proofs.«142321_j69939247448309_2_alg».proof.Proof.Spec

noncomputable section

open Idealize.ShloMosaic Idealize.ShloMosaic.ValueIdx

namespace Cert.ArgsAt

/-- A rank-2 array of extended reals as a matrix. -/
def mat {a b : Nat} (x : (⟨2, ![a, b]⟩ : Shape).Idx → EReal) : Cert.Spec.Mat a b := fun i j => x (ix2 i j)

/-- A rank-1 array of extended reals as a vector. -/
def vec {a : Nat} (x : (⟨1, ![a]⟩ : Shape).Idx → EReal) : Fin a → EReal := fun i => x (ix1 i)

/-- A rank-1 array of 32-bit words as a sequence. -/
def words {a : Nat} (x : (⟨1, ![a]⟩ : Shape).Idx → BitVec 32) : Fin a → BitVec 32 := fun i => x (ix1 i)

theorem mat_apply {a b : Nat} (x : (⟨2, ![a, b]⟩ : Shape).Idx → EReal) (i : Fin a) (j : Fin b) :
    mat x i j = x (ix2 i j) := rfl
theorem vec_apply {a : Nat} (x : (⟨1, ![a]⟩ : Shape).Idx → EReal) (i : Fin a) : vec x i = x (ix1 i) := rfl
theorem words_apply {a : Nat} (x : (⟨1, ![a]⟩ : Shape).Idx → BitVec 32) (i : Fin a) : words x i = x (ix1 i) := rfl

/-- The common result of both programs, from the fifteen argument arrays, for a given aggregate. -/
def result (agg : Cert.Spec.Mat 100000 128)
    (a9 : (⟨2, ![128, 256]⟩ : Shape).Idx → EReal) (a10 : (⟨1, ![256]⟩ : Shape).Idx → EReal)
    (a11 : (⟨2, ![256, 128]⟩ : Shape).Idx → EReal) (a12 a13 a14 : (⟨1, ![128]⟩ : Shape).Idx → EReal) :
    Cert.Spec.Mat 100000 128 :=
  Cert.Spec.out (Cert.Spec.hpre agg (mat a9) (vec a10) (mat a11) (vec a12)) (vec a13) (vec a14)

/-- The reference's aggregate from the argument arrays. -/
def refAgg (a0 : (⟨2, ![100000, 128]⟩ : Shape).Idx → EReal) (a1 : (⟨2, ![1600000, 6]⟩ : Shape).Idx → EReal)
    (a2 : (⟨2, ![1600000, 3]⟩ : Shape).Idx → EReal) (a3 a4 : (⟨1, ![1600000]⟩ : Shape).Idx → BitVec 32)
    (a5 : (⟨2, ![6, 128]⟩ : Shape).Idx → EReal) (a6 : (⟨1, ![128]⟩ : Shape).Idx → EReal)
    (a7 : (⟨2, ![3, 128]⟩ : Shape).Idx → EReal) (a8 : (⟨1, ![128]⟩ : Shape).Idx → EReal) : Cert.Spec.Mat 100000 128 :=
  Cert.Spec.refAgg (mat a0) (mat a1) (mat a2) (words a3) (words a4) (mat a5) (vec a6) (mat a7) (vec a8)

/-- The kernel's aggregate from the argument arrays. -/
def kerAgg (a0 : (⟨2, ![100000, 128]⟩ : Shape).Idx → EReal) (a1 : (⟨2, ![1600000, 6]⟩ : Shape).Idx → EReal)
    (a2 : (⟨2, ![1600000, 3]⟩ : Shape).Idx → EReal) (a3 a4 : (⟨1, ![1600000]⟩ : Shape).Idx → BitVec 32)
    (a5 : (⟨2, ![6, 128]⟩ : Shape).Idx → EReal) (a6 : (⟨1, ![128]⟩ : Shape).Idx → EReal)
    (a7 : (⟨2, ![3, 128]⟩ : Shape).Idx → EReal) (a8 : (⟨1, ![128]⟩ : Shape).Idx → EReal) : Cert.Spec.Mat 100000 128 :=
  Cert.Spec.kerAgg (mat a0) (mat a1) (mat a2) (words a3) (words a4) (mat a5) (vec a6) (mat a7) (vec a8)

end Cert.ArgsAt

end
-- ==== Proof.FiniteArgs.lean ====
/-
  The aggregate law at the argument arrays.

  The precondition makes every entry of the two edge-feature arrays, the two edge weight matrices and the two
  edge biases a real number; read by coordinates, these are exactly the hypotheses under which the kernel's
  aggregate and the reference's aggregate agree.  Hence, under the precondition, the two aggregates of the
  argument arrays are equal, and so are the normalised results computed from them.
-/
import proofs.«142321_j69939247448309_2_alg».proof.Proof.Finite
import proofs.«142321_j69939247448309_2_alg».proof.Proof.SpecAlg
import proofs.«142321_j69939247448309_2_alg».proof.Proof.ArgsAt

noncomputable section

open Idealize.ShloMosaic Idealize.ShloMosaic.ValueIdx
open Cert.Pre_finite_inputs

namespace Cert.Finite

section

variable [Facts] (a0 : FVec Ideal S100000x128 .f32) (a1 : FVec Ideal S1600000x6 .f32)
  (a2 : FVec Ideal S1600000x3 .f32) (a3 : IVec S1600000 32) (a4 : IVec S1600000 32)
  (a5 : FVec Ideal S6x128 .f32) (a6 : FVec Ideal S128 .f32) (a7 : FVec Ideal S3x128 .f32)
  (a8 : FVec Ideal S128 .f32) (a9 : FVec Ideal S128x256 .f32) (a10 : FVec Ideal S256 .f32)
  (a11 : FVec Ideal S256x128 .f32) (a12 : FVec Ideal S128 .f32) (a13 : FVec Ideal S128 .f32)
  (a14 : FVec Ideal S128 .f32)

/-- Under the precondition the edge features, edge weights and edge biases, read by coordinates, are real. -/
theorem args_real (h : fn (F := Ideal) a0 a1 a2 a3 a4 a5 a6 a7 a8 a9 a10 a11 a12 a13 a14 = fun _ => 1#1) :
    (∀ e k, Spec.IsReal (ArgsAt.mat a1 e k)) ∧ (∀ e k, Spec.IsReal (ArgsAt.mat a2 e k))
      ∧ (∀ k d, Spec.IsReal (ArgsAt.mat a5 k d)) ∧ (∀ d, Spec.IsReal (ArgsAt.vec a6 d))
      ∧ (∀ k d, Spec.IsReal (ArgsAt.mat a7 k d)) ∧ (∀ d, Spec.IsReal (ArgsAt.vec a8 d)) := by
  obtain ⟨r1, r2, r5, r6, r7, r8⟩ := of_pre a0 a1 a2 a3 a4 a5 a6 a7 a8 a9 a10 a11 a12 a13 a14 h
  exact ⟨fun e k => r1 (ix2 e k), fun e k => r2 (ix2 e k), fun k d => r5 (ix2 k d), fun d => r6 (ix1 d),
    fun k d => r7 (ix2 k d), fun d => r8 (ix1 d)⟩

/-- Under the precondition the kernel's aggregate of the argument arrays is the reference's. -/
theorem kerAgg_eq_refAgg_of_pre
    (h : fn (F := Ideal) a0 a1 a2 a3 a4 a5 a6 a7 a8 a9 a10 a11 a12 a13 a14 = fun _ => 1#1) :
    ArgsAt.kerAgg a0 a1 a2 a3 a4 a5 a6 a7 a8 = ArgsAt.refAgg a0 a1 a2 a3 a4 a5 a6 a7 a8 := by
  obtain ⟨r1, r2, r5, r6, r7, r8⟩ := args_real a0 a1 a2 a3 a4 a5 a6 a7 a8 a9 a10 a11 a12 a13 a14 h
  unfold ArgsAt.kerAgg ArgsAt.refAgg
  exact Spec.kerAgg_eq_refAgg _ _ _ _ _ _ _ _ _ r1 r2 r5 r6 r7 r8

/-- Under the precondition the results computed from the two aggregates agree. -/
theorem result_ker_eq_ref_of_pre
    (h : fn (F := Ideal) a0 a1 a2 a3 a4 a5 a6 a7 a8 a9 a10 a11 a12 a13 a14 = fun _ => 1#1) :
    ArgsAt.result (ArgsAt.kerAgg a0 a1 a2 a3 a4 a5 a6 a7 a8) a9 a10 a11 a12 a13 a14
      = ArgsAt.result (ArgsAt.refAgg a0 a1 a2 a3 a4 a5 a6 a7 a8) a9 a10 a11 a12 a13 a14 :=
  congrArg (fun agg => ArgsAt.result agg a9 a10 a11 a12 a13 a14)
    (kerAgg_eq_refAgg_of_pre a0 a1 a2 a3 a4 a5 a6 a7 a8 a9 a10 a11 a12 a13 a14 h)

end

end Cert.Finite

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibGatherRows.lean ====
import Idealize.ShloMosaic.Lib.ValueIdx

/-!
  A ROW GATHER READ AT AN INDEX.

  A gather whose start indices are one column of row numbers — operand `[N, J]`, start indices `[E, 1]`, result
  `[E, J]`, result row `e` a copy of operand row `idx e` — is, at result index `(e, c)`, the operand at
  `(r, c)` where `r` is the row number `idx (e, 0)` read SIGNED and CLAMPED into `[0, N - 1]`: a negative row
  number reads row `0`, one that is `N` or more reads row `N - 1`. The same for a rank-1 operand `[N]` with
  result `[E]`: result entry `e` is the operand at the clamped `idx (e, 0)`.

  Every lemma takes an arbitrary dimension record `d` of the right shapes together with the equations that say
  its lists are those of a row gather; for a record given by literal lists each equation is `rfl`.
-/

open Idealize.ShloMosaic Idealize.ShloMosaic.ValueIdx

namespace GatherRows

/-! ## Rank 2: operand `[N, J]`, start indices `[E, 1]`, result `[E, J]` -/

section Rank2

variable {α : Type} {N J E w : Nat} (d : GatherDims ⟨2, ![N, J]⟩ ⟨2, ![E, 1]⟩ ⟨2, ![E, J]⟩)

/-- Result index `(e, c)` reads its row number at `(e, 0)` of the start indices. -/
theorem siIdx2 (hod : d.offsetDims = [1]) (hsm : d.startIndexMap = [0]) (hiv : d.indexVectorDim = 1)
    (e : Fin E) (c : Fin J) (k : Fin d.startIndexMap.length) :
    d.siIdx (ix2 e c) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- On the row axis the slice of result index `(e, c)` starts at its row number, read signed and clamped into
    `[0, N - 1]`. -/
theorem start2_row (hod : d.offsetDims = [1]) (hsm : d.startIndexMap = [0]) (hiv : d.indexVectorDim = 1)
    (hss : d.sliceSizes = ![1, J]) (idx : IVec ⟨2, ![E, 1]⟩ w) (e : Fin E) (c : Fin J) :
    d.start (ix2 e c) idx 0 = min (idx (ix2 e 0)).toInt.toNat (N - 1) := by
  have hm : (0 : Fin 2) ∈ d.startIndexMap := by
    rw [hsm]; show (0 : Fin 2) ∈ ([0] : List (Fin 2)); decide
  unfold GatherDims.start
  rw [dif_pos hm, siIdx2 d hod hsm hiv, hss]
  rfl

/-- On the column axis the slice starts at `0`. -/
theorem start2_col (hsm : d.startIndexMap = [0]) (idx : IVec ⟨2, ![E, 1]⟩ w) (j : (⟨2, ![E, J]⟩ : Shape).Idx) :
    d.start j idx 1 = 0 := by
  have hm : ¬ (1 : Fin 2) ∈ d.startIndexMap := by
    rw [hsm]; show ¬ (1 : Fin 2) ∈ ([0] : List (Fin 2)); decide
  unfold GatherDims.start
  rw [dif_neg hm]

/-- The offset coordinate on the column axis is the result's column. -/
theorem offCoord2_col (hod : d.offsetDims = [1]) (hcd : d.collapsedSliceDims = [0])
    (hob : d.operandBatchingDims = []) (e : Fin E) (c : Fin J) :
    d.offCoord (ix2 e c) 1 = c.val := by
  obtain ⟨od, cd, ob, sb, sm, iv, ss, wf⟩ := d
  subst hod hcd hob
  rfl

/-- THE ROW GATHER AT AN INDEX, rank 2: the operand at `(r, c)`, `r` the row number `idx (e, 0)` read signed
    and clamped into `[0, N - 1]`. -/
theorem gather_rows2 (hN : 0 < N) (hod : d.offsetDims = [1]) (hcd : d.collapsedSliceDims = [0])
    (hob : d.operandBatchingDims = []) (hsm : d.startIndexMap = [0]) (hiv : d.indexVectorDim = 1)
    (hss : d.sliceSizes = ![1, J])
    (x : (⟨2, ![N, J]⟩ : Shape).Idx → α) (idx : IVec ⟨2, ![E, 1]⟩ w) (e : Fin E) (c : Fin J) :
    Host.gather d x idx (ix2 e c)
      = x (ix2 ⟨min (idx (ix2 e 0)).toInt.toNat (N - 1), by omega⟩ c) := by
  have hnb : ∀ a : Fin 2, a ∉ d.operandBatchingDims := by
    intro a; rw [hob]; exact List.not_mem_nil
  unfold Host.gather
  congr 1
  funext a
  refine Fin.ext ?_
  match a with
  | ⟨0, _⟩ =>
    show d.start (ix2 e c) idx 0 + d.batchCoord (ix2 e c) 0 + d.offCoord (ix2 e c) 0 = _
    rw [d.batchCoord_eq_zero _ _ (hnb 0),
      d.offCoord_eq_zero _ _ (fun h => ((d.mem_sKept _).mp h).1 (by rw [hcd]; exact List.mem_singleton.mpr rfl)),
      start2_row d hod hsm hiv hss]
    rfl
  | ⟨1, _⟩ =>
    show d.start (ix2 e c) idx 1 + d.batchCoord (ix2 e c) 1 + d.offCoord (ix2 e c) 1 = c.val
    rw [d.batchCoord_eq_zero _ _ (hnb 1), start2_col d hsm, offCoord2_col d hod hcd hob]
    omega

end Rank2

/-! ## Rank 1: operand `[N]`, start indices `[E, 1]`, result `[E]` -/

section Rank1

variable {α : Type} {N E w : Nat} (d : GatherDims ⟨1, ![N]⟩ ⟨2, ![E, 1]⟩ ⟨1, ![E]⟩)

/-- Result index `e` reads its row number at `(e, 0)` of the start indices. -/
theorem siIdx1 (hod : d.offsetDims = []) (hsm : d.startIndexMap = [0]) (hiv : d.indexVectorDim = 1)
    (e : Fin E) (k : Fin d.startIndexMap.length) :
    d.siIdx (ix1 e) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- The slice of result index `e` starts at its row number, read signed and clamped into `[0, N - 1]`. -/
theorem start1 (hod : d.offsetDims = []) (hsm : d.startIndexMap = [0]) (hiv : d.indexVectorDim = 1)
    (hss : d.sliceSizes = ![1]) (idx : IVec ⟨2, ![E, 1]⟩ w) (e : Fin E) :
    d.start (ix1 e) idx 0 = min (idx (ix2 e 0)).toInt.toNat (N - 1) := by
  have hm : (0 : Fin 1) ∈ d.startIndexMap := by
    rw [hsm]; show (0 : Fin 1) ∈ ([0] : List (Fin 1)); decide
  unfold GatherDims.start
  rw [dif_pos hm, siIdx1 d hod hsm hiv, hss]
  rfl

/-- THE ROW GATHER AT AN INDEX, rank 1: the operand at the row number `idx (e, 0)` read signed and clamped into
    `[0, N - 1]`. -/
theorem gather_rows1 (hN : 0 < N) (hod : d.offsetDims = []) (hcd : d.collapsedSliceDims = [0])
    (hob : d.operandBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  congr 1
  funext a
  obtain rfl : a = 0 := Subsingleton.elim _ _
  refine Fin.ext ?_
  show d.start (ix1 e) idx 0 + d.batchCoord (ix1 e) 0 + d.offCoord (ix1 e) 0 = _
  rw [d.batchCoord_eq_zero _ _ (by rw [hob]; exact List.not_mem_nil),
    d.offCoord_eq_zero _ _ (fun h => ((d.mem_sKept _).mp h).1 (by rw [hcd]; exact List.mem_singleton.mpr rfl)),
    start1 d hod hsm hiv hss]
  rfl

end Rank1

end GatherRows
-- ==== Proof.LibScatterRows.lean ====
import Idealize.ShloMosaic.Lib.ValueIdx

/-!
  A ROW SCATTER READ AT AN INDEX.

  An accumulating scatter whose scatter indices are one column of row numbers — operand `[N, F]`, updates
  `[E, F]`, indices `[E, 1]`, update `e` added onto operand row `idx e` (a segment sum over the leading axis) — is, at
  the ideal values and at operand index `(n, f)`, the operand there plus the sum of `u (e, f)` over the updates `e`
  whose row number is `n`. The row number is read SIGNED and is not clamped: an update whose row number lies outside
  `[0, N)` lands nowhere and is dropped. The same for a rank-3 operand `[N, H, D]` with updates `[E, H, D]`, and
  the two compared: scattering `[E, H, D]` updates is scattering the same numbers laid out as `[E, H * D]`.

  Every lemma takes an arbitrary dimension record `d` of the right shapes together with the four equations that
  say its lists are those of a row scatter; for a record given by literal lists each equation is `rfl`.
-/

open scoped BigOperators
open Idealize.ShloMosaic Idealize.ShloMosaic.ValueIdx

namespace ScatterRows

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rank 2: operand `[N, F]`, updates `[E, F]`, indices `[E, 1]` -/

section Rank2

variable {N E F : Nat} (d : ScatterDims ⟨2, ![N, F]⟩ ⟨2, ![E, 1]⟩ ⟨2, ![E, F]⟩)

/-- Update `(e, f)` reads its row number at `(e, 0)` of the scatter indices. -/
theorem siIdx2 (huw : d.updateWindowDims = [1]) (hiw : d.insertedWindowDims = [0])
    (hsd : d.scatterDimsToOperandDims = [0]) (hiv : d.indexVectorDim = 1)
    (e : Fin E) (f : Fin F) (c : Fin d.scatterDimsToOperandDims.length) :
    d.siIdx (ix2 e f) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, f)` starts at its row number, read signed. -/
theorem start2_row (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) :
    d.start (ix2 e f) idx 0 = (idx (ix2 e 0)).toInt := by
  have hm : (0 : Fin 2) ∈ d.scatterDimsToOperandDims := by
    rw [hsd]; show (0 : Fin 2) ∈ ([0] : List (Fin 2)); decide
  unfold ScatterDims.start
  rw [dif_pos hm, siIdx2 d huw hiw hsd hiv]

/-- On the column axis the window starts at `0`. -/
theorem start2_col (hsd : d.scatterDimsToOperandDims = [0])
    (idx : IVec ⟨2, ![E, 1]⟩ 32) (j : (⟨2, ![E, F]⟩ : Shape).Idx) :
    d.start j idx 1 = 0 := by
  have hm : ¬ (1 : Fin 2) ∈ d.scatterDimsToOperandDims := by
    rw [hsd]; show ¬ (1 : Fin 2) ∈ ([0] : List (Fin 2)); decide
  unfold ScatterDims.start
  rw [dif_neg hm]

/-- The row axis is inserted: the window coordinate there is `0`. -/
theorem window2_row (hiw : d.insertedWindowDims = [0]) (j : (⟨2, ![E, F]⟩ : Shape).Idx) :
    d.window j 0 = 0 := by
  have hm : ¬ (0 : Fin 2) ∈ d.sKept := by
    show ¬ (0 : Fin 2) ∈ Shape.kept _ d.insertedWindowDims
    rw [hiw]
    show ¬ (0 : Fin 2) ∈ (List.finRange 2).filter (fun a => a ∉ ([0] : List (Fin 2)))
    decide
  unfold ScatterDims.window
  rw [dif_neg hm]

/-- The window coordinate on the column axis is the update's column. -/
theorem window2_col (huw : d.updateWindowDims = [1]) (hiw : d.insertedWindowDims = [0])
    (e : Fin E) (f : Fin F) :
    d.window (ix2 e f) 1 = f.val := by
  obtain ⟨uw, iw, sd, iv, wf⟩ := d
  subst huw hiw
  rfl

/-- Update `(e, f)` lands at operand index `(n, f')` exactly when its row number is `n` and `f = f'`. -/
theorem resultIdx2 (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) (n : Fin N) (f' : Fin F) :
    d.resultIdx? (ix2 e f) idx = some (ix2 n f') ↔ (idx (ix2 e 0)).toInt = (n.val : Int) ∧ f = f' := by
  have s0 := start2_row d huw hiw hsd hiv idx e f
  have s1 := start2_col d hsd idx (ix2 e f)
  have w0 := window2_row d hiw (ix2 e f)
  have w1 := window2_col d huw hiw e f
  unfold ScatterDims.resultIdx?
  split
  · rename_i h
    constructor
    · intro he
      have hfun := Option.some.inj he
      have h0 : (d.start (ix2 e f) idx 0 + d.window (ix2 e f) 0).toNat = n.val :=
        congrArg Fin.val (congrFun hfun 0)
      have h1 : (d.start (ix2 e f) idx 1 + d.window (ix2 e f) 1).toNat = f'.val :=
        congrArg Fin.val (congrFun hfun 1)
      have hh := (h 0).1
      rw [s0, w0] at h0 hh
      rw [s1, w1] at h1
      exact ⟨by omega, Fin.ext (by omega)⟩
    · rintro ⟨hn, rfl⟩
      congr 1
      funext a
      match a with
      | ⟨0, _⟩ =>
        exact Fin.ext (by
          show (d.start (ix2 e f) idx 0 + d.window (ix2 e f) 0).toNat = n.val
          rw [s0, w0]; omega)
      | ⟨1, _⟩ =>
        exact Fin.ext (by
          show (d.start (ix2 e f) idx 1 + d.window (ix2 e f) 1).toNat = f.val
          rw [s1, w1]; omega)
  · rename_i h
    constructor
    · intro he; exact absurd he (by simp)
    · rintro ⟨hn, rfl⟩
      exfalso; apply h
      intro a
      match a with
      | ⟨0, _⟩ =>
        show 0 ≤ d.start (ix2 e f) idx 0 + d.window (ix2 e f) 0
          ∧ d.start (ix2 e f) idx 0 + d.window (ix2 e f) 0 < (N : Int)
        rw [s0, w0]; have := n.isLt; omega
      | ⟨1, _⟩ =>
        show 0 ≤ d.start (ix2 e f) idx 1 + d.window (ix2 e f) 1
          ∧ d.start (ix2 e f) idx 1 + d.window (ix2 e f) 1 < (F : Int)
        rw [s1, w1]; have := f.isLt; omega

/-- THE ROW SCATTER AT AN INDEX, rank 2: the operand at `(n, f)` plus the sum of `u (e, f)` over the updates `e`
    whose row number, read signed, is `n`. -/
theorem hostScatterAdd_rows2 (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ 32)
    (u : (⟨2, ![E, F]⟩ : Shape).Idx → EReal) (n : Fin N) (f : Fin F) :
    Ideal.hostScatterAdd d x idx u (ix2 n f)
      = x (ix2 n f) + ∑ e ∈ Finset.univ.filter (fun e : Fin E => (idx (ix2 e 0)).toInt = (n.val : Int)), u (ix2 e f) := by
  unfold Ideal.hostScatterAdd
  congr 1
  rw [Finset.sum_filter, Finset.sum_filter, sum_idx2]
  refine Finset.sum_congr rfl fun e _ => ?_
  simp only [resultIdx2 d huw hiw hsd hiv idx e]
  by_cases hn : (idx (ix2 e 0)).toInt = (n.val : Int)
  · simp [hn]
  · simp [hn]

end Rank2

/-! ## Rank 3: operand `[N, H, D]`, updates `[E, H, D]`, indices `[E, 1]` -/

section Rank3

variable {N E H D : Nat} (d : ScatterDims ⟨3, ![N, H, D]⟩ ⟨2, ![E, 1]⟩ ⟨3, ![E, H, D]⟩)

/-- Update `(e, h, k)` reads its row number at `(e, 0)` of the scatter indices. -/
theorem siIdx3 (huw : d.updateWindowDims = [1, 2]) (hiw : d.insertedWindowDims = [0])
    (hsd : d.scatterDimsToOperandDims = [0]) (hiv : d.indexVectorDim = 1)
    (e : Fin E) (h : Fin H) (k : Fin D) (c : Fin d.scatterDimsToOperandDims.length) :
    d.siIdx (ix3 e h k) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, h, k)` starts at its row number, read signed. -/
theorem start3_row (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) :
    d.start (ix3 e h k) idx 0 = (idx (ix2 e 0)).toInt := by
  have hm : (0 : Fin 3) ∈ d.scatterDimsToOperandDims := by
    rw [hsd]; show (0 : Fin 3) ∈ ([0] : List (Fin 3)); decide
  unfold ScatterDims.start
  rw [dif_pos hm, siIdx3 d huw hiw hsd hiv]

/-- On the two window axes the window starts at `0`. -/
theorem start3_win (hsd : d.scatterDimsToOperandDims = [0])
    (idx : IVec ⟨2, ![E, 1]⟩ 32) (j : (⟨3, ![E, H, D]⟩ : Shape).Idx) (a : Fin 3) (ha : a ≠ 0) :
    d.start j idx a = 0 := by
  have hm : ¬ a ∈ d.scatterDimsToOperandDims := by
    rw [hsd]; intro hmem; exact ha (List.mem_singleton.1 hmem)
  unfold ScatterDims.start
  rw [dif_neg hm]

/-- The row axis is inserted: the window coordinate there is `0`. -/
theorem window3_row (hiw : d.insertedWindowDims = [0]) (j : (⟨3, ![E, H, D]⟩ : Shape).Idx) :
    d.window j 0 = 0 := by
  have hm : ¬ (0 : Fin 3) ∈ d.sKept := by
    show ¬ (0 : Fin 3) ∈ Shape.kept _ d.insertedWindowDims
    rw [hiw]
    show ¬ (0 : Fin 3) ∈ (List.finRange 3).filter (fun a => a ∉ ([0] : List (Fin 3)))
    decide
  unfold ScatterDims.window
  rw [dif_neg hm]

/-- The window coordinate on the second axis is the update's second coordinate. -/
theorem window3_mid (huw : d.updateWindowDims = [1, 2]) (hiw : d.insertedWindowDims = [0])
    (e : Fin E) (h : Fin H) (k : Fin D) :
    d.window (ix3 e h k) 1 = h.val := by
  obtain ⟨uw, iw, sd, iv, wf⟩ := d
  subst huw hiw
  rfl

/-- The window coordinate on the third axis is the update's third coordinate. -/
theorem window3_last (huw : d.updateWindowDims = [1, 2]) (hiw : d.insertedWindowDims = [0])
    (e : Fin E) (h : Fin H) (k : Fin D) :
    d.window (ix3 e h k) 2 = k.val := by
  obtain ⟨uw, iw, sd, iv, wf⟩ := d
  subst huw hiw
  rfl

/-- Update `(e, h, k)` lands at operand index `(n, h', k')` exactly when its row number is `n`, `h = h'` and `k = k'`. -/
theorem resultIdx3 (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) (n : Fin N) (h' : Fin H) (k' : Fin D) :
    d.resultIdx? (ix3 e h k) idx = some (ix3 n h' k')
      ↔ (idx (ix2 e 0)).toInt = (n.val : Int) ∧ h = h' ∧ k = k' := by
  have s0 := start3_row d huw hiw hsd hiv idx e h k
  have s1 := start3_win d hsd idx (ix3 e h k) 1 (by decide)
  have s2 := start3_win d hsd idx (ix3 e h k) 2 (by decide)
  have w0 := window3_row d hiw (ix3 e h k)
  have w1 := window3_mid d huw hiw e h k
  have w2 := window3_last d huw hiw e h k
  unfold ScatterDims.resultIdx?
  split
  · rename_i hb
    constructor
    · intro he
      have hfun := Option.some.inj he
      have h0 : (d.start (ix3 e h k) idx 0 + d.window (ix3 e h k) 0).toNat = n.val :=
        congrArg Fin.val (congrFun hfun 0)
      have h1 : (d.start (ix3 e h k) idx 1 + d.window (ix3 e h k) 1).toNat = h'.val :=
        congrArg Fin.val (congrFun hfun 1)
      have h2 : (d.start (ix3 e h k) idx 2 + d.window (ix3 e h k) 2).toNat = k'.val :=
        congrArg Fin.val (congrFun hfun 2)
      have hh := (hb 0).1
      rw [s0, w0] at h0 hh
      rw [s1, w1] at h1
      rw [s2, w2] at h2
      exact ⟨by omega, Fin.ext (by omega), Fin.ext (by omega)⟩
    · rintro ⟨hn, rfl, rfl⟩
      congr 1
      funext a
      match a with
      | ⟨0, _⟩ =>
        exact Fin.ext (by
          show (d.start (ix3 e h k) idx 0 + d.window (ix3 e h k) 0).toNat = n.val
          rw [s0, w0]; omega)
      | ⟨1, _⟩ =>
        exact Fin.ext (by
          show (d.start (ix3 e h k) idx 1 + d.window (ix3 e h k) 1).toNat = h.val
          rw [s1, w1]; omega)
      | ⟨2, _⟩ =>
        exact Fin.ext (by
          show (d.start (ix3 e h k) idx 2 + d.window (ix3 e h k) 2).toNat = k.val
          rw [s2, w2]; omega)
  · rename_i hb
    constructor
    · intro he; exact absurd he (by simp)
    · rintro ⟨hn, rfl, rfl⟩
      exfalso; apply hb
      intro a
      match a with
      | ⟨0, _⟩ =>
        show 0 ≤ d.start (ix3 e h k) idx 0 + d.window (ix3 e h k) 0
          ∧ d.start (ix3 e h k) idx 0 + d.window (ix3 e h k) 0 < (N : Int)
        rw [s0, w0]; have := n.isLt; omega
      | ⟨1, _⟩ =>
        show 0 ≤ d.start (ix3 e h k) idx 1 + d.window (ix3 e h k) 1
          ∧ d.start (ix3 e h k) idx 1 + d.window (ix3 e h k) 1 < (H : Int)
        rw [s1, w1]; have := h.isLt; omega
      | ⟨2, _⟩ =>
        show 0 ≤ d.start (ix3 e h k) idx 2 + d.window (ix3 e h k) 2
          ∧ d.start (ix3 e h k) idx 2 + d.window (ix3 e h k) 2 < (D : Int)
        rw [s2, w2]; have := k.isLt; omega

/-- THE ROW SCATTER AT AN INDEX, rank 3: the operand at `(n, h, k)` plus the sum of `u (e, h, k)` over the updates
    `e` whose row number, read signed, is `n`. -/
theorem hostScatterAdd_rows3 (huw : d.updateWindowDims = [1, 2]) (hiw : d.insertedWindowDims = [0])
    (hsd : d.scatterDimsToOperandDims = [0]) (hiv : d.indexVectorDim = 1)
    (x : (⟨3, ![N, H, D]⟩ : Shape).Idx → EReal) (idx : IVec ⟨2, ![E, 1]⟩ 32)
    (u : (⟨3, ![E, H, D]⟩ : Shape).Idx → EReal) (n : Fin N) (h : Fin H) (k : Fin D) :
    Ideal.hostScatterAdd d x idx u (ix3 n h k)
      = x (ix3 n h k)
        + ∑ e ∈ Finset.univ.filter (fun e : Fin E => (idx (ix2 e 0)).toInt = (n.val : Int)), u (ix3 e h k) := by
  unfold Ideal.hostScatterAdd
  congr 1
  rw [Finset.sum_filter, Finset.sum_filter, sum_idx3]
  refine Finset.sum_congr rfl fun e _ => ?_
  simp only [resultIdx3 d huw hiw hsd hiv idx e]
  by_cases hn : (idx (ix2 e 0)).toInt = (n.val : Int)
  · simp [hn, ite_and]
  · simp [hn]

end Rank3

/-! ## The two ranks compared -/

/-- A rank-3 row scatter at `(n, h, k)` is a rank-2 row scatter at `(n, f)` over the same scatter indices, as soon
    as the operands agree at these two indices and the updates agree there in every row `e`. -/
theorem hostScatterAdd_rows3_eq_rows2 {N E H D F : Nat}
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (n : Fin N) (h : Fin H) (k : Fin D) (f : Fin F)
    (hx : x3 (ix3 n h k) = x2 (ix2 n f))
    (hu : ∀ e : Fin E, u3 (ix3 e h k) = u2 (ix2 e f)) :
    Ideal.hostScatterAdd d3 x3 idx u3 (ix3 n h k) = Ideal.hostScatterAdd d2 x2 idx u2 (ix2 n f) := by
  rw [hostScatterAdd_rows3 d3 huw3 hiw3 hsd3 hiv3, hostScatterAdd_rows2 d2 huw2 hiw2 hsd2 hiv2, hx]
  congr 1
  exact Finset.sum_congr rfl fun e _ => hu e

/-- The same when the rank-2 updates are the rank-3 ones with the last two axes laid out as one of length
    `F = H * D` (column `f` holding entry `(f / D, f % D)`): the rank-3 scatter at `(n, h, k)` is the rank-2 scatter at
    column `D * h + k`. -/
theorem hostScatterAdd_rows3_flat {N E H D F : Nat} (hF : F = H * D)
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (hu : ∀ (e : Fin E) (f : Fin F) (hq : f.val / D < H) (hr : f.val % D < D),
      u2 (ix2 e f) = u3 (ix3 e ⟨f.val / D, hq⟩ ⟨f.val % D, hr⟩))
    (n : Fin N) (h : Fin H) (k : Fin D) (f : Fin F) (hf : f.val = D * h.val + k.val)
    (hx : x3 (ix3 n h k) = x2 (ix2 n f)) :
    Ideal.hostScatterAdd d3 x3 idx u3 (ix3 n h k) = Ideal.hostScatterAdd d2 x2 idx u2 (ix2 n f) := by
  have hD : 0 < D := Nat.lt_of_le_of_lt (Nat.zero_le _) k.isLt
  have hq : f.val / D = h.val := by
    rw [hf, Nat.mul_add_div hD, Nat.div_eq_of_lt k.isLt, Nat.add_zero]
  have hr : f.val % D = k.val := by
    rw [hf, Nat.mul_add_mod, Nat.mod_eq_of_lt k.isLt]
  refine hostScatterAdd_rows3_eq_rows2 d3 huw3 hiw3 hsd3 hiv3 d2 huw2 hiw2 hsd2 hiv2 x3 x2 idx u3 u2 n h k f hx ?_
  intro e
  have hq' : f.val / D < H := by rw [hq]; exact h.isLt
  have hr' : f.val % D < D := by rw [hr]; exact k.isLt
  have e1 : (⟨f.val / D, hq'⟩ : Fin H) = h := Fin.ext hq
  have e2 : (⟨f.val % D, hr'⟩ : Fin D) = k := Fin.ext hr
  rw [hu e f hq' hr', e1, e2]

end ScatterRows
-- ==== Proof.LibHostScatterIdeal.lean ====
import Idealize.ShloMosaic.PureOps.Ideal

/-!
  THE HOST'S ACCUMULATING SCATTER AT THE IDEAL VALUES, WITHOUT OPENING IT.

  The host program's accumulating float scatter `Host.scatterAdd d x idx upd` is, at the ideal values, the exact
  function `Ideal.hostScatterAdd d x idx upd`: each operand element plus the sum of the update elements that land on it.
  Both steps of this identification are definitional, but at a full-size update array (hundreds of thousands of
  updates) a goal must never be asked to see that by unfolding: the exact function's body is an extended-real sum over
  every update index. So the first step is stated for an ARBITRARY float instance, where the operation is a field of
  an unknown structure and nothing can unfold, and the second is the instance's own equation; a proof rewrites with
  this lemma as a whole and then reads the result with a lemma about `Ideal.hostScatterAdd` (a segment sum read at an
  index, say).
-/

namespace Idealize.ShloMosaic

/-- The host's accumulating scatter is the float instance's `hostScatterAdd` at the single-device schedule, at any
    instance. -/
theorem Host.scatterAdd_eq_hostScatterAdd {F : FTy → Type} [FloatOps F] {s si u : Shape} {φ : FTy} {w : Nat}
    (d : ScatterDims s si u) (x : FVec F s φ) (idx : IVec si w) (upd : FVec F u φ) :
    Host.scatterAdd d x idx upd = FloatOps.hostScatterAdd d .single x idx upd := rfl

/-- At the ideal values it is the exact accumulating scatter. -/
theorem Host.scatterAdd_ideal {s si u : Shape} {φ : FTy} {w : Nat}
    (d : ScatterDims s si u) (x : FVec Ideal s φ) (idx : IVec si w) (upd : FVec Ideal u φ) :
    Host.scatterAdd d x idx upd = Ideal.hostScatterAdd d x idx upd :=
  (Host.scatterAdd_eq_hostScatterAdd d x idx upd).trans (Ideal.hostScatterAdd_def d .single x idx upd)

end Idealize.ShloMosaic
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.LibHostRowScalar.lean ====
/-
  Host layout steps read at an index written by coordinates, for any element type and any extents, and two
  identities between a reshape and a broadcast.

  A row `[1, b]` copied down `a` rows reads, at `(i, j)`, the row at `j`.  A vector `[b]` broadcast to the single row `[1, b]` reads, at `(u, j)`, the vector at `j`.
  Reshaping a vector `[a]` to the column `[a, 1]` keeps the elements in row-major order, and so does broadcasting it
  along the new unit axis: the two arrays are equal; likewise for the row `[1, b]`.  General; no program is imported.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- A row `[1, b]` copied down `a` rows reads, at `(i, j)`, the row at `j`. -/
theorem broadcastInDim_row_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ => exact (if_pos rfl).symm
  | ⟨1, _⟩ =>
    show j.val = if b = 1 then 0 else j.val
    split
    · have := j.isLt; omega
    · rfl

/-- A vector `[b]` broadcast to the single row `[1, b]` reads, at `(u, j)`, the vector at `j`. -/
theorem broadcastInDim_vec_row_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- A vector `[a]` broadcast to the column `[a, 1]` reads, at `(i, u)`, the vector at `i`. -/
theorem broadcastInDim_vec_column_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The reshape of a vector to the column `[a, 1]` is its broadcast along the new unit axis. -/
theorem shapeCast_column_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨i, u, rfl⟩ : ∃ (i : Fin a) (u : Fin 1), j = ix2 i u := ⟨j 0, j 1, eq_ix2 j⟩
  rw [broadcastInDim_vec_column_apply]
  exact shapeCast_apply x hc _ _ (by
    have hu : u.val = 0 := by omega
    rw [Shape.rowMajor_val_two, Shape.rowMajor_val_one]
    show i.val = i.val * 1 + u.val
    rw [hu, Nat.mul_one, Nat.add_zero])

/-- The reshape of a vector to the row `[1, b]` is its broadcast along the new unit axis. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext j
  obtain ⟨u, i, rfl⟩ : ∃ (u : Fin 1) (i : Fin b), j = ix2 u i := ⟨j 0, j 1, eq_ix2 j⟩
  rw [broadcastInDim_vec_row_apply, shapeCast_a_1a_apply]

end Idealize.ShloMosaic.ValueIdx
-- ==== Proof.RefValue.lean ====
/-
  The reference program's value, read at an index.

  Each stage of the reference is read at one element: a matrix product is the sum over the contracted coordinate;
  a vector copied to a row and down the rows is the vector's entry at the column; the gather of rows reads the
  source row named by the wrapped index word, read signed and clamped; the accumulating scatter onto a zero array
  is the sum of the update rows whose destination word, read signed, is the row; the sum over the node axis from
  zero is the sum of the column.  In the variance the divisor is the node count minus a zero, which is the node
  count, and the node count is positive, so the select returns the quotient.  Composing these readings, the result
  at (n, d) is the normalised two-layer perceptron of the reference's aggregate.
-/
import proofs.«142321_j69939247448309_2_alg».proof.Proof.RefStages
import proofs.«142321_j69939247448309_2_alg».proof.Proof.ArgsAt
import proofs.«142321_j69939247448309_2_alg».proof.Proof.LibDotRows
import proofs.«142321_j69939247448309_2_alg».proof.Proof.LibGatherRows
import proofs.«142321_j69939247448309_2_alg».proof.Proof.LibScatterRows
import proofs.«142321_j69939247448309_2_alg».proof.Proof.LibHostScatterIdeal
import proofs.«142321_j69939247448309_2_alg».proof.Proof.LibHostLayout
import proofs.«142321_j69939247448309_2_alg».proof.Proof.LibHostRowScalar
import Idealize.ShloMosaic.Lib.IdealHost

noncomputable section

open scoped BigOperators

namespace Cert.ReferenceIdeal.RefValue

open Cert.ReferenceIdeal Cert.ReferenceIdeal.Gen Cert.ReferenceIdeal.RefRun Idealize.ShloMosaic
  Idealize.ShloMosaic.ValueIdx Cert.ArgsAt

/-! ## The four matrix products -/

/-- The first edge feature family times its weights, at `(e, d)`. -/
theorem dot6 (l : FVec Ideal S1600000x6 .f32) (r : FVec Ideal S6x128 .f32) (i : Fin 1600000) (j : Fin 128) :
    Host.dotGeneral (F := Ideal) dot_S1600000x6_S6x128_S1600000x128_1_0_0_1_n_n none l r (ix2 i j) = ∑ k : Fin 6, l (ix2 i k) * r (ix2 k j) :=
  dotGeneral_rows dot_S1600000x6_S6x128_S1600000x128_1_0_0_1_n_n none .single rfl rfl (fun _ _ => rfl) (fun _ _ => rfl)
    (fun _ _ => rfl) (fun _ _ => rfl) l r i j

/-- The second edge feature family times its weights, at `(e, d)`. -/
theorem dot3 (l : FVec Ideal S1600000x3 .f32) (r : FVec Ideal S3x128 .f32) (i : Fin 1600000) (j : Fin 128) :
    Host.dotGeneral (F := Ideal) dot_S1600000x3_S3x128_S1600000x128_1_0_0_1_n_n none l r (ix2 i j) = ∑ k : Fin 3, l (ix2 i k) * r (ix2 k j) :=
  dotGeneral_rows dot_S1600000x3_S3x128_S1600000x128_1_0_0_1_n_n none .single rfl rfl (fun _ _ => rfl) (fun _ _ => rfl)
    (fun _ _ => rfl) (fun _ _ => rfl) l r i j

/-- The aggregate times the first layer's weights, at `(n, j)`. -/
theorem dot128 (l : FVec Ideal S100000x128 .f32) (r : FVec Ideal S128x256 .f32) (i : Fin 100000) (j : Fin 256) :
    Host.dotGeneral (F := Ideal) dot_S100000x128_S128x256_S100000x256_1_0_0_1_n_n none l r (ix2 i j) = ∑ k : Fin 128, l (ix2 i k) * r (ix2 k j) :=
  dotGeneral_rows dot_S100000x128_S128x256_S100000x256_1_0_0_1_n_n none .single rfl rfl (fun _ _ => rfl) (fun _ _ => rfl)
    (fun _ _ => rfl) (fun _ _ => rfl) l r i j

/-- The hidden layer times the second layer's weights, at `(n, d)`. -/
theorem dot256 (l : FVec Ideal S100000x256 .f32) (r : FVec Ideal S256x128 .f32) (i : Fin 100000) (j : Fin 128) :
    Host.dotGeneral (F := Ideal) dot_S100000x256_S256x128_S100000x128_1_0_0_1_n_n none l r (ix2 i j) = ∑ k : Fin 256, l (ix2 i k) * r (ix2 k j) :=
  dotGeneral_rows dot_S100000x256_S256x128_S100000x128_1_0_0_1_n_n none .single rfl rfl (fun _ _ => rfl) (fun _ _ => rfl)
    (fun _ _ => rfl) (fun _ _ => rfl) l r i j

/-- The host's reciprocal square root at an index. -/
theorem hostRsqrt_apply {s : Shape} (x : FVec Ideal s .f32) (i : s.Idx) : Host.rsqrt x i = Ideal.rsqrt (x i) := rfl

/-! ## The aggregate -/

/-- The summed edge embeddings at `(e, d)`. -/
theorem embV_apply (a1 : Cn Ideal S1600000x6 .f32) (a2 : Cn Ideal S1600000x3 .f32) (a5 : Cn Ideal S6x128 .f32) (a6 : Cn Ideal S128 .f32) (a7 : Cn Ideal S3x128 .f32) (a8 : Cn Ideal S128 .f32) (e : Fin 1600000) (d : Fin 128) :
    embV (F := Ideal) a1 a2 a5 a6 a7 a8 (ix2 e d)
      = Cert.Spec.edgeEmb (mat a1) (mat a2) (mat a5) (vec a6) (mat a7) (vec a8) e d := by
  unfold embV
  rw [addf_apply, addf_apply, addf_apply, dot6, dot3, broadcastInDim_vec_rows_apply, broadcastInDim_vec_rows_apply]
  rfl

/-- The source index column at row `e`: the wrapped word. -/
theorem srcIdxV_apply (a3 : Cn Ideal S1600000 .i32) (e : Fin 1600000) :
    srcIdxV (F := Ideal) a3 (ix2 e (0 : Fin 1)) = Cert.Spec.wrap (a3 (ix1 e)) := by
  unfold srcIdxV
  rw [broadcastInDim_vec_col_apply]
  rfl

/-- The message at `(e, d)`: the source row's entry plus the embedding's. -/
theorem msgV_apply (a0 : Cn Ideal S100000x128 .f32) (a3 : Cn Ideal S1600000 .i32) (emb : Cn Ideal S1600000x128 .f32) (e : Fin 1600000)
    (d : Fin 128) :
    msgV (F := Ideal) a0 (srcIdxV a3) emb (ix2 e d) = a0 (ix2 (Cert.Spec.srcRow (words a3) e) d) + emb (ix2 e d) := by
  unfold msgV
  rw [addf_apply, GatherRows.gather_rows2 gather_S100000x128_S1600000x1_S1600000x128_1_0_n_n_0_1_1128 (by decide) rfl rfl rfl
    rfl rfl rfl]
  refine congrArg (fun t => t + emb (ix2 e d)) (congrArg (fun r => a0 (ix2 r d)) (Fin.ext ?_))
  show min (srcIdxV (F := Ideal) a3 (ix2 e (0 : Fin 1))).toInt.toNat (100000 - 1) = _
  rw [srcIdxV_apply]
  rfl

/-- The aggregate at `(n, d)`: the sum of the messages of the edges whose destination is `n`. -/
theorem aggV_apply (a4 : Cn Ideal S1600000 .i32) (msg : Cn Ideal S1600000x128 .f32) (n : Fin 100000) (d : Fin 128) :
    aggV (F := Ideal) a4 msg (ix2 n d) = ∑ e ∈ Cert.Spec.hits (words a4) n, msg (ix2 e d) := by
  unfold aggV Cert.Spec.hits
  rw [Host.scatterAdd_ideal, ScatterRows.hostScatterAdd_rows2 _ rfl rfl rfl rfl, broadcastInDim_scalar_apply, constant_apply,
    Ideal.ofBits_zero_f32, zero_add]
  refine Finset.sum_congr (Finset.filter_congr fun e _ => ?_) fun _ _ => rfl
  rw [broadcastInDim_vec_col_apply]
  exact Iff.rfl

/-- The reference's aggregate is the specification's. -/
theorem refAgg_apply (a0 : Cn Ideal S100000x128 .f32) (a1 : Cn Ideal S1600000x6 .f32) (a2 : Cn Ideal S1600000x3 .f32) (a3 : Cn Ideal S1600000 .i32) (a4 : Cn Ideal S1600000 .i32) (a5 : Cn Ideal S6x128 .f32) (a6 : Cn Ideal S128 .f32) (a7 : Cn Ideal S3x128 .f32) (a8 : Cn Ideal S128 .f32) (n : Fin 100000) (d : Fin 128) :
    aggV (F := Ideal) a4 (msgV a0 (srcIdxV a3) (embV a1 a2 a5 a6 a7 a8)) (ix2 n d)
      = Cert.ArgsAt.refAgg a0 a1 a2 a3 a4 a5 a6 a7 a8 n d := by
  rw [aggV_apply]
  unfold Cert.ArgsAt.refAgg Cert.Spec.refAgg
  refine Finset.sum_congr rfl fun e _ => ?_
  rw [msgV_apply, embV_apply]
  rfl

/-! ## The perceptron -/

/-- The hidden layer at `(n, j)`. -/
theorem hidV_apply (agg : Cn Ideal S100000x128 .f32) (a9 : Cn Ideal S128x256 .f32) (a10 : Cn Ideal S256 .f32) (n : Fin 100000) (j : Fin 256) :
    hidV (F := Ideal) agg a9 a10 (ix2 n j) = Cert.Spec.hid (mat agg) (mat a9) (vec a10) n j := by
  unfold hidV
  rw [maximumf_apply, addf_apply, dot128, broadcastInDim_vec_rows_apply, broadcastInDim_scalar_apply, constant_apply,
    Ideal.ofBits_zero_f32]
  rfl

/-- The second layer at `(n, d)`. -/
theorem hpreV_apply (hid : Cn Ideal S100000x256 .f32) (a11 : Cn Ideal S256x128 .f32) (a12 : Cn Ideal S128 .f32) (n : Fin 100000) (d : Fin 128) :
    hpreV (F := Ideal) hid a11 a12 (ix2 n d) = (∑ j : Fin 256, hid (ix2 n j) * a11 (ix2 j d)) + a12 (ix1 d) := by
  unfold hpreV
  rw [addf_apply, dot256, broadcastInDim_vec_rows_apply]

/-- The two layers at `(n, d)`: the specification's perceptron of the aggregate. -/
theorem hpre_eq (agg : Cn Ideal S100000x128 .f32) (a9 : Cn Ideal S128x256 .f32) (a10 : Cn Ideal S256 .f32) (a11 : Cn Ideal S256x128 .f32)
    (a12 : Cn Ideal S128 .f32) (n : Fin 100000) (d : Fin 128) :
    hpreV (F := Ideal) (hidV agg a9 a10) a11 a12 (ix2 n d)
      = Cert.Spec.hpre (mat agg) (mat a9) (vec a10) (mat a11) (vec a12) n d := by
  rw [hpreV_apply]
  unfold Cert.Spec.hpre
  refine congrArg (fun s => s + vec a12 d) (Finset.sum_congr rfl fun j _ => ?_)
  rw [hidV_apply]
  rfl

/-! ## The normalisation -/

/-- The sum over the node axis at column `d`. -/
theorem sumV_apply (x : Cn Ideal S100000x128 .f32) (d : Fin 128) :
    sumV (F := Ideal) x (ix1 d) = ∑ n : Fin 100000, x (ix2 n d) := by
  have hR : S100000x128.Reduces [0] S128 := by decide
  unfold sumV
  rw [hostReduceAdd_apply, Ideal.hostReduceAdd_single _ hR, constant_apply, Ideal.ofBits_zero_f32, zero_add]
  show ∑ n : Fin 100000, x (hR.lift (ix1 d) n) = _
  refine Finset.sum_congr rfl fun n _ => congrArg x ?_
  funext ax
  apply Fin.ext
  match ax with
  | ⟨0, _⟩ => rfl
  | ⟨1, _⟩ => rfl

/-- The mean at column `d`. -/
theorem meanV_apply (h : Cn Ideal S100000x128 .f32) (d : Fin 128) :
    meanV (F := Ideal) h (ix1 d) = Cert.Spec.mean (mat h) d := by
  unfold meanV
  rw [hostDivf_apply, sumV_apply, broadcastInDim_scalar_apply, constant_apply]
  rfl

/-- The mean as the variance computes it, at `(n, d)`. -/
theorem meanRowsV_apply (h : Cn Ideal S100000x128 .f32) (n : Fin 100000) (d : Fin 128) :
    meanRowsV (F := Ideal) h (ix2 n d) = Cert.Spec.mean (mat h) d := by
  unfold meanRowsV
  rw [broadcastInDim_row_apply, hostDivf_apply, broadcastInDim_vec_row_apply, sumV_apply, broadcastInDim_scalar_apply,
    constant_apply]
  rfl

/-- The word `100000.0` denotes the real number 100000. -/
theorem cN_eq : Cert.Spec.cN = ((100000 : ℝ) : EReal) := by
  unfold Cert.Spec.cN
  simp [Ideal.ofBits, Ideal.ieee, -EReal.coe_mul]
  norm_num

/-- The node count is positive. -/
theorem cN_pos : (0 : EReal) < Cert.Spec.cN := by
  rw [cN_eq]
  exact_mod_cast (by norm_num : (0 : ℝ) < 100000)

/-- The variance's divisor is the node count: the correction is the integer zero. -/
theorem countV_eq : countV (F := Ideal) ix0 = Cert.Spec.cN := by
  unfold countV
  rw [subf_apply, constant_apply, sitofp_apply]
  show Cert.Spec.cN - (((0#32 : BitVec 32).toInt : ℝ) : EReal) = Cert.Spec.cN
  have h0 : (((0#32 : BitVec 32).toInt : ℝ) : EReal) = 0 := by simp
  rw [h0, sub_zero]

/-- The variance at column `d`. -/
theorem varV_apply (h : Cn Ideal S100000x128 .f32) (d : Fin 128) :
    varV (F := Ideal) h (ix1 d) = Cert.Spec.var (mat h) d := by
  have hc : FloatOps.cmpf (F := Ideal) (φ := .f32) .ogt Cert.Spec.cN (0 : EReal) = 1#1 := by
    show Ideal.cmp .ogt Cert.Spec.cN 0 = 1#1
    unfold Ideal.cmp
    simp [cN_pos]
  unfold varV
  rw [select_apply, hostDivf_apply, broadcastInDim_scalar_apply, broadcastInDim_scalar_apply, broadcastInDim_scalar_apply,
    cmpf_apply, countV_eq, constant_apply, Ideal.ofBits_zero_f32, hc, select_one, sumV_apply]
  unfold Cert.Spec.var
  refine congrArg (fun s => Ideal.div s Cert.Spec.cN) (Finset.sum_congr rfl fun n _ => ?_)
  unfold devV
  rw [mulf_apply, subf_apply, meanRowsV_apply]
  rfl

/-- The normalised output at `(n, d)`. -/
theorem outV_apply (h : Cn Ideal S100000x128 .f32) (a13 a14 : Cn Ideal S128 .f32) (n : Fin 100000) (d : Fin 128) :
    outV (F := Ideal) h a13 a14 (ix2 n d) = Cert.Spec.out (mat h) (vec a13) (vec a14) n d := by
  unfold outV normV
  rw [addf_apply, mulf_apply, mulf_apply, subf_apply, broadcastInDim_vec_rows_apply, broadcastInDim_vec_rows_apply,
    broadcastInDim_vec_rows_apply, broadcastInDim_vec_rows_apply, hostRsqrt_apply, addf_apply, broadcastInDim_scalar_apply,
    constant_apply, meanV_apply, varV_apply]
  rfl

/-! ## The result -/

/-- The reference's result at `(n, d)`: the normalised perceptron of the reference's aggregate. -/
theorem refResult_apply (a0 : Cn Ideal S100000x128 .f32) (a1 : Cn Ideal S1600000x6 .f32) (a2 : Cn Ideal S1600000x3 .f32) (a3 : Cn Ideal S1600000 .i32) (a4 : Cn Ideal S1600000 .i32) (a5 : Cn Ideal S6x128 .f32) (a6 : Cn Ideal S128 .f32) (a7 : Cn Ideal S3x128 .f32) (a8 : Cn Ideal S128 .f32) (a9 : Cn Ideal S128x256 .f32) (a10 : Cn Ideal S256 .f32) (a11 : Cn Ideal S256x128 .f32) (a12 : Cn Ideal S128 .f32) (a13 : Cn Ideal S128 .f32) (a14 : Cn Ideal S128 .f32)
    (n : Fin 100000) (d : Fin 128) :
    refResult a0 a1 a2 a3 a4 a5 a6 a7 a8 a9 a10 a11 a12 a13 a14 (ix2 n d)
      = Cert.ArgsAt.result (Cert.ArgsAt.refAgg a0 a1 a2 a3 a4 a5 a6 a7 a8) a9 a10 a11 a12 a13 a14 n d := by
  have h0 : mat (aggV (F := Ideal) a4 (msgV a0 (srcIdxV a3) (embV a1 a2 a5 a6 a7 a8)))
      = Cert.ArgsAt.refAgg a0 a1 a2 a3 a4 a5 a6 a7 a8 := by
    funext i j
    exact refAgg_apply a0 a1 a2 a3 a4 a5 a6 a7 a8 i j
  have h1 : mat (hpreV (F := Ideal) (hidV (aggV a4 (msgV a0 (srcIdxV a3) (embV a1 a2 a5 a6 a7 a8))) a9 a10) a11 a12)
      = Cert.Spec.hpre (Cert.ArgsAt.refAgg a0 a1 a2 a3 a4 a5 a6 a7 a8) (mat a9) (vec a10) (mat a11) (vec a12) := by
    funext i j
    rw [mat_apply, hpre_eq, h0]
  unfold refResult Cert.ArgsAt.result
  rw [outV_apply, h1]

end Cert.ReferenceIdeal.RefValue

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KPay.lean ====
/-
  The four stored values of the three kernel bodies, read at an index, on the extended reals.

  Region 0 stores the perceptron's output block: with `agg (r, k) = x₀ (r, k) + ∑_q e (r, q) · w (q, k)` (the
  collected source rows plus the collected edge block times the stacked weights),
  `h (r, d) = ∑_j max (∑_k agg (r, k) · W₁ (k, j) + b₁ j) 0 · W₂ (j, d) + b₂ d`, and beside it the block's column sums
  `∑_r h (r, d)`.  Region 1 stores the block's column sums of squared deviations `∑_r (x (r, d) - μ d)²`.  Region 2
  stores `(x (r, d) - μ d) · s d · γ d + β d`.  A change of float format is the identity here, a product into the
  zero accumulator is the plain contraction sum, and a sum along the row axis is the sum over the rows.
-/
import proofs.«142321_j69939247448309_2_alg».proof.Proof.Gen.KernelIdeal.Skeleton
import proofs.«142321_j69939247448309_2_alg».proof.Proof.LibDotRows
import proofs.«142321_j69939247448309_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx Cert.KernelIdeal Cert.KernelIdeal.Gen

namespace Cert.KernelIdeal.PayVal

/-- The edge block times the stacked weights, at `(p, c)`. -/
theorem mm1 (l : FVec Ideal S5000x10 .bf16) (r : FVec Ideal S10x128 .bf16) (p : Fin 5000) (c : Fin 128) :
    matmul dot_S5000x10_S10x128_S5000x128_1_0_0_1_n_n none l r (constant S5000x128 .f32 0x00000000#32) (ix2 p c)
      = ∑ q : Fin 10, l (ix2 p q) * r (ix2 q c) :=
  matmul_zero_rows dot_S5000x10_S10x128_S5000x128_1_0_0_1_n_n none rfl rfl (fun _ _ => rfl) (fun _ _ => rfl)
    (fun _ _ => rfl) (fun _ _ => rfl) l r p c

/-- The aggregate times the first layer's weights, at `(p, c)`. -/
theorem mm2 (l : FVec Ideal S5000x128 .bf16) (r : FVec Ideal S128x256 .bf16) (p : Fin 5000) (c : Fin 256) :
    matmul dot_S5000x128_S128x256_S5000x256_1_0_0_1_n_n none l r (constant S5000x256 .f32 0x00000000#32) (ix2 p c)
      = ∑ q : Fin 128, l (ix2 p q) * r (ix2 q c) :=
  matmul_zero_rows dot_S5000x128_S128x256_S5000x256_1_0_0_1_n_n none rfl rfl (fun _ _ => rfl) (fun _ _ => rfl)
    (fun _ _ => rfl) (fun _ _ => rfl) l r p c

/-- The hidden layer times the second layer's weights, at `(p, c)`. -/
theorem mm3 (l : FVec Ideal S5000x256 .bf16) (r : FVec Ideal S256x128 .bf16) (p : Fin 5000) (c : Fin 128) :
    matmul dot_S5000x256_S256x128_S5000x128_1_0_0_1_n_n none l r (constant S5000x128 .f32 0x00000000#32) (ix2 p c)
      = ∑ q : Fin 256, l (ix2 p q) * r (ix2 q c) :=
  matmul_zero_rows dot_S5000x256_S256x128_S5000x128_1_0_0_1_n_n none rfl rfl (fun _ _ => rfl) (fun _ _ => rfl)
    (fun _ _ => rfl) (fun _ _ => rfl) l r p c

/-- The zero scalar the rectifier compares against. -/
theorem zero_scalar : (Scalar.ofBits (F := Ideal) .f32 0x00000000#32 : Ideal .f32) = (0 : EReal) :=
  Ideal.ofBits_zero_f32

/-- The perceptron's output block at `(r, d)`. -/
theorem pay1_apply (v0 : Vec Ideal S5000x10 .f32) (v3 : Vec Ideal S10x128 .f32) (v7 : Vec Ideal S5000x128 .f32)
    (v11 : Vec Ideal S128x256 .f32) (v14 : Vec Ideal S1x256 .f32) (v21 : Vec Ideal S256x128 .f32)
    (v24 : Vec Ideal S1x128 .f32) (r : Fin 5000) (d : Fin 128) :
    k0_pay1 (F := Ideal) v0 v3 v7 v11 v14 v21 v24 (ix2 r d)
      = (∑ j : Fin 256,
          max ((∑ k : Fin 128, (v7 (ix2 r k) + ∑ q : Fin 10, v0 (ix2 r q) * v3 (ix2 q k)) * v11 (ix2 k j))
            + v14 (ix2 (0 : Fin 1) j)) 0 * v21 (ix2 j d)) + v24 (ix2 (0 : Fin 1) d) := by
  simp only [k0_pay1, addf_apply, maximumf_apply, truncf_apply, broadcast_apply, shapeCast_self, mm1, mm2, mm3,
    broadcastTo_1b_ab_apply, zero_scalar]

/-- Dropping the FIRST axis of `[a, b]`: the index over `j` whose first coordinate is `k` is `(k, j)`. -/
theorem lift_first_ix1 {a b : ℕ} (h : (⟨2, ![a, b]⟩ : Shape).Reduces [0] (⟨1, ![b]⟩ : Shape)) (j : Fin b)
    (k : Fin ((⟨2, ![a, b]⟩ : Shape).size 0)) :
    h.lift (ix1 j) k = ix2 (⟨k.val, k.isLt⟩ : Fin a) j := by
  funext ax; apply Fin.ext
  fin_cases ax <;> rfl

/-- The sum of a block along its row axis, at column `d`: the sum over the rows. -/
theorem colsum (src : FVec Ideal S5000x128 .f32) (hφ : FKind.Formats .f32)
    (hacc : (0x00000000#32 : BitVec 32) = 0x00000000#32) (d : Fin 128) :
    multiReduction .add [0] S128 src 0x00000000#32 Facts₀.reduces_S5000x128_S128 hφ hacc (ix1 d)
      = ∑ r : Fin 5000, src (ix2 r d) :=
  (Ideal.multiReduction_add_single src 0x00000000#32 Facts₀.reduces_S5000x128_S128 hφ hacc (ix1 d)).trans
    (Finset.sum_congr rfl fun k _ => congrArg src (lift_first_ix1 Facts₀.reduces_S5000x128_S128 d k))

/-- The block's column sums, stored beside the block: at column `d` the sum of the block's entries over its rows. -/
theorem pay2_apply (v0 : Vec Ideal S5000x10 .f32) (v3 : Vec Ideal S10x128 .f32) (v7 : Vec Ideal S5000x128 .f32)
    (v11 : Vec Ideal S128x256 .f32) (v14 : Vec Ideal S1x256 .f32) (v21 : Vec Ideal S256x128 .f32)
    (v24 : Vec Ideal S1x128 .f32) (d : Fin 128) :
    k0_pay2 (F := Ideal) v0 v3 v7 v11 v14 v21 v24 (ix3 (0 : Fin 1) (0 : Fin 1) d)
      = ∑ r : Fin 5000, k0_pay1 (F := Ideal) v0 v3 v7 v11 v14 v21 v24 (ix2 r d) := by
  simp only [k0_pay2, shapeCast_ab_1ab_apply, shapeCast_a_1a_apply]
  exact colsum _ _ _ d

/-- The block's column sums of squared deviations from the mean row `μ`. -/
theorem pay_stats_apply (v0 : Vec Ideal S5000x128 .f32) (v2 : Vec Ideal S1x128 .f32) (d : Fin 128) :
    k1_pay1 (F := Ideal) v0 v2 (ix3 (0 : Fin 1) (0 : Fin 1) d)
      = ∑ r : Fin 5000, (v0 (ix2 r d) - v2 (ix2 (0 : Fin 1) d)) * (v0 (ix2 r d) - v2 (ix2 (0 : Fin 1) d)) := by
  simp only [k1_pay1, shapeCast_ab_1ab_apply, shapeCast_a_1a_apply, shapeCast_self]
  refine (colsum _ _ _ d).trans ?_
  simp only [mulf_apply, subf_apply, broadcastTo_1b_ab_apply]

/-- The normalised block: `(x - μ) · s · γ + β`, the four rows broadcast down the block. -/
theorem pay_apply_apply (v0 : Vec Ideal S5000x128 .f32) (v2 v6 v10 v14 : Vec Ideal S1x128 .f32) (r : Fin 5000)
    (d : Fin 128) :
    k2_pay1 (F := Ideal) v0 v2 v6 v10 v14 (ix2 r d)
      = (v0 (ix2 r d) - v2 (ix2 (0 : Fin 1) d)) * v6 (ix2 (0 : Fin 1) d) * v10 (ix2 (0 : Fin 1) d)
        + v14 (ix2 (0 : Fin 1) d) := by
  simp only [k2_pay1, addf_apply, mulf_apply, subf_apply, shapeCast_self, broadcastTo_1b_ab_apply]

end Cert.KernelIdeal.PayVal

end
-- ==== Proof.KArr0.lean ====
/-
  The arrays region 0 leaves.  Point `t` writes rows `5000 t … 5000 t + 4999` of the perceptron's output: row `n`
  depends on row `n` of the collected source rows and of the collected edge block, and on the weights, which every
  point sees whole; and, at row `t` of the `[20, 1, 128]` output, the column sums of those 5000 rows.  The blocks fill
  both outputs, so each is one function of the region's entry contents.
-/
import proofs.«142321_j69939247448309_2_alg».proof.Proof.KDefs
import proofs.«142321_j69939247448309_2_alg».proof.Proof.KPay
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

namespace Cert.KernelIdeal.ArrVal0

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps of region 0, decided over the grid: the row-blocked windows sit at block row `t`, the weights at
    the origin. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- The perceptron's output at node `n`, feature `d`, from the collected source rows `xs`, the collected edge block
    `xe`, the stacked weights `wa` and the two layers' weights and bias rows. -/
def hrow (xs : S100000x128.Idx → EReal) (xe : S100000x10.Idx → EReal) (wa : S10x128.Idx → EReal)
    (w1 : S128x256.Idx → EReal) (b1 : S1x256.Idx → EReal) (w2 : S256x128.Idx → EReal) (b2 : S1x128.Idx → EReal)
    (n : Fin 100000) (d : Fin 128) : EReal :=
  (∑ j : Fin 256,
      max ((∑ k : Fin 128, (xs (ix2 n k) + ∑ q : Fin 10, xe (ix2 n q) * wa (ix2 q k)) * w1 (ix2 k j))
        + b1 (ix2 (0 : Fin 1) j)) 0 * w2 (ix2 j d)) + b2 (ix2 (0 : Fin 1) d)

/-- The perceptron's output as an array. -/
def G7 (xs : S100000x128.Idx → EReal) (xe : S100000x10.Idx → EReal) (wa : S10x128.Idx → EReal)
    (w1 : S128x256.Idx → EReal) (b1 : S1x256.Idx → EReal) (w2 : S256x128.Idx → EReal) (b2 : S1x128.Idx → EReal) :
    S100000x128.Idx → EReal := fun i =>
  hrow xs xe wa w1 b1 w2 b2 (⟨(i 0).val, idx2_lt0 i⟩ : Fin 100000) (⟨(i 1).val, idx2_lt1 i⟩ : Fin 128)

theorem G7_apply (xs : S100000x128.Idx → EReal) (xe : S100000x10.Idx → EReal) (wa : S10x128.Idx → EReal)
    (w1 : S128x256.Idx → EReal) (b1 : S1x256.Idx → EReal) (w2 : S256x128.Idx → EReal) (b2 : S1x128.Idx → EReal)
    (n : Fin 100000) (d : Fin 128) : G7 xs xe wa w1 b1 w2 b2 (ix2 n d) = hrow xs xe wa w1 b1 w2 b2 n d := rfl

/-- The column sums of block `s` of the perceptron's output, as a `[20, 1, 128]` array. -/
def G8 (xs : S100000x128.Idx → EReal) (xe : S100000x10.Idx → EReal) (wa : S10x128.Idx → EReal)
    (w1 : S128x256.Idx → EReal) (b1 : S1x256.Idx → EReal) (w2 : S256x128.Idx → EReal) (b2 : S1x128.Idx → EReal) :
    S20x1x128.Idx → EReal := fun i =>
  ∑ r : Fin 5000, hrow xs xe wa w1 b1 w2 b2
    (⟨5000 * (i 0).val + r.val, by have h0 : (i 0).val < 20 := (i 0).isLt; have := r.isLt; omega⟩ : Fin 100000)
    (⟨(i 2).val, (i 2).isLt⟩ : Fin 128)

theorem G8_apply (xs : S100000x128.Idx → EReal) (xe : S100000x10.Idx → EReal) (wa : S10x128.Idx → EReal)
    (w1 : S128x256.Idx → EReal) (b1 : S1x256.Idx → EReal) (w2 : S256x128.Idx → EReal) (b2 : S1x128.Idx → EReal)
    (s : Fin 20) (d : Fin 128) :
    G8 xs xe wa w1 b1 w2 b2 (ix3 s (0 : Fin 1) d)
      = ∑ r : Fin 5000, hrow xs xe wa w1 b1 w2 b2
          (⟨5000 * s.val + r.val, by have := s.isLt; have := r.isLt; omega⟩ : Fin 100000) d := rfl

/-- The stored block at `(r, d)` of point `t` is the perceptron's output at node `5000 t + r`. -/
theorem pay1_at (c : Dev nD) (t : Fin cfg0.N) (htN : t.val < 20) (r : Fin 5000) (d : Fin 128) :
    k0_pay1 (F := Ideal) (iblk0 V c 1 t) (iblk0 V c 2 t) (iblk0 V c 0 t) (iblk0 V c 3 t) (iblk0 V c 4 t)
        (iblk0 V c 5 t) (iblk0 V c 6 t) (ix2 r d)
      = hrow (V c main_v17) (V c main_v4) (V c main_v7) (V c main_arg9) (V c main_v18) (V c main_arg11) (V c main_v19)
          (⟨5000 * t.val + r.val, by have := r.isLt; omega⟩ : Fin 100000) d := by
  obtain ⟨e00, e01, e10, e11, e20, e21, e30, e31, e40, e41, e50, e51, e60, e61, e70, e71, e80, e81, e82⟩ := idx0 t
  refine (PayVal.pay1_apply _ _ _ _ _ _ _ r d).trans ?_
  have hb0 : ∀ k : Fin 128, iblk0 V c 0 t (ix2 r k)
      = V c main_v17 (ix2 (⟨5000 * t.val + r.val, by have := r.isLt; omega⟩ : Fin 100000) k) := by
    intro k
    show V c main_v17 (((cfg0.win 0).blk t).view.emb (ix2 r k)) = _
    refine congrArg _ ?_
    funext a; apply Fin.ext
    match a with
    | ⟨0, _⟩ => show win0_0.index t (0 : Fin 2) * 5000 + 1 * r.val = 5000 * t.val + r.val; omega
    | ⟨1, _⟩ => show win0_0.index t (1 : Fin 2) * 128 + 1 * k.val = k.val; omega
  have hb1 : ∀ q : Fin 10, iblk0 V c 1 t (ix2 r q)
      = V c main_v4 (ix2 (⟨5000 * t.val + r.val, by have := r.isLt; omega⟩ : Fin 100000) q) := by
    intro q
    show V c main_v4 (((cfg0.win 1).blk t).view.emb (ix2 r q)) = _
    refine congrArg _ ?_
    funext a; apply Fin.ext
    match a with
    | ⟨0, _⟩ => show win0_1.index t (0 : Fin 2) * 5000 + 1 * r.val = 5000 * t.val + r.val; omega
    | ⟨1, _⟩ => show win0_1.index t (1 : Fin 2) * 10 + 1 * q.val = q.val; omega
  have hb2 : ∀ (q : Fin 10) (k : Fin 128), iblk0 V c 2 t (ix2 q k) = V c main_v7 (ix2 q k) := by
    intro q k
    show V c main_v7 (((cfg0.win 2).blk t).view.emb (ix2 q k)) = _
    refine congrArg _ ?_
    funext a; apply Fin.ext
    match a with
    | ⟨0, _⟩ => show win0_2.index t (0 : Fin 2) * 10 + 1 * q.val = q.val; omega
    | ⟨1, _⟩ => show win0_2.index t (1 : Fin 2) * 128 + 1 * k.val = k.val; omega
  have hb3 : ∀ (k : Fin 128) (j : Fin 256), iblk0 V c 3 t (ix2 k j) = V c main_arg9 (ix2 k j) := by
    intro k j
    show V c main_arg9 (((cfg0.win 3).blk t).view.emb (ix2 k j)) = _
    refine congrArg _ ?_
    funext a; apply Fin.ext
    match a with
    | ⟨0, _⟩ => show win0_3.index t (0 : Fin 2) * 128 + 1 * k.val = k.val; omega
    | ⟨1, _⟩ => show win0_3.index t (1 : Fin 2) * 256 + 1 * j.val = j.val; omega
  have hb4 : ∀ (u : Fin 1) (j : Fin 256), iblk0 V c 4 t (ix2 u j) = V c main_v18 (ix2 u j) := by
    intro u j
    show V c main_v18 (((cfg0.win 4).blk t).view.emb (ix2 u j)) = _
    refine congrArg _ ?_
    funext a; apply Fin.ext
    match a with
    | ⟨0, _⟩ => show win0_4.index t (0 : Fin 2) * 1 + 1 * u.val = u.val; omega
    | ⟨1, _⟩ => show win0_4.index t (1 : Fin 2) * 256 + 1 * j.val = j.val; omega
  have hb5 : ∀ (j : Fin 256) (e : Fin 128), iblk0 V c 5 t (ix2 j e) = V c main_arg11 (ix2 j e) := by
    intro j e
    show V c main_arg11 (((cfg0.win 5).blk t).view.emb (ix2 j e)) = _
    refine congrArg _ ?_
    funext a; apply Fin.ext
    match a with
    | ⟨0, _⟩ => show win0_5.index t (0 : Fin 2) * 256 + 1 * j.val = j.val; omega
    | ⟨1, _⟩ => show win0_5.index t (1 : Fin 2) * 128 + 1 * e.val = e.val; omega
  have hb6 : ∀ (u : Fin 1) (e : Fin 128), iblk0 V c 6 t (ix2 u e) = V c main_v19 (ix2 u e) := by
    intro u e
    show V c main_v19 (((cfg0.win 6).blk t).view.emb (ix2 u e)) = _
    refine congrArg _ ?_
    funext a; apply Fin.ext
    match a with
    | ⟨0, _⟩ => show win0_6.index t (0 : Fin 2) * 1 + 1 * u.val = u.val; omega
    | ⟨1, _⟩ => show win0_6.index t (1 : Fin 2) * 128 + 1 * e.val = e.val; omega
  unfold hrow
  simp only [hb0, hb1, hb2, hb3, hb4, hb5, hb6]

/-- What grid point `t` writes back to the first output is block `t` of `G7` of the region's entry contents. -/
theorem flushed0_7_eq (c : Dev nD) (t : Fin cfg0.N) :
    (dat0 V c).flushed 7 t = ((cfg0.win 7).blk t).view.read (Elt Ideal)
      (G7 (V c main_v17) (V c main_v4) (V c main_v7) (V c main_arg9) (V c main_v18) (V c main_arg11) (V c main_v19)) := by
  show (cfg0.win 7).cut (grid0.coords t) ((dat0 V c).after 7 t) = _
  rw [after0_7]
  unfold out0_7
  rw [View.canon_unit_zero hz2]
  simp only [View.ld_unit_zero (S := S5000x128) hz2, View.ld_unit_zero (S := S5000x10) hz2,
    View.ld_unit_zero (S := S10x128) hz2, View.ld_unit_zero (S := S128x256) hz2, View.ld_unit_zero (S := S1x256) hz2,
    View.ld_unit_zero (S := S256x128) hz2, View.ld_unit_zero (S := S1x128) hz2]
  obtain ⟨e00, e01, e10, e11, e20, e21, e30, e31, e40, e41, e50, e51, e60, e61, e70, e71, e80, e81, e82⟩ := idx0 t
  have htN : t.val < 20 := lt_of_lt_of_eq t.isLt N_0
  funext j
  revert j
  show ∀ j : S5000x128.Idx, _
  intro j
  obtain ⟨r, d, rfl⟩ : ∃ (r : Fin 5000) (d : Fin 128), j = ix2 r d := ⟨j 0, j 1, eq_ix2 j⟩
  show k0_pay1 (F := Ideal) (iblk0 V c 1 t) (iblk0 V c 2 t) (iblk0 V c 0 t) (iblk0 V c 3 t) (iblk0 V c 4 t)
        (iblk0 V c 5 t) (iblk0 V c 6 t) (ix2 r d)
      = G7 (V c main_v17) (V c main_v4) (V c main_v7) (V c main_arg9) (V c main_v18) (V c main_arg11) (V c main_v19)
          (((cfg0.win 7).blk t).view.emb (ix2 r d))
  refine (pay1_at V c t htN r d).trans ?_
  have hn : (⟨((((cfg0.win 7).blk t).view.emb (ix2 r d)) 0).val, idx2_lt0 _⟩ : Fin 100000)
      = ⟨5000 * t.val + r.val, by have := r.isLt; omega⟩ :=
    Fin.ext (by show win0_7.index t (0 : Fin 2) * 5000 + 1 * r.val = 5000 * t.val + r.val; omega)
  have hd : (⟨((((cfg0.win 7).blk t).view.emb (ix2 r d)) 1).val, idx2_lt1 _⟩ : Fin 128) = d :=
    Fin.ext (by show win0_7.index t (1 : Fin 2) * 128 + 1 * d.val = d.val; omega)
  unfold G7
  rw [hn, hd]

/-- What grid point `t` writes back to the second output is block `t` of `G8` of the region's entry contents. -/
theorem flushed0_8_eq (c : Dev nD) (t : Fin cfg0.N) :
    (dat0 V c).flushed 8 t = ((cfg0.win 8).blk t).view.read (Elt Ideal)
      (G8 (V c main_v17) (V c main_v4) (V c main_v7) (V c main_arg9) (V c main_v18) (V c main_arg11) (V c main_v19)) := by
  show (cfg0.win 8).cut (grid0.coords t) ((dat0 V c).after 8 t) = _
  rw [after0_8]
  unfold out0_8
  rw [View.canon_unit_zero hz3]
  simp only [View.ld_unit_zero (S := S5000x128) hz2, View.ld_unit_zero (S := S5000x10) hz2,
    View.ld_unit_zero (S := S10x128) hz2, View.ld_unit_zero (S := S128x256) hz2, View.ld_unit_zero (S := S1x256) hz2,
    View.ld_unit_zero (S := S256x128) hz2, View.ld_unit_zero (S := S1x128) hz2]
  obtain ⟨e00, e01, e10, e11, e20, e21, e30, e31, e40, e41, e50, e51, e60, e61, e70, e71, e80, e81, e82⟩ := idx0 t
  have htN : t.val < 20 := lt_of_lt_of_eq t.isLt N_0
  funext j
  revert j
  show ∀ j : S1x1x128.Idx, _
  intro j
  obtain ⟨u, u', d, rfl⟩ : ∃ (u u' : Fin 1) (d : Fin 128), j = ix3 u u' d := ⟨j 0, j 1, j 2, eq_ix3 j⟩
  obtain rfl : u = 0 := Subsingleton.elim _ _
  obtain rfl : u' = 0 := Subsingleton.elim _ _
  show k0_pay2 (F := Ideal) (iblk0 V c 1 t) (iblk0 V c 2 t) (iblk0 V c 0 t) (iblk0 V c 3 t) (iblk0 V c 4 t)
        (iblk0 V c 5 t) (iblk0 V c 6 t) (ix3 (0 : Fin 1) (0 : Fin 1) d)
      = G8 (V c main_v17) (V c main_v4) (V c main_v7) (V c main_arg9) (V c main_v18) (V c main_arg11) (V c main_v19)
          (((cfg0.win 8).blk t).view.emb (ix3 (0 : Fin 1) (0 : Fin 1) d))
  refine (PayVal.pay2_apply _ _ _ _ _ _ _ d).trans ?_
  have hs : ((((cfg0.win 8).blk t).view.emb (ix3 (0 : Fin 1) (0 : Fin 1) d)) 0).val = t.val := by
    show win0_8.index t (0 : Fin 3) * 1 + 1 * 0 = t.val; omega
  have hd : (⟨((((cfg0.win 8).blk t).view.emb (ix3 (0 : Fin 1) (0 : Fin 1) d)) 2).val, Fin.isLt _⟩ : Fin 128) = d :=
    Fin.ext (by show win0_8.index t (2 : Fin 3) * 128 + 1 * d.val = d.val; omega)
  unfold G8
  rw [hd]
  refine Finset.sum_congr rfl fun r _ => ?_
  refine (pay1_at V c t htN r d).trans ?_
  refine congrArg (fun n => hrow (V c main_v17) (V c main_v4) (V c main_v7) (V c main_arg9) (V c main_v18)
    (V c main_arg11) (V c main_v19) n d) (Fin.ext ?_)
  show 5000 * t.val + r.val = 5000 * ((((cfg0.win 8).blk t).view.emb (ix3 (0 : Fin 1) (0 : Fin 1) d)) 0).val + r.val
  rw [hs]

/-- An index of the first output is in point `t`'s block iff each coordinate is in the block's range on its axis. -/
theorem mem_blk0_7 (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v20_0).slice (win0_7.rect t)).set ↔ _
  rw [View.set_slice_whole, Rect.mem_set_unit]
  exact Iff.rfl

theorem cover0_7 (i : S100000x128.Idx) :
    ∃ t : Fin cfg0.N, (cfg0.win 7).flush t = true ∧ i ∈ ((cfg0.win 7).blk t).view.set := by
  have hi0 : (i 0).val < 100000 := idx2_lt0 i
  have hi1 : (i 1).val < 128 := idx2_lt1 i
  have hN : cfg0.N = 20 := N_0
  have ht : (i 0).val / 5000 < cfg0.N := by rw [hN]; omega
  obtain ⟨-, -, -, -, -, -, -, -, -, -, -, -, -, -, e70, e71, -⟩ := idx0 ⟨(i 0).val / 5000, ht⟩
  refine ⟨⟨(i 0).val / 5000, ht⟩, flush0_7 _, ?_⟩
  rw [mem_blk0_7]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [e70]; show (i 0).val / 5000 * 5000 ≤ (i 0).val ∧ (i 0).val < (i 0).val / 5000 * 5000 + 5000; omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    rw [e71]; omega

/-- An index of the second output is in point `t`'s block iff each coordinate is in the block's range on its axis. -/
theorem mem_blk0_8 (t : Fin cfg0.N) (i : S20x1x128.Idx) :
    i ∈ ((cfg0.win 8).blk t).view.set ↔ ∀ a : Fin 3, win0_8.index t a * S1x1x128.size a ≤ (i a).val
      ∧ (i a).val < win0_8.index t a * S1x1x128.size a + S1x1x128.size a := by
  show i ∈ ((View.whole main_v20_1).slice (win0_8.rect t)).set ↔ _
  rw [View.set_slice_whole, Rect.mem_set_unit]
  exact Iff.rfl

theorem cover0_8 (i : S20x1x128.Idx) :
    ∃ t : Fin cfg0.N, (cfg0.win 8).flush t = true ∧ i ∈ ((cfg0.win 8).blk t).view.set := by
  have hi0 : (i 0).val < 20 := (i 0).isLt
  have hi1 : (i 1).val < 1 := (i 1).isLt
  have hi2 : (i 2).val < 128 := (i 2).isLt
  have hN : cfg0.N = 20 := N_0
  have ht : (i 0).val < cfg0.N := by rw [hN]; exact hi0
  obtain ⟨-, -, -, -, -, -, -, -, -, -, -, -, -, -, -, -, e80, e81, e82⟩ := idx0 ⟨(i 0).val, ht⟩
  refine ⟨⟨(i 0).val, ht⟩, flush0_8 _, ?_⟩
  rw [mem_blk0_8]
  intro a
  match a with
  | ⟨0, _⟩ =>
    show win0_8.index ⟨(i 0).val, ht⟩ (0 : Fin 3) * 1 ≤ (i 0).val ∧ (i 0).val < win0_8.index ⟨(i 0).val, ht⟩ (0 : Fin 3) * 1 + 1
    rw [e80]; show (i 0).val * 1 ≤ (i 0).val ∧ (i 0).val < (i 0).val * 1 + 1; omega
  | ⟨1, _⟩ =>
    show win0_8.index ⟨(i 0).val, ht⟩ (1 : Fin 3) * 1 ≤ (i 1).val ∧ (i 1).val < win0_8.index ⟨(i 0).val, ht⟩ (1 : Fin 3) * 1 + 1
    rw [e81]; omega
  | ⟨2, _⟩ =>
    show win0_8.index ⟨(i 0).val, ht⟩ (2 : Fin 3) * 128 ≤ (i 2).val ∧ (i 2).val < win0_8.index ⟨(i 0).val, ht⟩ (2 : Fin 3) * 128 + 128
    rw [e82]; omega

/-- The two output arrays after region 0. -/
theorem final0_7 (c : Dev nD) : (dat0 V c).arrAt 7 cfg0.N
    = G7 (V c main_v17) (V c main_v4) (V c main_v7) (V c main_arg9) (V c main_v18) (V c main_arg11) (V c main_v19) :=
  (dat0 V c).arrAt_eq_of_cover 7 _ (fun t _ => flushed0_7_eq V c t) (cover0_7)

theorem final0_8 (c : Dev nD) : (dat0 V c).arrAt 8 cfg0.N
    = G8 (V c main_v17) (V c main_v4) (V c main_v7) (V c main_arg9) (V c main_v18) (V c main_arg11) (V c main_v19) :=
  (dat0 V c).arrAt_eq_of_cover 8 _ (fun t _ => flushed0_8_eq V c t) (cover0_8)

end Cert.KernelIdeal.ArrVal0

end
-- ==== Proof.KArr1.lean ====
/-
  The array region 1 leaves: point `t` writes, at column `d` of row `t` of the `[20, 1, 128]` output, the sum over
  the 5000 rows of the input block `t` of the squared deviation from the mean row; the twenty one-row blocks fill the
  output, so the whole output is one function of the region's entry contents.
-/
import proofs.«142321_j69939247448309_2_alg».proof.Proof.KDefs
import proofs.«142321_j69939247448309_2_alg».proof.Proof.KPay
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

namespace Cert.KernelIdeal.ArrVal1

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps of region 1, decided over the grid. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The sum over block `s`'s 5000 rows of the squared deviation at column `d`. -/
def sq (x : S100000x128.Idx → EReal) (mu : S1x128.Idx → EReal) (s : Fin 20) (d : Fin 128) : EReal :=
  ∑ r : Fin 5000, (x (ix2 (⟨5000 * s.val + r.val, by have := s.isLt; have := r.isLt; omega⟩ : Fin 100000) d)
      - mu (ix2 (0 : Fin 1) d))
    * (x (ix2 (⟨5000 * s.val + r.val, by have := s.isLt; have := r.isLt; omega⟩ : Fin 100000) d) - mu (ix2 (0 : Fin 1) d))

/-- The per-block sums of squared deviations as a `[20, 1, 128]` array. -/
def G1 (x : S100000x128.Idx → EReal) (mu : S1x128.Idx → EReal) : S20x1x128.Idx → EReal := fun i =>
  sq x mu (⟨(i 0).val, (i 0).isLt⟩ : Fin 20) (⟨(i 2).val, (i 2).isLt⟩ : Fin 128)

theorem G1_apply (x : S100000x128.Idx → EReal) (mu : S1x128.Idx → EReal) (s : Fin 20) (d : Fin 128) :
    G1 x mu (ix3 s (0 : Fin 1) d) = sq x mu s d := rfl

/-- What grid point `t` writes back is block `t` of `G1` of the region's entry contents. -/
theorem flushed1_2_eq (c : Dev nD) (t : Fin cfg1.N) :
    (dat1 V c).flushed 2 t = ((cfg1.win 2).blk t).view.read (Elt Ideal) (G1 (V c main_v20_0) (V c main_v23)) := by
  show (cfg1.win 2).cut (grid1.coords t) ((dat1 V c).after 2 t) = _
  rw [after1_2]
  unfold out1_2
  rw [View.canon_unit_zero hz3]
  simp only [View.ld_unit_zero (S := S5000x128) hz2, View.ld_unit_zero (S := S1x128) hz2]
  obtain ⟨e00, e01, e10, e11, e20, e21, e22⟩ := idx1 t
  have htN : t.val < 20 := lt_of_lt_of_eq t.isLt N_1
  funext j
  revert j
  show ∀ j : S1x1x128.Idx, _
  intro j
  obtain ⟨u, u', d, rfl⟩ : ∃ (u u' : Fin 1) (d : Fin 128), j = ix3 u u' d := ⟨j 0, j 1, j 2, eq_ix3 j⟩
  obtain rfl : u = 0 := Subsingleton.elim _ _
  obtain rfl : u' = 0 := Subsingleton.elim _ _
  show k1_pay1 (F := Ideal) (iblk1 V c 0 t) (iblk1 V c 1 t) (ix3 (0 : Fin 1) (0 : Fin 1) d)
      = G1 (V c main_v20_0) (V c main_v23) (((cfg1.win 2).blk t).view.emb (ix3 (0 : Fin 1) (0 : Fin 1) d))
  refine (PayVal.pay_stats_apply _ _ d).trans ?_
  have h1 : iblk1 V c 1 t (ix2 (0 : Fin 1) d) = V c main_v23 (ix2 (0 : Fin 1) d) := by
    show V c main_v23 (((cfg1.win 1).blk t).view.emb (ix2 (0 : Fin 1) d)) = _
    refine congrArg _ ?_
    funext a; apply Fin.ext
    match a with
    | ⟨0, _⟩ => show win1_1.index t (0 : Fin 2) * 1 + 1 * 0 = 0; omega
    | ⟨1, _⟩ => show win1_1.index t (1 : Fin 2) * 128 + 1 * d.val = d.val; omega
  have hs : (⟨((((cfg1.win 2).blk t).view.emb (ix3 (0 : Fin 1) (0 : Fin 1) d)) 0).val, Fin.isLt _⟩ : Fin 20) = ⟨t.val, htN⟩ :=
    Fin.ext (by show win1_2.index t (0 : Fin 3) * 1 + 1 * 0 = t.val; omega)
  have hd : (⟨((((cfg1.win 2).blk t).view.emb (ix3 (0 : Fin 1) (0 : Fin 1) d)) 2).val, Fin.isLt _⟩ : Fin 128) = d :=
    Fin.ext (by show win1_2.index t (2 : Fin 3) * 128 + 1 * d.val = d.val; omega)
  unfold G1
  rw [hs, hd]
  unfold sq
  refine Finset.sum_congr rfl fun r _ => ?_
  have hx : iblk1 V c 0 t (ix2 r d)
      = V c main_v20_0 (ix2 (⟨5000 * t.val + r.val, by have := r.isLt; omega⟩ : Fin 100000) d) := by
    show V c main_v20_0 (((cfg1.win 0).blk t).view.emb (ix2 r d)) = _
    refine congrArg _ ?_
    funext a; apply Fin.ext
    match a with
    | ⟨0, _⟩ => show win1_0.index t (0 : Fin 2) * 5000 + 1 * r.val = 5000 * t.val + r.val; omega
    | ⟨1, _⟩ => show win1_0.index t (1 : Fin 2) * 128 + 1 * d.val = d.val; omega
  rw [hx, h1]

/-- An index of the output array is in point `t`'s block iff each coordinate is in the block's range on its axis. -/
theorem mem_blk1_2 (t : Fin cfg1.N) (i : S20x1x128.Idx) :
    i ∈ ((cfg1.win 2).blk t).view.set ↔ ∀ a : Fin 3, win1_2.index t a * S1x1x128.size a ≤ (i a).val
      ∧ (i a).val < win1_2.index t a * S1x1x128.size a + S1x1x128.size a := by
  show i ∈ ((View.whole main_v24).slice (win1_2.rect t)).set ↔ _
  rw [View.set_slice_whole, Rect.mem_set_unit]
  exact Iff.rfl

/-- Every index of the output array is in the block of the point its leading coordinate names. -/
theorem cover1_2 (i : S20x1x128.Idx) :
    ∃ t : Fin cfg1.N, (cfg1.win 2).flush t = true ∧ i ∈ ((cfg1.win 2).blk t).view.set := by
  have hi0 : (i 0).val < 20 := (i 0).isLt
  have hi1 : (i 1).val < 1 := (i 1).isLt
  have hi2 : (i 2).val < 128 := (i 2).isLt
  have hN : cfg1.N = 20 := N_1
  have ht : (i 0).val < cfg1.N := by rw [hN]; exact hi0
  obtain ⟨-, -, -, -, e20, e21, e22⟩ := idx1 ⟨(i 0).val, ht⟩
  refine ⟨⟨(i 0).val, ht⟩, flush1_2 _, ?_⟩
  rw [mem_blk1_2]
  intro a
  match a with
  | ⟨0, _⟩ =>
    show win1_2.index ⟨(i 0).val, ht⟩ (0 : Fin 3) * 1 ≤ (i 0).val ∧ (i 0).val < win1_2.index ⟨(i 0).val, ht⟩ (0 : Fin 3) * 1 + 1
    rw [e20]; show (i 0).val * 1 ≤ (i 0).val ∧ (i 0).val < (i 0).val * 1 + 1; omega
  | ⟨1, _⟩ =>
    show win1_2.index ⟨(i 0).val, ht⟩ (1 : Fin 3) * 1 ≤ (i 1).val ∧ (i 1).val < win1_2.index ⟨(i 0).val, ht⟩ (1 : Fin 3) * 1 + 1
    rw [e21]; omega
  | ⟨2, _⟩ =>
    show win1_2.index ⟨(i 0).val, ht⟩ (2 : Fin 3) * 128 ≤ (i 2).val ∧ (i 2).val < win1_2.index ⟨(i 0).val, ht⟩ (2 : Fin 3) * 128 + 128
    rw [e22]; omega

/-- The output array after region 1: `G1` of the region's entry contents. -/
theorem final1_2 (c : Dev nD) : (dat1 V c).arrAt 2 cfg1.N = G1 (V c main_v20_0) (V c main_v23) :=
  (dat1 V c).arrAt_eq_of_cover 2 _ (fun t _ => flushed1_2_eq V c t) (cover1_2)

end Cert.KernelIdeal.ArrVal1

end
-- ==== Proof.KArr2.lean ====
/-
  The array region 2 leaves: block `t` of the output holds, at `(r, d)`, `(x - μ) · s · γ + β` of the input block's
  entry `(r, d)` and the four broadcast rows at `d`; the input's and the output's blocks are rows
  `5000 t … 5000 t + 4999` of their arrays and the twenty blocks fill the array, so the whole output array is one
  function of the region's entry contents, index by index.
-/
import proofs.«142321_j69939247448309_2_alg».proof.Proof.KDefs
import proofs.«142321_j69939247448309_2_alg».proof.Proof.KPay
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

namespace Cert.KernelIdeal.ArrVal

variable (V : (c : Dev nD) → (b : Ref sig .tc) → Buf (Elt Ideal) ((c : Thread nD τ).loc b))

theorem hz2 : (![0, 0] : Fin 2 → Nat) = fun _ => 0 := funext fun a => by fin_cases a <;> rfl

/-- The index maps of region 2, decided over the grid: the row-blocked windows sit at block row `t`, the four
    broadcast rows at the origin. -/
theorem idx2 : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The normalised array: `(x - μ) · s · γ + β`, the four rows read at the entry's column. -/
def G2 (x : S100000x128.Idx → EReal) (mu s g b : S1x128.Idx → EReal) : S100000x128.Idx → EReal := fun i =>
  (x i - mu (ix2 (0 : Fin 1) (⟨(i 1).val, idx2_lt1 i⟩ : Fin 128))) * s (ix2 (0 : Fin 1) (⟨(i 1).val, idx2_lt1 i⟩ : Fin 128))
    * g (ix2 (0 : Fin 1) (⟨(i 1).val, idx2_lt1 i⟩ : Fin 128)) + b (ix2 (0 : Fin 1) (⟨(i 1).val, idx2_lt1 i⟩ : Fin 128))

theorem G2_apply (x : S100000x128.Idx → EReal) (mu s g b : S1x128.Idx → EReal) (n : Fin 100000) (d : Fin 128) :
    G2 x mu s g b (ix2 n d)
      = (x (ix2 n d) - mu (ix2 (0 : Fin 1) d)) * s (ix2 (0 : Fin 1) d) * g (ix2 (0 : Fin 1) d) + b (ix2 (0 : Fin 1) d) := rfl

/-- What grid point `t` writes back is block `t` of `G2` of the region's entry contents. -/
theorem flushed2_5_eq (c : Dev nD) (t : Fin cfg2.N) :
    (dat2 V c).flushed 5 t = ((cfg2.win 5).blk t).view.read (Elt Ideal)
      (G2 (V c main_v20_0) (V c main_v23) (V c main_v30) (V c main_v31) (V c main_v32)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S1x128) hz2]
  obtain ⟨e00, e01, e50, e51, e10, e11, e20, e21, e30, e31, e40, e41⟩ := idx2 t
  funext j
  revert j
  show ∀ j : S5000x128.Idx, _
  intro j
  obtain ⟨r, d, rfl⟩ : ∃ (r : Fin 5000) (d : Fin 128), j = ix2 r d := ⟨j 0, j 1, eq_ix2 j⟩
  show k2_pay1 (F := Ideal) (iblk2 V c 0 t) (iblk2 V c 1 t) (iblk2 V c 2 t) (iblk2 V c 3 t) (iblk2 V c 4 t) (ix2 r d)
      = G2 (V c main_v20_0) (V c main_v23) (V c main_v30) (V c main_v31) (V c main_v32)
          (((cfg2.win 5).blk t).view.emb (ix2 r d))
  refine (PayVal.pay_apply_apply _ _ _ _ _ r d).trans ?_
  have hx : iblk2 V c 0 t (ix2 r d) = V c main_v20_0 (((cfg2.win 5).blk t).view.emb (ix2 r d)) := by
    show V c main_v20_0 (((cfg2.win 0).blk t).view.emb (ix2 r d)) = _
    refine congrArg _ ?_
    funext a; apply Fin.ext
    match a with
    | ⟨0, _⟩ => show win2_0.index t (0 : Fin 2) * 5000 + 1 * r.val = win2_5.index t (0 : Fin 2) * 5000 + 1 * r.val; omega
    | ⟨1, _⟩ => show win2_0.index t (1 : Fin 2) * 128 + 1 * d.val = win2_5.index t (1 : Fin 2) * 128 + 1 * d.val; omega
  have h1 : iblk2 V c 1 t (ix2 (0 : Fin 1) d) = V c main_v23 (ix2 (0 : Fin 1) d) := by
    show V c main_v23 (((cfg2.win 1).blk t).view.emb (ix2 (0 : Fin 1) d)) = _
    refine congrArg _ ?_
    funext a; apply Fin.ext
    match a with
    | ⟨0, _⟩ => show win2_1.index t (0 : Fin 2) * 1 + 1 * 0 = 0; omega
    | ⟨1, _⟩ => show win2_1.index t (1 : Fin 2) * 128 + 1 * d.val = d.val; omega
  have h2 : iblk2 V c 2 t (ix2 (0 : Fin 1) d) = V c main_v30 (ix2 (0 : Fin 1) d) := by
    show V c main_v30 (((cfg2.win 2).blk t).view.emb (ix2 (0 : Fin 1) d)) = _
    refine congrArg _ ?_
    funext a; apply Fin.ext
    match a with
    | ⟨0, _⟩ => show win2_2.index t (0 : Fin 2) * 1 + 1 * 0 = 0; omega
    | ⟨1, _⟩ => show win2_2.index t (1 : Fin 2) * 128 + 1 * d.val = d.val; omega
  have h3 : iblk2 V c 3 t (ix2 (0 : Fin 1) d) = V c main_v31 (ix2 (0 : Fin 1) d) := by
    show V c main_v31 (((cfg2.win 3).blk t).view.emb (ix2 (0 : Fin 1) d)) = _
    refine congrArg _ ?_
    funext a; apply Fin.ext
    match a with
    | ⟨0, _⟩ => show win2_3.index t (0 : Fin 2) * 1 + 1 * 0 = 0; omega
    | ⟨1, _⟩ => show win2_3.index t (1 : Fin 2) * 128 + 1 * d.val = d.val; omega
  have h4 : iblk2 V c 4 t (ix2 (0 : Fin 1) d) = V c main_v32 (ix2 (0 : Fin 1) d) := by
    show V c main_v32 (((cfg2.win 4).blk t).view.emb (ix2 (0 : Fin 1) d)) = _
    refine congrArg _ ?_
    funext a; apply Fin.ext
    match a with
    | ⟨0, _⟩ => show win2_4.index t (0 : Fin 2) * 1 + 1 * 0 = 0; omega
    | ⟨1, _⟩ => show win2_4.index t (1 : Fin 2) * 128 + 1 * d.val = d.val; omega
  have hd : (⟨((((cfg2.win 5).blk t).view.emb (ix2 r d)) 1).val, idx2_lt1 _⟩ : Fin 128) = d :=
    Fin.ext (by show win2_5.index t (1 : Fin 2) * 128 + 1 * d.val = d.val; omega)
  rw [hx, h1, h2, h3, h4]
  unfold G2
  rw [hd]

/-- An index of the output array is in point `t`'s block iff each coordinate is in the block's range on its axis. -/
theorem mem_blk2_5 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v33).slice (win2_5.rect t)).set ↔ _
  rw [View.set_slice_whole, Rect.mem_set_unit]
  exact Iff.rfl

/-- Every index of the output array is in the block of the point its row falls in. -/
theorem cover2_5 (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  have hN : cfg2.N = 20 := N_2
  have ht : (i 0).val / 5000 < cfg2.N := by rw [hN]; omega
  obtain ⟨-, -, e50, e51, -⟩ := idx2 ⟨(i 0).val / 5000, ht⟩
  refine ⟨⟨(i 0).val / 5000, ht⟩, flush2_5 _, ?_⟩
  rw [mem_blk2_5]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e51]; omega

/-- The output array after region 2: `G2` of the region's entry contents. -/
theorem final2_5 (c : Dev nD) :
    (dat2 V c).arrAt 5 cfg2.N = G2 (V c main_v20_0) (V c main_v23) (V c main_v30) (V c main_v31) (V c main_v32) :=
  (dat2 V c).arrAt_eq_of_cover 5 _ (fun t _ => flushed2_5_eq V c t) (cover2_5)

end Cert.KernelIdeal.ArrVal

end
-- ==== Proof.KHost1.lean ====
/-
  The second stretch of host operations of the kernel program, read at an index on the extended reals: it sums the
  twenty partial column sums the first region left, and divides by the node count.  Stated for arbitrary contents
  `W` of the buffers before the stretch.
-/
import proofs.«142321_j69939247448309_2_alg».proof.Proof.Gen.KernelIdeal.Regions
import proofs.«142321_j69939247448309_2_alg».proof.Proof.ArgsAt
import Idealize.ShloMosaic.Lib.IdealHost
import Idealize.ShloMosaic.Lib.ValueLayout
import Idealize.ShloMosaic.Lib.StableHlo.Run
import Idealize.ShloMosaic.PureOps.Ideal.Laws

noncomputable section

namespace Cert.KernelIdeal.HostVal

open Idealize.ShloMosaic Idealize.ShloMosaic.TcCoe Idealize.ShloMosaic.ValueIdx
open Cert.KernelIdeal Cert.KernelIdeal.Gen
open Cert.ArgsAt Cert.Spec
open scoped BigOperators

variable (W : Valuation τ sig (Elt Ideal))

/-- The index a column `d` of the one-row result and a position `t` on the dropped leading axis name is `(t, 0, d)`. -/
theorem lift_lead_ix3 (h : S20x1x128.Reduces [0] S1x128) (d : Fin 128) (t : Fin (S20x1x128.size 0)) :
    h.lift (ix2 (0 : Fin 1) d) t = ix3 (⟨t.val, t.isLt⟩ : Fin 20) (0 : Fin 1) d := by
  funext ax; apply Fin.ext
  fin_cases ax <;> rfl

/-- The sum over the leading axis of a `[20, 1, 128]` array from an initial word, divided by a broadcast word, at column `d`. -/
theorem sum_div_apply (x : S20x1x128.Idx → EReal) (w0 w1 : BitVec 32) (d : Fin 128) :
    Host.divf (F := Ideal)
        (Host.reduceAdd (F := Ideal) (φ := .f32) x (constant (F := Ideal) S_ .f32 w0) reducesTo_S20x1x128_S1x128_d0 h_S_)
        (broadcastInDim S1x128 ![] bcast_S_S1x128 (constant (F := Ideal) S_ .f32 w1)) (ix2 (0 : Fin 1) d)
      = Ideal.div (Ideal.ofBits .f32 w0 + ∑ t : Fin 20, x (ix3 t (0 : Fin 1) d)) (Ideal.ofBits .f32 w1) := by
  have hR : S20x1x128.Reduces [0] S1x128 := by decide
  rw [hostDivf_apply, hostReduceAdd_apply, Ideal.hostReduceAdd_single _ hR, broadcastInDim_scalar_apply, constant_apply,
    constant_apply]
  congr 2
  exact Finset.sum_congr rfl fun t _ => by rw [lift_lead_ix3]; rfl

theorem v23_apply (x : S20x1x128.Idx → EReal) (hx : W (Proc.devRef .tc main_v20_1) = x) (d : Fin 128) :
    (StableHlo.after (Gen.hostOps1 (F := Ideal)) W (Proc.devRef .tc main_v23) : S1x128.Idx → EReal) (ix2 (0 : Fin 1) d)
      = Ideal.div (0 + ∑ t : Fin 20, x (ix3 t (0 : Fin 1) d)) cN := by
  have e : (StableHlo.after (Gen.hostOps1 (F := Ideal)) W (Proc.devRef .tc main_v23) : S1x128.Idx → EReal)
      = Host.divf (F := Ideal)
          (Host.reduceAdd (F := Ideal) (W (Proc.devRef .tc main_v20_1) : S20x1x128.Idx → EReal)
            (constant (F := Ideal) S_ .f32 0x00000000#32) reducesTo_S20x1x128_S1x128_d0 h_S_)
          (broadcastInDim S1x128 ![] bcast_S_S1x128 (constant (F := Ideal) S_ .f32 0x47C35000#32)) := by
    dsimp only [Gen.hostOps1]; after_results
  rw [e, hx, sum_div_apply, Ideal.ofBits_zero_f32]
  rfl

/-- The same, with the sum written over the contents of the buffer themselves. -/
theorem v23_apply' (d : Fin 128) :
    (StableHlo.after (Gen.hostOps1 (F := Ideal)) W (Proc.devRef .tc main_v23) : S1x128.Idx → EReal) (ix2 (0 : Fin 1) d)
      = Ideal.div (0 + Finset.sum (M := EReal) Finset.univ fun t : Fin 20 =>
          (W (Proc.devRef .tc main_v20_1) : S20x1x128.Idx → EReal) (ix3 t (0 : Fin 1) d)) cN :=
  v23_apply W _ rfl d

/-- A buffer the stretch does not write keeps its contents. -/
theorem kept1 (r : Ref sig .tc) (h : r ∉ Gen.hostOps1_W) :
    StableHlo.after (Gen.hostOps1 (F := Ideal)) W (Proc.devRef .tc r) = W (Proc.devRef .tc r) :=
  StableHlo.after_of_writes_sub Gen.hostOps1 _ Gen.hostOps1_writes h
theorem kept1_v20_0 : StableHlo.after (Gen.hostOps1 (F := Ideal)) W (Proc.devRef .tc main_v20_0) = W (Proc.devRef .tc main_v20_0) :=
  kept1 W main_v20_0 (by decide)
theorem kept1_arg0 : StableHlo.after (Gen.hostOps1 (F := Ideal)) W (Proc.devRef .tc main_arg0) = W (Proc.devRef .tc main_arg0) :=
  kept1 W main_arg0 (by decide)
theorem kept1_arg1 : StableHlo.after (Gen.hostOps1 (F := Ideal)) W (Proc.devRef .tc main_arg1) = W (Proc.devRef .tc main_arg1) :=
  kept1 W main_arg1 (by decide)
theorem kept1_arg2 : StableHlo.after (Gen.hostOps1 (F := Ideal)) W (Proc.devRef .tc main_arg2) = W (Proc.devRef .tc main_arg2) :=
  kept1 W main_arg2 (by decide)
theorem kept1_arg3 : StableHlo.after (Gen.hostOps1 (F := Ideal)) W (Proc.devRef .tc main_arg3) = W (Proc.devRef .tc main_arg3) :=
  kept1 W main_arg3 (by decide)
theorem kept1_arg4 : StableHlo.after (Gen.hostOps1 (F := Ideal)) W (Proc.devRef .tc main_arg4) = W (Proc.devRef .tc main_arg4) :=
  kept1 W main_arg4 (by decide)
theorem kept1_arg5 : StableHlo.after (Gen.hostOps1 (F := Ideal)) W (Proc.devRef .tc main_arg5) = W (Proc.devRef .tc main_arg5) :=
  kept1 W main_arg5 (by decide)
theorem kept1_arg6 : StableHlo.after (Gen.hostOps1 (F := Ideal)) W (Proc.devRef .tc main_arg6) = W (Proc.devRef .tc main_arg6) :=
  kept1 W main_arg6 (by decide)
theorem kept1_arg7 : StableHlo.after (Gen.hostOps1 (F := Ideal)) W (Proc.devRef .tc main_arg7) = W (Proc.devRef .tc main_arg7) :=
  kept1 W main_arg7 (by decide)
theorem kept1_arg8 : StableHlo.after (Gen.hostOps1 (F := Ideal)) W (Proc.devRef .tc main_arg8) = W (Proc.devRef .tc main_arg8) :=
  kept1 W main_arg8 (by decide)
theorem kept1_arg9 : StableHlo.after (Gen.hostOps1 (F := Ideal)) W (Proc.devRef .tc main_arg9) = W (Proc.devRef .tc main_arg9) :=
  kept1 W main_arg9 (by decide)
theorem kept1_arg10 : StableHlo.after (Gen.hostOps1 (F := Ideal)) W (Proc.devRef .tc main_arg10) = W (Proc.devRef .tc main_arg10) :=
  kept1 W main_arg10 (by decide)
theorem kept1_arg11 : StableHlo.after (Gen.hostOps1 (F := Ideal)) W (Proc.devRef .tc main_arg11) = W (Proc.devRef .tc main_arg11) :=
  kept1 W main_arg11 (by decide)
theorem kept1_arg12 : StableHlo.after (Gen.hostOps1 (F := Ideal)) W (Proc.devRef .tc main_arg12) = W (Proc.devRef .tc main_arg12) :=
  kept1 W main_arg12 (by decide)
theorem kept1_arg13 : StableHlo.after (Gen.hostOps1 (F := Ideal)) W (Proc.devRef .tc main_arg13) = W (Proc.devRef .tc main_arg13) :=
  kept1 W main_arg13 (by decide)
theorem kept1_arg14 : StableHlo.after (Gen.hostOps1 (F := Ideal)) W (Proc.devRef .tc main_arg14) = W (Proc.devRef .tc main_arg14) :=
  kept1 W main_arg14 (by decide)

end Cert.KernelIdeal.HostVal

end
-- ==== Proof.KHost2.lean ====
/-
  The third stretch of host operations of the kernel program, read at an index on the extended reals: it sums the
  twenty partial column sums of squared deviations the second region left, divides by the node count, adds the small
  word and takes the reciprocal square root; and it lays the scale and the shift vectors out as one-row matrices.
  Stated for arbitrary contents `W` of the buffers before the stretch.
-/
import proofs.«142321_j69939247448309_2_alg».proof.Proof.Gen.KernelIdeal.Regions
import proofs.«142321_j69939247448309_2_alg».proof.Proof.ArgsAt
import Idealize.ShloMosaic.Lib.IdealHost
import Idealize.ShloMosaic.Lib.ValueLayout
import Idealize.ShloMosaic.Lib.StableHlo.Run
import Idealize.ShloMosaic.PureOps.Ideal.Laws
import proofs.«142321_j69939247448309_2_alg».proof.Proof.KHost1

noncomputable section

namespace Cert.KernelIdeal.HostVal

open Idealize.ShloMosaic Idealize.ShloMosaic.TcCoe Idealize.ShloMosaic.ValueIdx
open Cert.KernelIdeal Cert.KernelIdeal.Gen
open Cert.ArgsAt Cert.Spec
open scoped BigOperators

variable (W : Valuation τ sig (Elt Ideal))

theorem v30_apply (x : S20x1x128.Idx → EReal) (hx : W (Proc.devRef .tc main_v24) = x) (d : Fin 128) :
    (StableHlo.after (Gen.hostOps2 (F := Ideal)) W (Proc.devRef .tc main_v30) : S1x128.Idx → EReal) (ix2 (0 : Fin 1) d)
      = Ideal.rsqrt (Ideal.div (0 + ∑ t : Fin 20, x (ix3 t (0 : Fin 1) d)) cN + eps) := by
  have e : (StableHlo.after (Gen.hostOps2 (F := Ideal)) W (Proc.devRef .tc main_v30) : S1x128.Idx → EReal)
      = Host.rsqrt (F := Ideal) (addf (F := Ideal)
          (Host.divf (F := Ideal)
            (Host.reduceAdd (F := Ideal) (W (Proc.devRef .tc main_v24) : S20x1x128.Idx → EReal)
              (constant (F := Ideal) S_ .f32 0x00000000#32) reducesTo_S20x1x128_S1x128_d0 h_S_)
            (broadcastInDim S1x128 ![] bcast_S_S1x128 (constant (F := Ideal) S_ .f32 0x47C35000#32)))
          (broadcastInDim S1x128 ![] bcast_S_S1x128 (constant (F := Ideal) S_ .f32 0x3727C5AC#32))) := by
    dsimp only [Gen.hostOps2]; after_results
  rw [e, hx]
  show Ideal.rsqrt (_ + _) = _
  rw [sum_div_apply, Ideal.ofBits_zero_f32, broadcastInDim_scalar_apply, constant_apply]
  rfl

/-- The same, with the sum written over the contents of the buffer themselves. -/
theorem v30_apply' (d : Fin 128) :
    (StableHlo.after (Gen.hostOps2 (F := Ideal)) W (Proc.devRef .tc main_v30) : S1x128.Idx → EReal) (ix2 (0 : Fin 1) d)
      = Ideal.rsqrt (Ideal.div (0 + Finset.sum (M := EReal) Finset.univ fun t : Fin 20 =>
          (W (Proc.devRef .tc main_v24) : S20x1x128.Idx → EReal) (ix3 t (0 : Fin 1) d)) cN + eps) :=
  v30_apply W _ rfl d

theorem v31_apply (d : Fin 128) :
    (StableHlo.after (Gen.hostOps2 (F := Ideal)) W (Proc.devRef .tc main_v31) : S1x128.Idx → EReal) (ix2 (0 : Fin 1) d)
      = vec (W (Proc.devRef .tc main_arg13)) d := by
  have e : (StableHlo.after (Gen.hostOps2 (F := Ideal)) W (Proc.devRef .tc main_v31) : S1x128.Idx → EReal)
      = shapeCast S1x128 (W (Proc.devRef .tc main_arg13) : S128.Idx → EReal) shapeCasts_S128_S1x128 := by
    dsimp only [Gen.hostOps2]; after_results; rfl
  rw [e, shapeCast_a_1a_apply]; rfl

theorem v32_apply (d : Fin 128) :
    (StableHlo.after (Gen.hostOps2 (F := Ideal)) W (Proc.devRef .tc main_v32) : S1x128.Idx → EReal) (ix2 (0 : Fin 1) d)
      = vec (W (Proc.devRef .tc main_arg14)) d := by
  have e : (StableHlo.after (Gen.hostOps2 (F := Ideal)) W (Proc.devRef .tc main_v32) : S1x128.Idx → EReal)
      = shapeCast S1x128 (W (Proc.devRef .tc main_arg14) : S128.Idx → EReal) shapeCasts_S128_S1x128 := by
    dsimp only [Gen.hostOps2]; after_results; rfl
  rw [e, shapeCast_a_1a_apply]; rfl

/-- A buffer the stretch does not write keeps its contents. -/
theorem kept2 (r : Ref sig .tc) (h : r ∉ Gen.hostOps2_W) :
    StableHlo.after (Gen.hostOps2 (F := Ideal)) W (Proc.devRef .tc r) = W (Proc.devRef .tc r) :=
  StableHlo.after_of_writes_sub Gen.hostOps2 _ Gen.hostOps2_writes h
theorem kept2_v20_0 : StableHlo.after (Gen.hostOps2 (F := Ideal)) W (Proc.devRef .tc main_v20_0) = W (Proc.devRef .tc main_v20_0) :=
  kept2 W main_v20_0 (by decide)
theorem kept2_v23 : StableHlo.after (Gen.hostOps2 (F := Ideal)) W (Proc.devRef .tc main_v23) = W (Proc.devRef .tc main_v23) :=
  kept2 W main_v23 (by decide)
theorem kept2_arg0 : StableHlo.after (Gen.hostOps2 (F := Ideal)) W (Proc.devRef .tc main_arg0) = W (Proc.devRef .tc main_arg0) :=
  kept2 W main_arg0 (by decide)
theorem kept2_arg1 : StableHlo.after (Gen.hostOps2 (F := Ideal)) W (Proc.devRef .tc main_arg1) = W (Proc.devRef .tc main_arg1) :=
  kept2 W main_arg1 (by decide)
theorem kept2_arg2 : StableHlo.after (Gen.hostOps2 (F := Ideal)) W (Proc.devRef .tc main_arg2) = W (Proc.devRef .tc main_arg2) :=
  kept2 W main_arg2 (by decide)
theorem kept2_arg3 : StableHlo.after (Gen.hostOps2 (F := Ideal)) W (Proc.devRef .tc main_arg3) = W (Proc.devRef .tc main_arg3) :=
  kept2 W main_arg3 (by decide)
theorem kept2_arg4 : StableHlo.after (Gen.hostOps2 (F := Ideal)) W (Proc.devRef .tc main_arg4) = W (Proc.devRef .tc main_arg4) :=
  kept2 W main_arg4 (by decide)
theorem kept2_arg5 : StableHlo.after (Gen.hostOps2 (F := Ideal)) W (Proc.devRef .tc main_arg5) = W (Proc.devRef .tc main_arg5) :=
  kept2 W main_arg5 (by decide)
theorem kept2_arg6 : StableHlo.after (Gen.hostOps2 (F := Ideal)) W (Proc.devRef .tc main_arg6) = W (Proc.devRef .tc main_arg6) :=
  kept2 W main_arg6 (by decide)
theorem kept2_arg7 : StableHlo.after (Gen.hostOps2 (F := Ideal)) W (Proc.devRef .tc main_arg7) = W (Proc.devRef .tc main_arg7) :=
  kept2 W main_arg7 (by decide)
theorem kept2_arg8 : StableHlo.after (Gen.hostOps2 (F := Ideal)) W (Proc.devRef .tc main_arg8) = W (Proc.devRef .tc main_arg8) :=
  kept2 W main_arg8 (by decide)
theorem kept2_arg9 : StableHlo.after (Gen.hostOps2 (F := Ideal)) W (Proc.devRef .tc main_arg9) = W (Proc.devRef .tc main_arg9) :=
  kept2 W main_arg9 (by decide)
theorem kept2_arg10 : StableHlo.after (Gen.hostOps2 (F := Ideal)) W (Proc.devRef .tc main_arg10) = W (Proc.devRef .tc main_arg10) :=
  kept2 W main_arg10 (by decide)
theorem kept2_arg11 : StableHlo.after (Gen.hostOps2 (F := Ideal)) W (Proc.devRef .tc main_arg11) = W (Proc.devRef .tc main_arg11) :=
  kept2 W main_arg11 (by decide)
theorem kept2_arg12 : StableHlo.after (Gen.hostOps2 (F := Ideal)) W (Proc.devRef .tc main_arg12) = W (Proc.devRef .tc main_arg12) :=
  kept2 W main_arg12 (by decide)
theorem kept2_arg13 : StableHlo.after (Gen.hostOps2 (F := Ideal)) W (Proc.devRef .tc main_arg13) = W (Proc.devRef .tc main_arg13) :=
  kept2 W main_arg13 (by decide)
theorem kept2_arg14 : StableHlo.after (Gen.hostOps2 (F := Ideal)) W (Proc.devRef .tc main_arg14) = W (Proc.devRef .tc main_arg14) :=
  kept2 W main_arg14 (by decide)

end Cert.KernelIdeal.HostVal

end
-- ==== Proof.LibBlocks.lean ====
/-
  A sum over `a · b` consecutive indices, block by block.
-/
import Mathlib.Algebra.BigOperators.Fin
import Mathlib.Logic.Equiv.Fin.Basic

namespace Cert.LibBlocks

open Finset

/-- A sum over `Fin (a * b)` is the sum, over the `a` blocks of `b` consecutive indices, of the sums over each
    block: index `n + b * s` is element `n` of block `s`. -/
theorem sum_fin_mul {M : Type*} [AddCommMonoid M] (a b : ℕ) (g : Fin (a * b) → M) :
    ∑ N, g N = ∑ s : Fin a, ∑ n : Fin b, g (finProdFinEquiv (s, n)) := by
  rw [← Equiv.sum_comp (finProdFinEquiv (m := a) (n := b)) g, Fintype.sum_prod_type]

/-- The index `finProdFinEquiv` names. -/
theorem finProdFinEquiv_val {a b : ℕ} (s : Fin a) (n : Fin b) : (finProdFinEquiv (s, n)).val = n.val + b * s.val := rfl

end Cert.LibBlocks
-- ==== Proof.SpecBlocks.lean ====
/-
  Sums over the 100000 nodes, regrouped into 20 consecutive blocks of 5000.

  Node 5000 * t + r is element r of block t, and every node is of that form for exactly one pair (t, r); a sum
  over all nodes is therefore the sum over the blocks of the sums over each block.  This holds in every additive
  commutative monoid, so in particular on the extended reals, where it is what relates a batch statistic computed
  in one pass over the node axis to the same statistic accumulated block by block from zero.
-/
import proofs.«142321_j69939247448309_2_alg».proof.Proof.Spec
import proofs.«142321_j69939247448309_2_alg».proof.Proof.LibBlocks

noncomputable section

open scoped BigOperators
open Idealize.ShloMosaic

namespace Cert.Spec

/-- A sum over the nodes is the sum over the 20 blocks of the sums over the 5000 nodes of each block. -/
theorem sum_nodes_blocks {M : Type*} [AddCommMonoid M] (g : Fin 100000 → M) :
    ∑ n, g n = ∑ t : Fin 20, ∑ r : Fin 5000, g ⟨5000 * t.val + r.val, by omega⟩ := by
  refine (Cert.LibBlocks.sum_fin_mul 20 5000 g).trans ?_
  refine Finset.sum_congr rfl fun t _ => Finset.sum_congr rfl fun r _ => congrArg g (Fin.ext ?_)
  rw [Cert.LibBlocks.finProdFinEquiv_val]
  exact Nat.add_comm _ _

/-- The same, with every partial sum started from zero (as an accumulation into a zeroed cell does). -/
theorem sum_nodes_blocks_zero {M : Type*} [AddCommMonoid M] (g : Fin 100000 → M) :
    ∑ n, g n = 0 + ∑ t : Fin 20, (0 + ∑ r : Fin 5000, g ⟨5000 * t.val + r.val, by omega⟩) := by
  rw [sum_nodes_blocks g, zero_add]
  exact Finset.sum_congr rfl fun t _ => (zero_add _).symm

/-- The mean over the node axis, accumulated block by block. -/
theorem mean_blocks (h : Mat 100000 128) (d : Fin 128) :
    mean h d
      = Ideal.div (0 + ∑ t : Fin 20, (0 + ∑ r : Fin 5000, h ⟨5000 * t.val + r.val, by omega⟩ d)) cN := by
  unfold mean
  exact congrArg (fun s => Ideal.div s cN) (sum_nodes_blocks_zero fun n => h n d)

/-- The sum of squared deviations from any value, accumulated block by block and divided by the node count. -/
theorem sqdev_blocks (h : Mat 100000 128) (μ : EReal) (d : Fin 128) :
    Ideal.div (∑ n : Fin 100000, (h n d - μ) * (h n d - μ)) cN
      = Ideal.div (0 + ∑ t : Fin 20, (0 + ∑ r : Fin 5000,
          (h ⟨5000 * t.val + r.val, by omega⟩ d - μ) * (h ⟨5000 * t.val + r.val, by omega⟩ d - μ))) cN :=
  congrArg (fun s => Ideal.div s cN) (sum_nodes_blocks_zero fun n => (h n d - μ) * (h n d - μ))

/-- The variance over the node axis, accumulated block by block. -/
theorem var_blocks (h : Mat 100000 128) (d : Fin 128) :
    var h d
      = Ideal.div (0 + ∑ t : Fin 20, (0 + ∑ r : Fin 5000,
          (h ⟨5000 * t.val + r.val, by omega⟩ d - mean h d)
            * (h ⟨5000 * t.val + r.val, by omega⟩ d - mean h d))) cN := by
  unfold var
  exact sqdev_blocks h (mean h d) d

end Cert.Spec

end
-- ==== Proof.KCompose1.lean ====
/-
  The kernel side's three arrays, read by coordinates, against the specification — the part that mentions no memory.

  (1) The perceptron row the first region computes from the collected source rows, the collected ten-column edge
  block, the ten stacked weight rows and the two layers' weights is, entry by entry, the specification's perceptron
  output of the kernel's aggregate: the two are the same expression once each array is read by coordinates (the
  two collections start from zero, and 0 + s = s).
  (2) The mean the second host stretch computes from the twenty per-block column sums is the specification's mean
  over the node axis, and likewise the variance from the twenty per-block sums of squared deviations: a sum over the
  nodes is the sum over the twenty blocks of the sums over each block.
  (3) The last region's entry (x - mu) * s * gamma + beta is then the specification's normalised output.
-/
import proofs.«142321_j69939247448309_2_alg».proof.Proof.KArr0
import proofs.«142321_j69939247448309_2_alg».proof.Proof.KArr1
import proofs.«142321_j69939247448309_2_alg».proof.Proof.KArr2
import proofs.«142321_j69939247448309_2_alg».proof.Proof.SpecBlocks
import proofs.«142321_j69939247448309_2_alg».proof.Proof.ArgsAt

noncomputable section

open scoped BigOperators
open Idealize.ShloMosaic Idealize.ShloMosaic.ValueIdx
open Cert.KernelIdeal
open Cert.Spec

namespace Cert.KernelIdeal.Compose

/-- The perceptron row of the collected arrays is the specification's perceptron output of the kernel's aggregate. -/
theorem hrow_eq_hpre
    (xs : S100000x128.Idx → EReal) (xe : S100000x10.Idx → EReal) (wa : S10x128.Idx → EReal)
    (w1 : S128x256.Idx → EReal) (b1 : S1x256.Idx → EReal) (w2 : S256x128.Idx → EReal) (b2 : S1x128.Idx → EReal)
    (nf : Mat 100000 128) (ef0 : Mat 1600000 6) (ef1 : Mat 1600000 3) (src dst : Fin 1600000 → BitVec 32)
    (We0 : Mat 6 128) (be0 : Fin 128 → EReal) (We1 : Mat 3 128) (be1 : Fin 128 → EReal)
    (W1 : Mat 128 256) (c1 : Fin 256 → EReal) (W2 : Mat 256 128) (c2 : Fin 128 → EReal)
    (hxs : ∀ n k, xs (ix2 n k) = 0 + ∑ e ∈ hits dst n, nf (srcRow src e) k)
    (hxe : ∀ n q, xe (ix2 n q) = 0 + ∑ e ∈ hits dst n, efAug ef0 ef1 e q)
    (hwa : ∀ q k, wa (ix2 q k) = wAug We0 be0 We1 be1 q k)
    (hw1 : ∀ k j, w1 (ix2 k j) = W1 k j) (hb1 : ∀ j, b1 (ix2 (0 : Fin 1) j) = c1 j)
    (hw2 : ∀ j d, w2 (ix2 j d) = W2 j d) (hb2 : ∀ d, b2 (ix2 (0 : Fin 1) d) = c2 d)
    (n : Fin 100000) (d : Fin 128) :
    ArrVal0.hrow xs xe wa w1 b1 w2 b2 n d
      = hpre (kerAgg nf ef0 ef1 src dst We0 be0 We1 be1) W1 c1 W2 c2 n d := by
  unfold ArrVal0.hrow hpre hid kerAgg
  simp only [hxs, hxe, hwa, hw1, hb1, hw2, hb2, zero_add]

/-- The mean accumulated from twenty per-block sums is the mean over the node axis. -/
theorem mean_eq (H : Mat 100000 128) (d : Fin 128) (g : Fin 20 → Fin 5000 → EReal)
    (hg : ∀ t r, g t r = H ⟨5000 * t.val + r.val, by omega⟩ d) :
    Ideal.div (0 + ∑ t : Fin 20, ∑ r : Fin 5000, g t r) cN = mean H d := by
  rw [mean_blocks]
  simp only [hg, zero_add]

/-- The variance accumulated from twenty per-block sums of squared deviations from the mean is the variance over
    the node axis. -/
theorem var_eq (H : Mat 100000 128) (d : Fin 128) (μ : EReal) (hμ : μ = mean H d) (g : Fin 20 → Fin 5000 → EReal)
    (hg : ∀ t r, g t r = H ⟨5000 * t.val + r.val, by omega⟩ d) :
    Ideal.div (0 + ∑ t : Fin 20, ∑ r : Fin 5000, (g t r - μ) * (g t r - μ)) cN = var H d := by
  subst hμ
  rw [var_blocks]
  simp only [hg, zero_add]

/-- The last region's entry, from its five inputs read by coordinates, is the normalised output. -/
theorem out_of_parts (x : S100000x128.Idx → EReal) (mu s g b : S1x128.Idx → EReal) (H : Mat 100000 128)
    (gamma beta : Fin 128 → EReal) (n : Fin 100000) (d : Fin 128)
    (hx : x (ix2 n d) = H n d) (hmu : mu (ix2 (0 : Fin 1) d) = mean H d)
    (hs : s (ix2 (0 : Fin 1) d) = Ideal.rsqrt (var H d + eps))
    (hg : g (ix2 (0 : Fin 1) d) = gamma d) (hb : b (ix2 (0 : Fin 1) d) = beta d) :
    ArrVal.G2 x mu s g b (ix2 n d) = out H gamma beta n d := by
  unfold out
  rw [ArrVal.G2_apply, hx, hmu, hs, hg, hb]

end Cert.KernelIdeal.Compose

end
-- ==== Proof.KCompose.lean ====
/-
  The kernel program's final array, entry by entry, from the launch memory.

  The program is six segments: a host stretch, a region, a host stretch, a region, a host stretch, a region.  Each
  region leaves in its output windows' arrays one function of the contents it was entered with, leaves its input
  windows' arrays as they were, and touches no other buffer; each host stretch writes the buffers it names and keeps
  the others.  Walking the final array back through the six segments: it is the normalisation (x - mu) * s * gamma +
  beta of the perceptron's output x, whose rows the first region computed; mu is the mean the second stretch formed
  from the first region's twenty per-block column sums; s is the reciprocal square root the third stretch formed from
  the second region's twenty per-block sums of squared deviations; gamma and beta are two argument vectors laid out
  as rows.  Read by coordinates against the specification, that is the normalised output of the perceptron's output
  of the kernel's aggregate.  What the first host stretch leaves (the two collections from zero, the stacked weight
  rows, the bias rows, and the arguments it keeps) enters as hypotheses here and is supplied where that stretch is
  read.
-/
import proofs.«142321_j69939247448309_2_alg».proof.Proof.KDefs
import proofs.«142321_j69939247448309_2_alg».proof.Proof.KArr0
import proofs.«142321_j69939247448309_2_alg».proof.Proof.KArr1
import proofs.«142321_j69939247448309_2_alg».proof.Proof.KArr2
import proofs.«142321_j69939247448309_2_alg».proof.Proof.KHost1
import proofs.«142321_j69939247448309_2_alg».proof.Proof.KHost2
import proofs.«142321_j69939247448309_2_alg».proof.Proof.KCompose1

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Spec Cert.ArgsAt

namespace Cert.KernelIdeal.Compose

variable (m : (ℓ : Loc nD τ sig) → Buf (Elt Ideal) ℓ) (ρ : Dev nD → PrngReg) (c : Dev nD)

/-- The perceptron's output array, as the first region leaves it, from that region's entry contents. -/
abbrev P7 : S100000x128.Idx → EReal := ArrVal0.G7 (V1 m ρ c main_v17) (V1 m ρ c main_v4) (V1 m ρ c main_v7) (V1 m ρ c main_arg9) (V1 m ρ c main_v18) (V1 m ρ c main_arg11) (V1 m ρ c main_v19)
/-- Its twenty per-block column sums. -/
abbrev P8 : S20x1x128.Idx → EReal := ArrVal0.G8 (V1 m ρ c main_v17) (V1 m ρ c main_v4) (V1 m ρ c main_v7) (V1 m ρ c main_arg9) (V1 m ρ c main_v18) (V1 m ρ c main_arg11) (V1 m ρ c main_v19)

/-! ## After the first region -/

theorem W2_v20_0 : W2 m ρ c (Proc.devRef .tc main_v20_0) = P7 m ρ c :=
  (W2_arr m ρ c 7).trans (ArrVal0.final0_7 (V1 m ρ) c)

theorem W2_v20_1 : W2 m ρ c (Proc.devRef .tc main_v20_1) = P8 m ρ c :=
  (W2_arr m ρ c 8).trans (ArrVal0.final0_8 (V1 m ρ) c)

/-! ## After the second host stretch -/

theorem V3_v20_0 : V3 m ρ c main_v20_0 = P7 m ρ c :=
  (HostVal.kept1_v20_0 (W2 m ρ c)).trans (W2_v20_0 m ρ c)

theorem V3_v23 (d : Fin 128) :
    (V3 m ρ c main_v23 : S1x128.Idx → EReal) (ix2 (0 : Fin 1) d)
      = Ideal.div (0 + ∑ t : Fin 20, P8 m ρ c (ix3 t (0 : Fin 1) d)) cN :=
  HostVal.v23_apply (W2 m ρ c) _ (W2_v20_1 m ρ c) d

/-! ## After the second region -/

theorem W4_v20_0 : W4 m ρ c (Proc.devRef .tc main_v20_0) = P7 m ρ c :=
  (W4_arr m ρ c 0).trans (((dat1 (V3 m ρ) c).arrAt_in 0 rfl _).trans ((A_eq1 (V3 m ρ) c 0).trans (V3_v20_0 m ρ c)))

theorem W4_v23 : W4 m ρ c (Proc.devRef .tc main_v23) = V3 m ρ c main_v23 :=
  (W4_arr m ρ c 1).trans (((dat1 (V3 m ρ) c).arrAt_in 1 rfl _).trans (A_eq1 (V3 m ρ) c 1))

theorem W4_v24 : W4 m ρ c (Proc.devRef .tc main_v24) = ArrVal1.G1 (V3 m ρ c main_v20_0) (V3 m ρ c main_v23) :=
  (W4_arr m ρ c 2).trans (ArrVal1.final1_2 (V3 m ρ) c)

/-! ## After the third host stretch -/

theorem V5_v20_0 : V5 m ρ c main_v20_0 = P7 m ρ c :=
  (HostVal.kept2_v20_0 (W4 m ρ c)).trans (W4_v20_0 m ρ c)

theorem V5_v23 : V5 m ρ c main_v23 = V3 m ρ c main_v23 :=
  (HostVal.kept2_v23 (W4 m ρ c)).trans (W4_v23 m ρ c)

theorem V5_v30 (d : Fin 128) :
    (V5 m ρ c main_v30 : S1x128.Idx → EReal) (ix2 (0 : Fin 1) d)
      = Ideal.rsqrt (Ideal.div (0 + ∑ t : Fin 20,
          ArrVal1.G1 (V3 m ρ c main_v20_0) (V3 m ρ c main_v23) (ix3 t (0 : Fin 1) d)) cN + eps) :=
  HostVal.v30_apply (W4 m ρ c) _ (W4_v24 m ρ c) d

theorem V5_v31 (d : Fin 128) :
    (V5 m ρ c main_v31 : S1x128.Idx → EReal) (ix2 (0 : Fin 1) d) = vec (W4 m ρ c (Proc.devRef .tc main_arg13)) d :=
  HostVal.v31_apply (W4 m ρ c) d

theorem V5_v32 (d : Fin 128) :
    (V5 m ρ c main_v32 : S1x128.Idx → EReal) (ix2 (0 : Fin 1) d) = vec (W4 m ρ c (Proc.devRef .tc main_arg14)) d :=
  HostVal.v32_apply (W4 m ρ c) d

/-- The two argument vectors the third stretch lays out were last written before the first region. -/
theorem W4_arg13 : W4 m ρ c (Proc.devRef .tc main_arg13) = W1 m ρ c (Proc.devRef .tc main_arg13) :=
  (W4_of_ne m ρ c main_arg13 (by decide)).trans
    ((HostVal.kept1_arg13 (W2 m ρ c)).trans (W2_of_ne m ρ c main_arg13 (by decide)))

theorem W4_arg14 : W4 m ρ c (Proc.devRef .tc main_arg14) = W1 m ρ c (Proc.devRef .tc main_arg14) :=
  (W4_of_ne m ρ c main_arg14 (by decide)).trans
    ((HostVal.kept1_arg14 (W2 m ρ c)).trans (W2_of_ne m ρ c main_arg14 (by decide)))

/-! ## After the third region -/

theorem W6_v33 : W6 m ρ c (Proc.devRef .tc main_v33)
    = ArrVal.G2 (V5 m ρ c main_v20_0) (V5 m ρ c main_v23) (V5 m ρ c main_v30) (V5 m ρ c main_v31) (V5 m ρ c main_v32) :=
  (W6_arr m ρ c 5).trans (ArrVal.final2_5 (V5 m ρ) c)

/-! ## The final array against the specification -/

/-- The final array at (n, d) is the specification's result of the kernel's aggregate, given what the first host
    stretch leaves. -/
theorem result_apply_of
    (h17 : ∀ n d, (V1 m ρ c main_v17 : S100000x128.Idx → EReal) (ix2 n d)
        = 0 + ∑ e ∈ hits (words (m ((c.tc : Thread nD τ).loc main_arg4))) n, mat (m ((c.tc : Thread nD τ).loc main_arg0)) (srcRow (words (m ((c.tc : Thread nD τ).loc main_arg3))) e) d)
    (h4 : ∀ n k, (V1 m ρ c main_v4 : S100000x10.Idx → EReal) (ix2 n k)
        = 0 + ∑ e ∈ hits (words (m ((c.tc : Thread nD τ).loc main_arg4))) n, efAug (mat (m ((c.tc : Thread nD τ).loc main_arg1))) (mat (m ((c.tc : Thread nD τ).loc main_arg2))) e k)
    (h7 : ∀ k d, (V1 m ρ c main_v7 : S10x128.Idx → EReal) (ix2 k d)
        = wAug (mat (m ((c.tc : Thread nD τ).loc main_arg5))) (vec (m ((c.tc : Thread nD τ).loc main_arg6))) (mat (m ((c.tc : Thread nD τ).loc main_arg7))) (vec (m ((c.tc : Thread nD τ).loc main_arg8))) k d)
    (h18 : ∀ j, (V1 m ρ c main_v18 : S1x256.Idx → EReal) (ix2 (0 : Fin 1) j) = vec (m ((c.tc : Thread nD τ).loc main_arg10)) j)
    (h19 : ∀ d, (V1 m ρ c main_v19 : S1x128.Idx → EReal) (ix2 (0 : Fin 1) d) = vec (m ((c.tc : Thread nD τ).loc main_arg12)) d)
    (h9 : V1 m ρ c main_arg9 = (m ((c.tc : Thread nD τ).loc main_arg9)))
    (h11 : V1 m ρ c main_arg11 = (m ((c.tc : Thread nD τ).loc main_arg11)))
    (h13 : W1 m ρ c (Proc.devRef .tc main_arg13) = (m ((c.tc : Thread nD τ).loc main_arg13)))
    (h14 : W1 m ρ c (Proc.devRef .tc main_arg14) = (m ((c.tc : Thread nD τ).loc main_arg14)))
    (n : Fin 100000) (d : Fin 128) :
    (W6 m ρ c (Proc.devRef .tc main_v33) : S100000x128.Idx → EReal) (ix2 n d)
      = Cert.ArgsAt.result (Cert.ArgsAt.kerAgg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) n d := by
  unfold Cert.ArgsAt.result Cert.ArgsAt.kerAgg
  generalize hH : hpre (kerAgg (mat (m ((c.tc : Thread nD τ).loc main_arg0))) (mat (m ((c.tc : Thread nD τ).loc main_arg1))) (mat (m ((c.tc : Thread nD τ).loc main_arg2))) (words (m ((c.tc : Thread nD τ).loc main_arg3))) (words (m ((c.tc : Thread nD τ).loc main_arg4)))
      (mat (m ((c.tc : Thread nD τ).loc main_arg5))) (vec (m ((c.tc : Thread nD τ).loc main_arg6))) (mat (m ((c.tc : Thread nD τ).loc main_arg7))) (vec (m ((c.tc : Thread nD τ).loc main_arg8)))) (mat (m ((c.tc : Thread nD τ).loc main_arg9))) (vec (m ((c.tc : Thread nD τ).loc main_arg10))) (mat (m ((c.tc : Thread nD τ).loc main_arg11))) (vec (m ((c.tc : Thread nD τ).loc main_arg12))) = H
  -- the perceptron row the first region computes is H, entry by entry
  have hrow : ∀ n d, ArrVal0.hrow (V1 m ρ c main_v17) (V1 m ρ c main_v4) (V1 m ρ c main_v7) (V1 m ρ c main_arg9) (V1 m ρ c main_v18) (V1 m ρ c main_arg11) (V1 m ρ c main_v19) n d = H n d := fun n d => by
    rw [← hH]
    exact hrow_eq_hpre _ _ _ _ _ _ _ _ _ _ _ _ _ _ _ _ _ _ _ _ h17 h4 h7
      (fun k j => congrFun h9 (ix2 k j)) h18 (fun j d => congrFun h11 (ix2 j d)) h19 n d
  have hP7 : ∀ n d, P7 m ρ c (ix2 n d) = H n d := fun n d => (ArrVal0.G7_apply _ _ _ _ _ _ _ n d).trans (hrow n d)
  -- the mean the second host stretch forms
  have hmean : (V3 m ρ c main_v23 : S1x128.Idx → EReal) (ix2 (0 : Fin 1) d) = mean H d :=
    (V3_v23 m ρ c d).trans
      ((congrArg (fun s => Ideal.div (0 + s) cN)
          (Finset.sum_congr rfl fun t _ => ArrVal0.G8_apply _ _ _ _ _ _ _ t d)).trans
        (mean_eq H d _ (fun t r => hrow _ d)))
  -- the reciprocal square root the third host stretch forms
  have hx3 : ∀ n d, (V3 m ρ c main_v20_0 : S100000x128.Idx → EReal) (ix2 n d) = H n d :=
    fun n d => (congrFun (V3_v20_0 m ρ c) (ix2 n d)).trans (hP7 n d)
  have hrstd : (V5 m ρ c main_v30 : S1x128.Idx → EReal) (ix2 (0 : Fin 1) d) = Ideal.rsqrt (var H d + eps) := by
    refine (V5_v30 m ρ c d).trans (congrArg (fun v => Ideal.rsqrt (v + eps)) ?_)
    refine (congrArg (fun s => Ideal.div (0 + s) cN)
      (Finset.sum_congr rfl fun t _ => ArrVal1.G1_apply _ _ t d)).trans ?_
    unfold ArrVal1.sq
    exact var_eq H d _ hmean
      (fun t r => (V3 m ρ c main_v20_0 : S100000x128.Idx → EReal)
        (ix2 (⟨5000 * t.val + r.val, by omega⟩ : Fin 100000) d))
      (fun t r => hx3 _ d)
  refine (congrFun (W6_v33 m ρ c) (ix2 n d)).trans ?_
  exact out_of_parts _ _ _ _ _ H _ _ n d
    ((congrFun (V5_v20_0 m ρ c) (ix2 n d)).trans (hP7 n d))
    ((congrFun (V5_v23 m ρ c) (ix2 (0 : Fin 1) d)).trans hmean)
    hrstd
    ((V5_v31 m ρ c d).trans (congrArg (fun a => vec a d) ((W4_arg13 m ρ c).trans h13)))
    ((V5_v32 m ρ c d).trans (congrArg (fun a => vec a d) ((W4_arg14 m ρ c).trans h14)))

end Cert.KernelIdeal.Compose

end
-- ==== Proof.KHost0a.lean ====
/-
  The first stretch of host operations of the kernel program, read at an index on the extended reals: the collected
  source rows.  Every edge reads the node row its wrapped source word names; the rows are then added onto the node the
  edge's destination word names, from zero.  Stated for arbitrary contents `W` of the buffers before the stretch.
-/
import proofs.«142321_j69939247448309_2_alg».proof.Proof.Gen.KernelIdeal.Regions
import proofs.«142321_j69939247448309_2_alg».proof.Proof.ArgsAt
import Idealize.ShloMosaic.Lib.IdealHost
import Idealize.ShloMosaic.Lib.ValueLayout
import Idealize.ShloMosaic.Lib.StableHlo.Run
import Idealize.ShloMosaic.PureOps.Ideal.Laws
import proofs.«142321_j69939247448309_2_alg».proof.Proof.LibHostScatterIdeal
import proofs.«142321_j69939247448309_2_alg».proof.Proof.LibScatterRows
import proofs.«142321_j69939247448309_2_alg».proof.Proof.LibGatherRows
import proofs.«142321_j69939247448309_2_alg».proof.Proof.LibHostRowScalar

noncomputable section

namespace Cert.KernelIdeal.HostVal

open Idealize.ShloMosaic Idealize.ShloMosaic.TcCoe Idealize.ShloMosaic.ValueIdx
open Cert.KernelIdeal Cert.KernelIdeal.Gen
open Cert.ArgsAt Cert.Spec
open scoped BigOperators

variable (W : Valuation τ sig (Elt Ideal))

/-- The index words laid out as a column read, at row `e`, the word `e`. -/
theorem V17.col_apply (x : S1600000.Idx → BitVec 32) (e : Fin 1600000) :
    broadcastInDim S1600000x1 ![0] bcast_S1600000_S1600000x1_0 x (ix2 e (0 : Fin 1)) = x (ix1 e) :=
  broadcastInDim_vec_column_apply x _ e 0

/-- The wrapped source words, pointwise. -/
theorem V17.wrapped_apply (x : S1600000.Idx → BitVec 32) (e : Fin 1600000) :
    select (cmpi .slt x (broadcastInDim S1600000 ![] bcast_S_S1600000 (constantI S_ 32 0#32)))
        (addi x (broadcastInDim S1600000 ![] bcast_S_S1600000 (constantI S_ 32 100000#32))) x (ix1 e)
      = wrap (x (ix1 e)) := by
  rw [select_apply]
  show Scalar.select (IntOp.cmpi .slt (x (ix1 e)) (broadcastInDim S1600000 ![] bcast_S_S1600000 (constantI S_ 32 0#32) (ix1 e)))
      (IntOp.addi (x (ix1 e)) (broadcastInDim S1600000 ![] bcast_S_S1600000 (constantI S_ 32 100000#32) (ix1 e))) (x (ix1 e)) = _
  rw [broadcastInDim_scalar_apply, broadcastInDim_scalar_apply]
  rfl

theorem v17_apply (n : Fin 100000) (d : Fin 128) :
    (StableHlo.after (Gen.hostOps0 (F := Ideal)) W (Proc.devRef .tc main_v17) : S100000x128.Idx → EReal) (ix2 n d)
      = 0 + ∑ e ∈ hits (words (W (Proc.devRef .tc main_arg4))) n,
          mat (W (Proc.devRef .tc main_arg0)) (srcRow (words (W (Proc.devRef .tc main_arg3))) e) d := by
  have e : (StableHlo.after (Gen.hostOps0 (F := Ideal)) W (Proc.devRef .tc main_v17) : S100000x128.Idx → EReal)
      = Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W (Proc.devRef .tc main_arg4) : S1600000.Idx → BitVec 32))
          (Host.gather gather_S100000x128_S1600000x1_S1600000x128_1_0_n_n_0_1_1128
            (W (Proc.devRef .tc main_arg0) : S100000x128.Idx → EReal)
            (broadcastInDim S1600000x1 ![0] bcast_S1600000_S1600000x1_0
              (select (cmpi .slt (W (Proc.devRef .tc main_arg3) : S1600000.Idx → BitVec 32)
                  (broadcastInDim S1600000 ![] bcast_S_S1600000 (constantI S_ 32 0#32)))
                (addi (W (Proc.devRef .tc main_arg3) : S1600000.Idx → BitVec 32)
                  (broadcastInDim S1600000 ![] bcast_S_S1600000 (constantI S_ 32 100000#32)))
                (W (Proc.devRef .tc main_arg3) : S1600000.Idx → BitVec 32)))) := by
    dsimp only [Gen.hostOps0]; after_results_simp
  rw [e, Host.scatterAdd_ideal]
  refine (ScatterRows.hostScatterAdd_rows2 _ rfl rfl rfl rfl _ _ _ n d).trans ?_
  rw [broadcastInDim_scalar_apply, constant_apply, Ideal.ofBits_zero_f32]
  refine congrArg (fun s => (0 : EReal) + s) ?_
  have hset : (Finset.univ.filter fun e : Fin 1600000 =>
      ((broadcastInDim S1600000x1 ![0] bcast_S1600000_S1600000x1_0
        (W (Proc.devRef .tc main_arg4) : S1600000.Idx → BitVec 32)) (ix2 e (0 : Fin 1))).toInt = (n.val : Int))
      = hits (words (W (Proc.devRef .tc main_arg4))) n := by
    unfold hits
    refine Finset.filter_congr fun e _ => ?_
    rw [V17.col_apply]; rfl
  rw [hset]
  refine Finset.sum_congr rfl fun e _ => ?_
  rw [GatherRows.gather_rows2 _ (by decide) rfl rfl rfl rfl rfl rfl]
  refine congrArg (fun r => (W (Proc.devRef .tc main_arg0) : S100000x128.Idx → EReal) (ix2 r d)) (Fin.ext ?_)
  show min _ _ = min _ _
  rw [V17.col_apply, V17.wrapped_apply]
  rfl

end Cert.KernelIdeal.HostVal

end
-- ==== Proof.KHostN3.lean ====
/-
  The result of a host operation over a literal family of THREE operands, with each operand's contents at its own
  reference, so that the contents of the operands can be rewritten further; and the rewriting of a straight line of host
  operations that uses it.  General; no program is imported.
-/
import Idealize.ShloMosaic.Lib.StableHlo.Run

namespace Cert.KernelIdeal.HostVal.N3

open Idealize.ShloMosaic Idealize.ShloMosaic.TcCoe Idealize.ShloMosaic.StableHlo

variable {τ : Topo} {sig : RefSig} {Val : EltTy → Type} {x a b y : Ref sig .tc}

/-- An operation over the three references `x`, `a`, `b` computes its function of their three contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for rewriting by simplification (the result reference is not used as an index key). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.KernelIdeal.HostVal.N3

namespace Cert.KernelIdeal.HostVal

open Idealize.ShloMosaic Idealize.ShloMosaic.StableHlo in
/-- The contents one buffer holds after a line of host operations, each operation's result rewritten at its own
    buffer to its function's value and at any other reference to what was there; a three-operand operation by
    `nary3_result`. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.reshape_result] | rw [Cert.KernelIdeal.HostVal.N3.nary3_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.reshape_result_ne]; rotate_left; decide)
               | (rw [Idealize.ShloMosaic.StableHlo.nary_result_ne]; rotate_left; decide))))

/-- The same rewriting as one simplification pass, for the longer lines. -/
macro "after_results3_simp" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.reshape_result', Cert.KernelIdeal.HostVal.N3.nary3_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.reshape_result_ne', Idealize.ShloMosaic.StableHlo.nary_result_ne']))

end Cert.KernelIdeal.HostVal
-- ==== Proof.KHostCat.lean ====
/-
  A concatenation of three blocks of 6, 3 and 1 columns read at an index written by coordinates: column `k` of the
  result is column `k` of the first block when `k < 6`, column `k - 6` of the second when `k < 9`, and the one column
  of the third otherwise.  For any element type and any number of rows.
-/
import Idealize.ShloMosaic.Lib.Pipeline.Value
import Idealize.ShloMosaic.Lib.ValueIdx

namespace Cert.KernelIdeal.HostVal.V4

open Idealize.ShloMosaic Idealize.ShloMosaic.ValueIdx

variable {α : Type}

theorem cat_cols_apply {E : ℕ} (x0 : (⟨2, ![E, 6]⟩ : Shape).Idx → α) (x1 : (⟨2, ![E, 3]⟩ : Shape).Idx → α)
    (x2 : (⟨2, ![E, 1]⟩ : Shape).Idx → α)
    (h : Shape.Concatenates [(⟨2, ![E, 6]⟩ : Shape), ⟨2, ![E, 3]⟩, ⟨2, ![E, 1]⟩] ⟨2, ![E, 10]⟩ 1) (e : Fin E) (k : Fin 10) :
    concatenate (⟨2, ![E, 10]⟩ : Shape) 1 [⟨⟨2, ![E, 6]⟩, x0⟩, ⟨⟨2, ![E, 3]⟩, x1⟩, ⟨⟨2, ![E, 1]⟩, x2⟩] h (ix2 e k)
      = if h6 : k.val < 6 then x0 (ix2 e ⟨k.val, h6⟩)
        else if h9 : k.val < 9 then x1 (ix2 e ⟨k.val - 6, by omega⟩) else x2 (ix2 e (0 : Fin 1)) := by
  split
  · next h6 =>
    refine concatenate_apply_piece (t := ⟨2, ![E, 10]⟩) 1 [⟨⟨2, ![E, 6]⟩, x0⟩, ⟨⟨2, ![E, 3]⟩, x1⟩, ⟨⟨2, ![E, 1]⟩, x2⟩] h (ix2 e k) 0 (by show (0 : ℕ) < 3; omega) ⟨2, ![E, 6]⟩ x0 rfl rfl 0 rfl
      (ix2 e ⟨k.val, h6⟩) (fun b hb => ?_) ?_
    · match b with
      | ⟨0, _⟩ => rfl
      | ⟨1, _⟩ => exact absurd rfl hb
    · show 0 + k.val = k.val
      omega
  · next h6 =>
    split
    · next h9 =>
      refine concatenate_apply_piece (t := ⟨2, ![E, 10]⟩) 1 [⟨⟨2, ![E, 6]⟩, x0⟩, ⟨⟨2, ![E, 3]⟩, x1⟩, ⟨⟨2, ![E, 1]⟩, x2⟩] h (ix2 e k) 1 (by show (1 : ℕ) < 3; omega) ⟨2, ![E, 3]⟩ x1 rfl rfl 6 rfl
        (ix2 e ⟨k.val - 6, by omega⟩) (fun b hb => ?_) ?_
      · match b with
        | ⟨0, _⟩ => rfl
        | ⟨1, _⟩ => exact absurd rfl hb
      · show 6 + (k.val - 6) = k.val
        omega
    · next h9 =>
      refine concatenate_apply_piece (t := ⟨2, ![E, 10]⟩) 1 [⟨⟨2, ![E, 6]⟩, x0⟩, ⟨⟨2, ![E, 3]⟩, x1⟩, ⟨⟨2, ![E, 1]⟩, x2⟩] h (ix2 e k) 2 (by show (2 : ℕ) < 3; omega) ⟨2, ![E, 1]⟩ x2 rfl rfl 9 rfl
        (ix2 e (0 : Fin 1)) (fun b hb => ?_) ?_
      · match b with
        | ⟨0, _⟩ => rfl
        | ⟨1, _⟩ => exact absurd rfl hb
      · show 9 + 0 = k.val
        have := k.isLt
        omega

end Cert.KernelIdeal.HostVal.V4
-- ==== Proof.KHost0b.lean ====
/-
  The first stretch of host operations of the kernel program, read at an index on the extended reals: the collected
  ten-column edge block.  Every edge's six and three feature columns and a column of ones are laid side by side, and the
  rows are then added onto the node the edge's destination word names, from zero.  Stated for arbitrary contents `W` of
  the buffers before the stretch.
-/
import proofs.«142321_j69939247448309_2_alg».proof.Proof.Gen.KernelIdeal.Regions
import proofs.«142321_j69939247448309_2_alg».proof.Proof.ArgsAt
import Idealize.ShloMosaic.Lib.IdealHost
import Idealize.ShloMosaic.Lib.ValueLayout
import Idealize.ShloMosaic.Lib.StableHlo.Run
import Idealize.ShloMosaic.PureOps.Ideal.Laws
import proofs.«142321_j69939247448309_2_alg».proof.Proof.LibHostScatterIdeal
import proofs.«142321_j69939247448309_2_alg».proof.Proof.LibScatterRows
import proofs.«142321_j69939247448309_2_alg».proof.Proof.LibGatherRows
import proofs.«142321_j69939247448309_2_alg».proof.Proof.LibHostRowScalar
import proofs.«142321_j69939247448309_2_alg».proof.Proof.KHostN3
import proofs.«142321_j69939247448309_2_alg».proof.Proof.KHostCat

noncomputable section

namespace Cert.KernelIdeal.HostVal

open Idealize.ShloMosaic Idealize.ShloMosaic.TcCoe Idealize.ShloMosaic.ValueIdx
open Cert.KernelIdeal Cert.KernelIdeal.Gen
open Cert.ArgsAt Cert.Spec
open scoped BigOperators

variable (W : Valuation τ sig (Elt Ideal))

/-- The destination words laid out as a column read, at row `e`, the word `e`. -/
theorem V4.col_apply (x : S1600000.Idx → BitVec 32) (e : Fin 1600000) :
    broadcastInDim S1600000x1 ![0] bcast_S1600000_S1600000x1_0 x (ix2 e (0 : Fin 1)) = x (ix1 e) :=
  broadcastInDim_vec_column_apply x _ e 0

/-- The edge block at `(e, k)`. -/
theorem V4.block_apply (x1 : S1600000x6.Idx → EReal) (x2 : S1600000x3.Idx → EReal) (e : Fin 1600000) (k : Fin 10) :
    concatenate S1600000x10 1
        [⟨S1600000x6, x1⟩, ⟨S1600000x3, x2⟩,
          ⟨S1600000x1, broadcastInDim S1600000x1 ![] bcast_S_S1600000x1 (constant (F := Ideal) S_ .f32 0x3F800000#32)⟩]
        concatenates_S1600000x6_S1600000x3_S1600000x1_S1600000x10_d1 (ix2 e k)
      = efAug (mat x1) (mat x2) e k := by
  rw [V4.cat_cols_apply, broadcastInDim_scalar_apply, constant_apply, Ideal.ofBits_one_f32]
  rfl

/-- The stretch from its third operation on, over arbitrary contents `V`: the collected block from the three pieces. -/
theorem V4.tail_line (V : Valuation τ sig (Elt Ideal)) :
    (StableHlo.after ((Gen.hostOps0 (F := Ideal)).drop 2) V (Proc.devRef .tc main_v4) : S100000x10.Idx → EReal)
      = Host.scatterAdd (F := Ideal) scatter_S100000x10_S1600000x1_S1600000x10_1_0_0_1
          (broadcastInDim S100000x10 ![] bcast_S_S100000x10 (constant (F := Ideal) S_ .f32 0x00000000#32))
          (broadcastInDim S1600000x1 ![0] bcast_S1600000_S1600000x1_0 (V (Proc.devRef .tc main_arg4) : S1600000.Idx → BitVec 32))
          (concatenate S1600000x10 1
            [⟨S1600000x6, (V (Proc.devRef .tc main_arg1) : S1600000x6.Idx → EReal)⟩,
              ⟨S1600000x3, (V (Proc.devRef .tc main_arg2) : S1600000x3.Idx → EReal)⟩,
              ⟨S1600000x1, (V (Proc.devRef .tc main_v0) : S1600000x1.Idx → EReal)⟩]
            concatenates_S1600000x6_S1600000x3_S1600000x1_S1600000x10_d1) := by
  simp only [Gen.hostOps0, List.drop_succ_cons, List.drop_zero]
  after_results3_simp
  exact congrArg (Host.scatterAdd (F := Ideal) scatter_S100000x10_S1600000x1_S1600000x10_1_0_0_1 _ _) rfl

/-- The first two operations leave the argument arrays as they were and write the column of ones. -/
theorem V4.head_line :
    (StableHlo.after ((Gen.hostOps0 (F := Ideal)).take 2) W (Proc.devRef .tc main_arg4) = W (Proc.devRef .tc main_arg4))
      ∧ (StableHlo.after ((Gen.hostOps0 (F := Ideal)).take 2) W (Proc.devRef .tc main_arg1) = W (Proc.devRef .tc main_arg1))
      ∧ (StableHlo.after ((Gen.hostOps0 (F := Ideal)).take 2) W (Proc.devRef .tc main_arg2) = W (Proc.devRef .tc main_arg2))
      ∧ ((StableHlo.after ((Gen.hostOps0 (F := Ideal)).take 2) W (Proc.devRef .tc main_v0) : S1600000x1.Idx → EReal)
          = broadcastInDim S1600000x1 ![] bcast_S_S1600000x1 (constant (F := Ideal) S_ .f32 0x3F800000#32)) := by
  simp only [Gen.hostOps0, List.take_succ_cons, List.take_zero]
  refine ⟨?_, ?_, ?_, ?_⟩ <;> after_results_simp

theorem v4_apply (n : Fin 100000) (k : Fin 10) :
    (StableHlo.after (Gen.hostOps0 (F := Ideal)) W (Proc.devRef .tc main_v4) : S100000x10.Idx → EReal) (ix2 n k)
      = 0 + ∑ e ∈ hits (words (W (Proc.devRef .tc main_arg4))) n,
          efAug (mat (W (Proc.devRef .tc main_arg1))) (mat (W (Proc.devRef .tc main_arg2))) e k := by
  have hs : StableHlo.after (Gen.hostOps0 (F := Ideal)) W
      = StableHlo.after ((Gen.hostOps0 (F := Ideal)).drop 2) (StableHlo.after ((Gen.hostOps0 (F := Ideal)).take 2) W) := by
    rw [← StableHlo.after_append, List.take_append_drop]
  obtain ⟨h4, h1, h2, h0⟩ := V4.head_line W
  rw [hs, V4.tail_line, h4, h1, h2, h0, Host.scatterAdd_ideal]
  refine (ScatterRows.hostScatterAdd_rows2 _ rfl rfl rfl rfl _ _ _ n k).trans ?_
  rw [broadcastInDim_scalar_apply, constant_apply, Ideal.ofBits_zero_f32]
  refine congrArg (fun s => (0 : EReal) + s) ?_
  have hset : (Finset.univ.filter fun e : Fin 1600000 =>
      ((broadcastInDim S1600000x1 ![0] bcast_S1600000_S1600000x1_0
        (W (Proc.devRef .tc main_arg4) : S1600000.Idx → BitVec 32)) (ix2 e (0 : Fin 1))).toInt = (n.val : Int))
      = hits (words (W (Proc.devRef .tc main_arg4))) n := by
    unfold hits
    refine Finset.filter_congr fun e _ => ?_
    rw [V4.col_apply]; rfl
  rw [hset]
  exact Finset.sum_congr rfl fun e _ => V4.block_apply _ _ e k

end Cert.KernelIdeal.HostVal

end
-- ==== Proof.KHost0c.lean ====
/-
  The first stretch of host operations of the kernel program, read at an index on the extended reals, at three of the
  buffers it leaves for the first region: the ten stacked weight rows (the two edge weight matrices one above the
  other, then one row holding the sum of the two edge biases), and the two bias vectors of the perceptron laid out as
  one-row matrices.  Stated for arbitrary contents `W` of the buffers before the stretch.  The stretch is in
  single-assignment form, so what a buffer holds after the whole stretch is its own operation applied to what the
  operands hold after the whole stretch.
-/
import proofs.«142321_j69939247448309_2_alg».proof.Proof.Gen.KernelIdeal.Regions
import proofs.«142321_j69939247448309_2_alg».proof.Proof.ArgsAt
import proofs.«142321_j69939247448309_2_alg».proof.Proof.LibLine
import Idealize.ShloMosaic.Lib.IdealHost
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostVal

open Idealize.ShloMosaic Idealize.ShloMosaic.TcCoe Idealize.ShloMosaic.ValueIdx
open Cert.KernelIdeal Cert.KernelIdeal.Gen
open Cert.ArgsAt Cert.Spec
open scoped BigOperators

variable (W : Valuation τ sig (Elt Ideal))

/-- Operation by operation, the first stretch writes exactly the listed references, one each. -/
theorem V7.line : Cert.LibLine.WritesAre (Gen.hostOps0 (F := Ideal)) Gen.hostOps0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))

/-- A buffer the stretch does not write keeps its contents. -/
theorem kept0 (r : Ref sig .tc) (h : r ∉ Gen.hostOps0_W) :
    StableHlo.after (Gen.hostOps0 (F := Ideal)) W (Proc.devRef .tc r) = W (Proc.devRef .tc r) :=
  StableHlo.after_of_writes_sub Gen.hostOps0 _ Gen.hostOps0_writes h
theorem kept0_arg0 : StableHlo.after (Gen.hostOps0 (F := Ideal)) W (Proc.devRef .tc main_arg0) = W (Proc.devRef .tc main_arg0) :=
  kept0 W main_arg0 (by decide)
theorem kept0_arg1 : StableHlo.after (Gen.hostOps0 (F := Ideal)) W (Proc.devRef .tc main_arg1) = W (Proc.devRef .tc main_arg1) :=
  kept0 W main_arg1 (by decide)
theorem kept0_arg2 : StableHlo.after (Gen.hostOps0 (F := Ideal)) W (Proc.devRef .tc main_arg2) = W (Proc.devRef .tc main_arg2) :=
  kept0 W main_arg2 (by decide)
theorem kept0_arg3 : StableHlo.after (Gen.hostOps0 (F := Ideal)) W (Proc.devRef .tc main_arg3) = W (Proc.devRef .tc main_arg3) :=
  kept0 W main_arg3 (by decide)
theorem kept0_arg4 : StableHlo.after (Gen.hostOps0 (F := Ideal)) W (Proc.devRef .tc main_arg4) = W (Proc.devRef .tc main_arg4) :=
  kept0 W main_arg4 (by decide)
theorem kept0_arg5 : StableHlo.after (Gen.hostOps0 (F := Ideal)) W (Proc.devRef .tc main_arg5) = W (Proc.devRef .tc main_arg5) :=
  kept0 W main_arg5 (by decide)
theorem kept0_arg6 : StableHlo.after (Gen.hostOps0 (F := Ideal)) W (Proc.devRef .tc main_arg6) = W (Proc.devRef .tc main_arg6) :=
  kept0 W main_arg6 (by decide)
theorem kept0_arg7 : StableHlo.after (Gen.hostOps0 (F := Ideal)) W (Proc.devRef .tc main_arg7) = W (Proc.devRef .tc main_arg7) :=
  kept0 W main_arg7 (by decide)
theorem kept0_arg8 : StableHlo.after (Gen.hostOps0 (F := Ideal)) W (Proc.devRef .tc main_arg8) = W (Proc.devRef .tc main_arg8) :=
  kept0 W main_arg8 (by decide)
theorem kept0_arg9 : StableHlo.after (Gen.hostOps0 (F := Ideal)) W (Proc.devRef .tc main_arg9) = W (Proc.devRef .tc main_arg9) :=
  kept0 W main_arg9 (by decide)
theorem kept0_arg10 : StableHlo.after (Gen.hostOps0 (F := Ideal)) W (Proc.devRef .tc main_arg10) = W (Proc.devRef .tc main_arg10) :=
  kept0 W main_arg10 (by decide)
theorem kept0_arg11 : StableHlo.after (Gen.hostOps0 (F := Ideal)) W (Proc.devRef .tc main_arg11) = W (Proc.devRef .tc main_arg11) :=
  kept0 W main_arg11 (by decide)
theorem kept0_arg12 : StableHlo.after (Gen.hostOps0 (F := Ideal)) W (Proc.devRef .tc main_arg12) = W (Proc.devRef .tc main_arg12) :=
  kept0 W main_arg12 (by decide)
theorem kept0_arg13 : StableHlo.after (Gen.hostOps0 (F := Ideal)) W (Proc.devRef .tc main_arg13) = W (Proc.devRef .tc main_arg13) :=
  kept0 W main_arg13 (by decide)
theorem kept0_arg14 : StableHlo.after (Gen.hostOps0 (F := Ideal)) W (Proc.devRef .tc main_arg14) = W (Proc.devRef .tc main_arg14) :=
  kept0 W main_arg14 (by decide)

/-! ## The two reshaped bias vectors -/

theorem v18_apply (j : Fin 256) :
    (StableHlo.after (Gen.hostOps0 (F := Ideal)) W (Proc.devRef .tc main_v18) : S1x256.Idx → EReal) (ix2 (0 : Fin 1) j)
      = vec (W (Proc.devRef .tc main_arg10) : S256.Idx → EReal) j := by
  have e : (StableHlo.after (Gen.hostOps0 (F := Ideal)) W (Proc.devRef .tc main_v18) : S1x256.Idx → EReal)
      = shapeCast S1x256 (W (Proc.devRef .tc main_arg10) : S256.Idx → EReal) shapeCasts_S256_S1x256 := by
    rw [Cert.LibLine.stage_reshape V7.line 23 main_arg10 main_v18 rfl shapeCasts_S256_S1x256 rfl (by decide) (by decide) W,
      kept0_arg10]; rfl
  rw [e, shapeCast_a_1a_apply]; rfl

theorem v19_apply (d : Fin 128) :
    (StableHlo.after (Gen.hostOps0 (F := Ideal)) W (Proc.devRef .tc main_v19) : S1x128.Idx → EReal) (ix2 (0 : Fin 1) d)
      = vec (W (Proc.devRef .tc main_arg12) : S128.Idx → EReal) d := by
  have e : (StableHlo.after (Gen.hostOps0 (F := Ideal)) W (Proc.devRef .tc main_v19) : S1x128.Idx → EReal)
      = shapeCast S1x128 (W (Proc.devRef .tc main_arg12) : S128.Idx → EReal) shapeCasts_S128_S1x128 := by
    rw [Cert.LibLine.stage_reshape V7.line 24 main_arg12 main_v19 rfl shapeCasts_S128_S1x128 rfl (by decide) (by decide) W,
      kept0_arg12]; rfl
  rw [e, shapeCast_a_1a_apply]; rfl

/-! ## The ten stacked weight rows -/

/-- Three row blocks of six, three and one rows stacked along the row axis, read at row `k`: the block whose span of
    rows holds `k`, at `k` less the rows above the block. -/
theorem V7.rows_apply (x0 : S6x128.Idx → EReal) (x1 : S3x128.Idx → EReal) (x2 : S1x128.Idx → EReal)
    (h : Shape.Concatenates [S6x128, S3x128, S1x128] S10x128 0) (k : Fin 10) (d : Fin 128) :
    concatenate S10x128 0 [⟨S6x128, x0⟩, ⟨S3x128, x1⟩, ⟨S1x128, x2⟩] h (ix2 k d)
      = if h6 : k.val < 6 then x0 (ix2 ⟨k.val, h6⟩ d)
        else if h9 : k.val < 9 then x1 (ix2 ⟨k.val - 6, by omega⟩ d) else x2 (ix2 (0 : Fin 1) d) := by
  split_ifs with h6 h9
  · exact concatenate_apply_piece (0 : Fin S10x128.rank) [⟨S6x128, x0⟩, ⟨S3x128, x1⟩, ⟨S1x128, x2⟩] h (ix2 k d) 0 (by show 0 < 3; omega) S6x128 x0 rfl rfl 0 rfl
      (ix2 ⟨k.val, h6⟩ d) (fun b hb => by fin_cases b <;> first | exact absurd rfl hb | rfl) (by show 0 + k.val = k.val; omega)
  · exact concatenate_apply_piece (0 : Fin S10x128.rank) [⟨S6x128, x0⟩, ⟨S3x128, x1⟩, ⟨S1x128, x2⟩] h (ix2 k d) 1 (by show 1 < 3; omega) S3x128 x1 rfl rfl 6 rfl
      (ix2 ⟨k.val - 6, by omega⟩ d) (fun b hb => by fin_cases b <;> first | exact absurd rfl hb | rfl) (by show 6 + (k.val - 6) = k.val; omega)
  · exact concatenate_apply_piece (0 : Fin S10x128.rank) [⟨S6x128, x0⟩, ⟨S3x128, x1⟩, ⟨S1x128, x2⟩] h (ix2 k d) 2 (by show 2 < 3; omega) S1x128 x2 rfl rfl 9 rfl
      (ix2 (0 : Fin 1) d) (fun b hb => by fin_cases b <;> first | exact absurd rfl hb | rfl) (by show 9 + 0 = k.val; omega)

theorem v7_apply (k : Fin 10) (d : Fin 128) :
    (StableHlo.after (Gen.hostOps0 (F := Ideal)) W (Proc.devRef .tc main_v7) : S10x128.Idx → EReal) (ix2 k d)
      = wAug (mat (W (Proc.devRef .tc main_arg5) : S6x128.Idx → EReal)) (vec (W (Proc.devRef .tc main_arg6) : S128.Idx → EReal))
          (mat (W (Proc.devRef .tc main_arg7) : S3x128.Idx → EReal)) (vec (W (Proc.devRef .tc main_arg8) : S128.Idx → EReal)) k d := by
  have e6 : (StableHlo.after (Gen.hostOps0 (F := Ideal)) W (Proc.devRef .tc main_v6) : S1x128.Idx → EReal)
      = shapeCast S1x128 ((addf (F := Ideal) (φ := .f32) (W (Proc.devRef .tc main_arg6) : S128.Idx → EReal) (W (Proc.devRef .tc main_arg8) : S128.Idx → EReal)) : S128.Idx → EReal)
          shapeCasts_S128_S1x128 := by
    rw [Cert.LibLine.stage_reshape V7.line 8 main_v5 main_v6 rfl shapeCasts_S128_S1x128 rfl (by decide) (by decide) W,
      Cert.LibLine.stage_binary V7.line 7 main_arg6 main_arg8 main_v5 _ rfl (by decide) (by decide) (by decide) W,
      kept0_arg6, kept0_arg8]; rfl
  have e : (StableHlo.after (Gen.hostOps0 (F := Ideal)) W (Proc.devRef .tc main_v7) : S10x128.Idx → EReal)
      = concatenate S10x128 0
          [⟨S6x128, (StableHlo.after (Gen.hostOps0 (F := Ideal)) W (Proc.devRef .tc main_arg5) : S6x128.Idx → EReal)⟩,
           ⟨S3x128, (StableHlo.after (Gen.hostOps0 (F := Ideal)) W (Proc.devRef .tc main_arg7) : S3x128.Idx → EReal)⟩,
           ⟨S1x128, (StableHlo.after (Gen.hostOps0 (F := Ideal)) W (Proc.devRef .tc main_v6) : S1x128.Idx → EReal)⟩]
          concatenates_S6x128_S3x128_S1x128_S10x128_d0 :=
    Cert.LibLine.stage_nary V7.line 9 ![main_arg5, main_arg7, main_v6] main_v7 _ rfl (by decide) (by decide) W
  rw [e, e6, kept0_arg5, kept0_arg7, V7.rows_apply]
  unfold wAug
  split_ifs with h6 h9
  · rfl
  · rfl
  · rw [shapeCast_a_1a_apply]; rfl

end Cert.KernelIdeal.HostVal

end
-- ==== Proof.KResult.lean ====
/-
  The kernel program's final array at (n, d), from the launch memory alone: the first host stretch's collections,
  stacked weight rows and bias rows, read by coordinates, are supplied to the walk through the six segments.
-/
import proofs.«142321_j69939247448309_2_alg».proof.Proof.KCompose
import proofs.«142321_j69939247448309_2_alg».proof.Proof.KHost0a
import proofs.«142321_j69939247448309_2_alg».proof.Proof.KHost0b
import proofs.«142321_j69939247448309_2_alg».proof.Proof.KHost0c

set_option maxRecDepth 16384

noncomputable section

open scoped BigOperators
open Idealize.ShloMosaic Idealize.ShloMosaic.TcCoe Idealize.ShloMosaic.ValueIdx Idealize.SL.Sem
open Cert.KernelIdeal Cert.KernelIdeal.Gen Cert.KernelIdeal.Hand
open Cert.Spec Cert.ArgsAt

namespace Cert.KernelIdeal.Compose

/-- The final array at (n, d) is the specification's result of the kernel's aggregate of the argument arrays. -/
theorem result_apply (m : (ℓ : Loc nD τ sig) → Buf (Elt Ideal) ℓ) (ρ : Dev nD → PrngReg) (c : Dev nD)
    (n : Fin 100000) (d : Fin 128) :
    (W6 m ρ c (Proc.devRef .tc main_v33) : S100000x128.Idx → EReal) (ix2 n d)
      = Cert.ArgsAt.result (Cert.ArgsAt.kerAgg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) n d :=
  result_apply_of m ρ c
    (fun n d => HostVal.v17_apply (W0 m ρ c) n d)
    (fun n k => HostVal.v4_apply (W0 m ρ c) n k)
    (fun k d => HostVal.v7_apply (W0 m ρ c) k d)
    (fun j => HostVal.v18_apply (W0 m ρ c) j)
    (fun d => HostVal.v19_apply (W0 m ρ c) d)
    (HostVal.kept0_arg9 (W0 m ρ c))
    (HostVal.kept0_arg11 (W0 m ρ c))
    (HostVal.kept0_arg13 (W0 m ρ c))
    (HostVal.kept0_arg14 (W0 m ρ c))
    n d

end Cert.KernelIdeal.Compose

end
-- ==== Proof.lean ====
/-
  The certificate of the graph-convolution kernel against its reference, on the extended reals.

  The reference sums, per destination node, each edge's source row plus its two affine edge embeddings, applies a
  two-layer perceptron and normalises over the node axis with the batch mean and (biased) variance.  The kernel
  uses that the sum over a node's edges is additive: it collects the source rows alone, collects a ten-column edge
  block (the two feature families and a column of ones), and multiplies the collected block once with the ten stacked
  weight rows (the two weight matrices and the sum of the two biases); the perceptron and the normalisation run in
  three pipelined regions over twenty blocks of 5000 nodes, the batch sums being formed block by block.  Splitting a
  finite sum of `x + y` into two sums holds for all extended reals; moving the weights out of the edge sums needs the
  edge features, edge weights and edge biases to be real numbers, which the precondition gives; regrouping the node
  sums into blocks is associativity and commutativity.  So both programs end with the same array (`algebraic`).
  Each program terminates without a fault and leaves its arguments unchanged (the three frames); the idealised
  kernel is the kernel's own text (`preserves` is trivial).
-/
import proofs.«142321_j69939247448309_2_alg».proof.Defs
import proofs.«142321_j69939247448309_2_alg».proof.Proof.Gen.Kernel
import proofs.«142321_j69939247448309_2_alg».proof.Proof.Gen.KernelIdeal
import proofs.«142321_j69939247448309_2_alg».proof.Proof.Gen.ReferenceIdeal
import proofs.«142321_j69939247448309_2_alg».proof.Proof.Gen.Pre_finite_inputs
import proofs.«142321_j69939247448309_2_alg».proof.Proof.KFrame
import proofs.«142321_j69939247448309_2_alg».proof.Proof.KBFrame
import proofs.«142321_j69939247448309_2_alg».proof.Proof.RefRun
import proofs.«142321_j69939247448309_2_alg».proof.Proof.FiniteArgs
import proofs.«142321_j69939247448309_2_alg».proof.Proof.RefValue
import proofs.«142321_j69939247448309_2_alg».proof.Proof.KResult
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel terminates, faults nowhere and leaves its arguments as launched. -/
theorem frame_k : Cert.frame_Kernel := fun m ρ _ => Cert.Kernel.Hand.frame (F := Bits) m ρ

/-- So does the kernel read on the extended reals. -/
theorem frame_ki : Cert.frame_KernelIdeal := fun m ρ _ => Cert.KernelIdeal.Hand.frame (F := Ideal) m ρ

/-- So does the reference: its run, with the result dropped. -/
theorem frame_ri : Cert.frame_ReferenceIdeal := fun m ρ _ =>
  (θ_run Cert.ReferenceIdeal.defs _ _).mono (fun _ h c => (h c).2) (Cert.ReferenceIdeal.RefRun.run m ρ)

/-- The idealised kernel is the kernel's own text: nothing was rewritten. -/
theorem preserves : Cert.preserves_Kernel_KernelIdeal := trivial

/-- From memories agreeing on the arguments both programs end with the same array: the kernel's result is the common
    downstream function of the kernel's aggregate, the reference's of the reference's aggregate, and under the
    precondition the two aggregates agree. -/
theorem algebraic : Cert.algebraic_KernelIdeal_ReferenceIdeal := by
  intro m ρ m' ρ' hpre hagree
  refine ⟨fun c => Cert.KernelIdeal.Hand.W6 m ρ c (Proc.devRef .tc Cert.KernelIdeal.main_v33),
    Cert.KernelIdeal.Hand.run_value (F := Ideal) m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11, h12, h13, h14⟩ := hagree c
  rw [h0, h1, h2, h3, h4, h5, h6, h7, h8, h9, h10, h11, h12, h13, h14]
  funext i
  obtain ⟨n, d, rfl⟩ : ∃ (n : Fin 100000) (d : Fin 128), i = ix2 n d := ⟨i 0, i 1, eq_ix2 i⟩
  refine (Cert.ReferenceIdeal.RefValue.refResult_apply _ _ _ _ _ _ _ _ _ _ _ _ _ _ _ n d).trans ?_
  refine Eq.trans ?_ (Cert.KernelIdeal.Compose.result_apply m ρ c n d).symm
  exact (congrFun (congrFun (Cert.Finite.result_ker_eq_ref_of_pre _ _ _ _ _ _ _ _ _ _ _ _ _ _ _ (hpre c)) n) d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
